-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_v47 : IVec S_ 1) (main_v49 : IVec S2x800000 1) (main_c_19 : IVec S_ 1) : IVec S_ 1 :=
  let main_v50 : IVec S_ 1 := (fun x v => Host.reduce IntOp.andi x v reducesTo_S2x800000_S_d0_1 h_S_) main_v49 main_c_19
  let main_v51 : IVec S_ 1 := andi main_v47 main_v50
  main_v51

def fn_part2 {F : FTy → Type} [FloatOps F] (main_arg1 : IVec S2x800000 32) (main_arg8 : FVec F S64x16 .f32) (main_arg9 : FVec F S16 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 1 := constantI S_ 1 1#1
  let main_v46 : IVec S_ 1 := (fun x v => Host.reduce IntOp.andi x v reducesTo_S2x800000_S_d0_1 h_S_) main_v45 main_c_17
  let main_v47 : IVec S_ 1 := andi main_v43 main_v46
  let main_c_18 : IVec S_ 32 := constantI S_ 32 100000#32
  let main_v48 : IVec S2x800000 32 := broadcastInDim S2x800000 ![] bcast_S_S2x800000 main_c_18
  let main_v49 : IVec S2x800000 1 := cmpi .slt main_arg1 main_v48
  let main_c_19 : IVec S_ 1 := constantI S_ 1 1#1
  fn_part3 (F := F) main_v47 main_v49 main_c_19

def fn_part1 {F : FTy → Type} [FloatOps F] (main_arg1 : IVec S2x800000 32) (main_arg5 : FVec F S64 .f32) (main_arg6 : FVec F S64x64 .f32) (main_arg7 : FVec F S64 .f32) (main_arg8 : FVec F S64x16 .f32) (main_arg9 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S100000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x16 .f32) (main_arg9 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S10000x64 : Shape := ⟨2, ![10000, 64]⟩
abbrev S1x64 : Shape := ⟨2, ![1, 64]⟩
abbrev S100000 : Shape := ⟨1, ![100000]⟩
abbrev S100000x1 : Shape := ⟨2, ![100000, 1]⟩
abbrev S1x16 : Shape := ⟨2, ![1, 16]⟩

abbrev nBuf : Space → Nat
  | .hbm => 126
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .f32⟩
  | .hbm, ⟨33, _⟩ => ⟨S100000x64, .f32⟩
  | .hbm, ⟨34, _⟩ => ⟨S800000x1, .i32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S800000x1, .i32⟩
  | .hbm, ⟨40, _⟩ => ⟨S100000x64, .f32⟩
  | .hbm, ⟨41, _⟩ => ⟨S100000x64, .f32⟩
  | .hbm, ⟨42, _⟩ => ⟨S100000x64, .bf16⟩
  | .hbm, ⟨43, _⟩ => ⟨S100000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .bf16⟩
  | .hbm, ⟨53, _⟩ => ⟨S800000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .bf16⟩
  | .hbm, ⟨63, _⟩ => ⟨S800000x64, .f32⟩
  | .hbm, ⟨64, _⟩ => ⟨S_, .f32⟩
  | .hbm, ⟨65, _⟩ => ⟨S100000x64, .f32⟩
  | .hbm, ⟨66, _⟩ => ⟨S800000x1, .i32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S800000x1, .i32⟩
  | .hbm, ⟨72, _⟩ => ⟨S100000x64, .f32⟩
  | .hbm, ⟨73, _⟩ => ⟨S100000x64, .f32⟩
  | .hbm, ⟨74, _⟩ => ⟨S100000x64, .bf16⟩
  | .hbm, ⟨75, _⟩ => ⟨S100000x64, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x64, .bf16⟩
  | .hbm, ⟨85, _⟩ => ⟨S800000x64, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x64, .bf16⟩
  | .hbm, ⟨95, _⟩ => ⟨S800000x64, .f32⟩
  | .hbm, ⟨96, _⟩ => ⟨S_, .f32⟩
  | .hbm, ⟨97, _⟩ => ⟨S100000x64, .f32⟩
  | .hbm, ⟨98, _⟩ => ⟨S800000x1, .i32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S800000x1, .i32⟩
  | .hbm, ⟨104, _⟩ => ⟨S100000x64, .f32⟩
  | .hbm, ⟨105, _⟩ => ⟨S100000x64, .f32⟩
  | .hbm, ⟨106, _⟩ => ⟨S100000x64, .bf16⟩
  | .hbm, ⟨107, _⟩ => ⟨S_, .f32⟩
  | .hbm, ⟨108, _⟩ => ⟨S800000, .f32⟩
  | .hbm, ⟨109, _⟩ => ⟨S_, .f32⟩
  | .hbm, ⟨110, _⟩ => ⟨S100000, .f32⟩
  | .hbm, ⟨111, _⟩ => ⟨S800000x1, .i32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S800000x1, .i32⟩
  | .hbm, ⟨116, _⟩ => ⟨S100000, .f32⟩
  | .hbm, ⟨117, _⟩ => ⟨S_, .f32⟩
  | .hbm, ⟨118, _⟩ => ⟨S100000, .f32⟩
  | .hbm, ⟨119, _⟩ => ⟨S100000, .f32⟩
  | .hbm, ⟨120, _⟩ => ⟨S100000, .f32⟩
  | .hbm, ⟨121, _⟩ => ⟨S100000x1, .f32⟩
  | .hbm, ⟨122, _⟩ => ⟨S100000x64, .f32⟩
  | .hbm, ⟨123, _⟩ => ⟨S100000x64, .f32⟩
  | .hbm, ⟨124, _⟩ => ⟨S100000x64, .f32⟩
  | .hbm, ⟨125, _⟩ => ⟨S1x16, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .bf16⟩
  | .local _ .vmem, ⟨5, _⟩ => ⟨S10000x64, .bf16⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .bf16⟩
  | .local _ .vmem, ⟨11, _⟩ => ⟨S10000x64, .bf16⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S64, .f32⟩
  | .local _ .vmem, ⟨16, _⟩ => ⟨S10000x64, .bf16⟩
  | .local _ .vmem, ⟨17, _⟩ => ⟨S10000x64, .bf16⟩
  | .local _ .vmem, ⟨18, _⟩ => ⟨S10000x64, .f32⟩
  | .local _ .vmem, ⟨19, _⟩ => ⟨S10000x64, .f32⟩
  | .local _ .vmem, ⟨20, _⟩ => ⟨S64x16, .f32⟩
  | .local _ .vmem, ⟨21, _⟩ => ⟨S16, .f32⟩
  | .local _ .vmem, ⟨22, _⟩ => ⟨S1x16, .f32⟩
  | .local _ .vmem, ⟨23, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S10000x64_S64 : S10000x64.Reduces [0] S64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  inb_S1x16_S1x16_0_0 : ∀ a, (![0, 0] : Fin 2 → Nat) a + S1x16.size a ≤ S1x16.size a
  h_S1x16 : 0 < S1x16.numel
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S10000x64_S64x64_S10000x64_1_0_0_1_n_n_wf : DotDims.WF S10000x64 S64x64 S10000x64 [1] [0] [0] [1] [] []
  scatter_S100000_S800000x1_S800000_n_0_0_1_wf : ScatterDims.WF S100000 S800000x1 S800000 [] [0] [0] 1
  dot_S1x64_S64x16_S1x16_1_0_0_1_n_n_wf : DotDims.WF S1x64 S64x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .bf16 = 32 ∨ (Rect.block (s := S100000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x16.size a ≤ S64x16.size a
  hwx3_1 : ∀ i : grid3.Coords, EltTy.bits .f32 = 32 ∨ (Rect.block (s := S64x16) S64x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16.size a ≤ S16.size a
  hwx3_2 : ∀ i : grid3.Coords, EltTy.bits .f32 = 32 ∨ (Rect.block (s := S16) S16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S1x64_S64x16_S1x16_1_0_0_1_n_n : DotDims S1x64 S64x16 S1x16 where
  lhsContracting := [1]
  rhsContracting := [0]
  lhsNonContracting := [0]
  rhsNonContracting := [1]
  lhsBatch := []
  rhsBatch := []
  wf := dot_S1x64_S64x16_S1x16_1_0_0_1_n_n_wf

abbrev win0_0 : Pipeline.Window sig grid0 :=
  Pipeline.Window.ofSpec (Memref.whole main_v25) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v77) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v92) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S1x16.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 157
  | .vmem => 0
  | .smem => 0
  | _ => 0

abbrev hbmTy0_0 (i : Nat) : BufTy := match i % 128 with
  | 0 => ⟨S100000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x16, .f32⟩
  | 9 => ⟨S16, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S_, .f32⟩
  | 24 => ⟨S100000x64, .f32⟩
  | 25 => ⟨S800000x1, .i32⟩
  | 26 => ⟨S100000x64, .f32⟩
  | 27 => ⟨S100000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S_, .f32⟩
  | 38 => ⟨S100000x64, .f32⟩
  | 39 => ⟨S800000x1, .i32⟩
  | 40 => ⟨S100000x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S_, .f32⟩
  | 59 => ⟨S100000x64, .f32⟩
  | 60 => ⟨S800000x1, .i32⟩
  | 61 => ⟨S100000x64, .f32⟩
  | 62 => ⟨S100000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S_, .f32⟩
  | 73 => ⟨S100000x64, .f32⟩
  | 74 => ⟨S800000x1, .i32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S_, .f32⟩
  | 94 => ⟨S100000x64, .f32⟩
  | 95 => ⟨S800000x1, .i32⟩
  | 96 => ⟨S100000x64, .f32⟩
  | 97 => ⟨S100000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S_, .f32⟩
  | 108 => ⟨S100000x64, .f32⟩
  | 109 => ⟨S800000x1, .i32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S100000x64, .f32⟩

abbrev hbmTy0_1 (i : Nat) : BufTy := match i % 128 with
  | 0 => ⟨S_, .f32⟩
  | 1 => ⟨S100000x64, .f32⟩
  | 2 => ⟨S800000x1, .i32⟩
  | 3 => ⟨S100000x64, .f32⟩
  | 4 => ⟨S100000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S_, .f32⟩
  | 15 => ⟨S100000x64, .f32⟩
  | 16 => ⟨S800000x1, .i32⟩
  | 17 => ⟨S100000x64, .f32⟩
  | 18 => ⟨S100000x64, .f32⟩
  | 19 => ⟨S100000x16, .f32⟩
  | 20 => ⟨S1x16, .f32⟩
  | 21 => ⟨S100000x16, .f32⟩
  | 22 => ⟨S100000x16, .f32⟩
  | 23 => ⟨S_, .f32⟩
  | 24 => ⟨S16, .f32⟩
  | 25 => ⟨S1x16, .f32⟩
  | 26 => ⟨S_, .f32⟩
  | 27 => ⟨S1x16, .f32⟩
  | 28 => ⟨S1x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call2_cst : Ref sig .tc := ⟨.hbm, 116, rfl⟩
abbrev main_call2_v0 : Ref sig .tc := ⟨.hbm, 117, rfl⟩
abbrev main_v84 : Ref sig .tc := ⟨.hbm, 118, rfl⟩
abbrev main_c_16 : Ref sig .tc := ⟨.hbm, 119, rfl⟩
abbrev main_v85 : Ref sig .tc := ⟨.hbm, 120, rfl⟩
abbrev main_v86 : Ref sig .tc := ⟨.hbm, 121, rfl⟩
abbrev main_c_17 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_19 : Ref sig .tc := ⟨.hbm, 133, rfl⟩
abbrev main_v96 : Ref sig .tc := ⟨.hbm, 134, rfl⟩
abbrev main_v97 : Ref sig .tc := ⟨.hbm, 135, rfl⟩
abbrev main_c_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_21 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_22 : Ref sig .tc := ⟨.hbm, 151, rfl⟩
abbrev main_v111 : Ref sig .tc := ⟨.hbm, 152, rfl⟩
abbrev main_v112 : Ref sig .tc := ⟨.hbm, 153, rfl⟩
abbrev main_cst_23 : Ref sig .tc := ⟨.hbm, 154, rfl⟩
abbrev main_v113 : Ref sig .tc := ⟨.hbm, 155, rfl⟩
abbrev main_v114 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S1x16 : S_.BroadcastsInDim S1x16 (![] : Fin 0 → Fin S1x16.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.K.Region0.lean ====
/- The class-A half of pallas_call 0 of @main (`cc0__linear_relu_kernel`, pipeline 0), stated at a PARAMETER `V`:
   the TensorCore's buffer contents when the region is entered. Each window's block at a grid point, what the body
   leaves in the output window's staging buffer (one whole-block store of the skeleton's payload), the body's
   triple, the pipeline's proof data and the library's body obligation at every point. The windows: 0 the rows
   (a block of 10000 rows per point), 1 the weights and 2 the bias (fetched at the first point, their block index
   never moving), 3 the bf16 result (written back at every point). -/
import proofs.«154293_j5291399708984_2_alg».proof.Proof.Gen.Kernel.Launch
import proofs.«154293_j5291399708984_2_alg».proof.Proof.Gen.Kernel.Skeleton
import proofs.«154293_j5291399708984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: pallas_call 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved
    since the point that fetched it. The windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S64 := Rect.unit (s := S64) ![0] S64.size inb_S64_S64_0
abbrev r0_3 : Rect S10000x64 := Rect.unit (s := S10000x64) ![0, 0] S10000x64.size inb_S10000x64_S10000x64_0_0

/-! ## What the body leaves in the output window's buffer -/

/-- Window 3's staging buffer after the body, from the input windows' blocks: its one store, of the whole block,
    of the skeleton's payload of the three loaded values. -/
def out0_3 (x0 : Vec F S10000x64 .f32) (x1 : Vec F S64x64 .f32) (x2 : Vec F S64 .f32) : Vec F S10000x64 .bf16 :=
  View.canon [⟨r0_3, k0_pay1 (View.ld x0 r0_0) (View.ld x1 r0_1) (View.ld x2 r0_2)⟩]

/-- The one store is of the whole buffer, so it covers it. -/
theorem cover0_3 (p0 : Vec F S10000x64 .bf16) (y : S10000x64.Idx) :
    ∃ pc ∈ ([⟨r0_3, p0⟩] : List (View.Piece (Elt F) S10000x64 .bf16)), y ∈ pc.1.set :=
  View.cover_of_tiled [⟨r0_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out0_3` of the inputs'. The body
    reads its output buffer once before the store; the value read is not used. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .bf16) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- The class-A half of pallas_call 1 of @main (`cc1__linear_relu_kernel`, pipeline 1), stated at a PARAMETER `V`:
   the TensorCore's buffer contents when the region is entered. Each window's block at a grid point, what the body
   leaves in the output window's staging buffer (one whole-block store of the skeleton's payload), the body's
   triple, the pipeline's proof data and the library's body obligation at every point. The windows: 0 the rows
   (a block of 10000 rows per point), 1 the weights and 2 the bias (fetched at the first point, their block index
   never moving), 3 the bf16 result (written back at every point). -/
import proofs.«154293_j5291399708984_2_alg».proof.Proof.Gen.Kernel.Launch
import proofs.«154293_j5291399708984_2_alg».proof.Proof.Gen.Kernel.Skeleton
import proofs.«154293_j5291399708984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: pallas_call 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved
    since the point that fetched it. The windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S10000x64 := Rect.unit (s := S10000x64) ![0, 0] S10000x64.size inb_S10000x64_S10000x64_0_0
abbrev r1_1 : Rect S64x64 := Rect.unit (s := S64x64) ![0, 0] S64x64.size inb_S64x64_S64x64_0_0
abbrev r1_2 : Rect S64 := Rect.unit (s := S64) ![0] S64.size inb_S64_S64_0
abbrev r1_3 : Rect S10000x64 := Rect.unit (s := S10000x64) ![0, 0] S10000x64.size inb_S10000x64_S10000x64_0_0

/-! ## What the body leaves in the output window's buffer -/

/-- Window 3's staging buffer after the body, from the input windows' blocks: its one store, of the whole block,
    of the skeleton's payload of the three loaded values. -/
def out1_3 (x0 : Vec F S10000x64 .f32) (x1 : Vec F S64x64 .f32) (x2 : Vec F S64 .f32) : Vec F S10000x64 .bf16 :=
  View.canon [⟨r1_3, k1_pay1 (View.ld x0 r1_0) (View.ld x1 r1_1) (View.ld x2 r1_2)⟩]

/-- The one store is of the whole buffer, so it covers it. -/
theorem cover1_3 (p0 : Vec F S10000x64 .bf16) (y : S10000x64.Idx) :
    ∃ pc ∈ ([⟨r1_3, p0⟩] : List (View.Piece (Elt F) S10000x64 .bf16)), y ∈ pc.1.set :=
  View.cover_of_tiled [⟨r1_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out1_3` of the inputs'. The body
    reads its output buffer once before the store; the value read is not used. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .bf16) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/- The class-A half of pallas_call 2 of @main (`cc2__linear_relu_kernel`, pipeline 2), stated at a PARAMETER `V`:
   the TensorCore's buffer contents when the region is entered. Each window's block at a grid point, what the body
   leaves in the output window's staging buffer (one whole-block store of the skeleton's payload), the body's
   triple, the pipeline's proof data and the library's body obligation at every point. The windows: 0 the rows
   (a block of 10000 rows per point), 1 the weights and 2 the bias (fetched at the first point, their block index
   never moving), 3 the bf16 result (written back at every point). -/
import proofs.«154293_j5291399708984_2_alg».proof.Proof.Gen.Kernel.Launch
import proofs.«154293_j5291399708984_2_alg».proof.Proof.Gen.Kernel.Skeleton
import proofs.«154293_j5291399708984_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: pallas_call 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: unfetched, the block index has not moved
    since the point that fetched it. The windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S64 := Rect.unit (s := S64) ![0] S64.size inb_S64_S64_0
abbrev r2_3 : Rect S10000x64 := Rect.unit (s := S10000x64) ![0, 0] S10000x64.size inb_S10000x64_S10000x64_0_0

/-! ## What the body leaves in the output window's buffer -/

/-- Window 3's staging buffer after the body, from the input windows' blocks: its one store, of the whole block,
    of the skeleton's payload of the three loaded values. -/
def out2_3 (x0 : Vec F S10000x64 .f32) (x1 : Vec F S64x64 .f32) (x2 : Vec F S64 .f32) : Vec F S10000x64 .bf16 :=
  View.canon [⟨r2_3, k2_pay1 (View.ld x0 r2_0) (View.ld x1 r2_1) (View.ld x2 r2_2)⟩]

/-- The one store is of the whole buffer, so it covers it. -/
theorem cover2_3 (p0 : Vec F S10000x64 .bf16) (y : S10000x64.Idx) :
    ∃ pc ∈ ([⟨r2_3, p0⟩] : List (View.Piece (Elt F) S10000x64 .bf16)), y ∈ pc.1.set :=
  View.cover_of_tiled [⟨r2_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out2_3` of the inputs'. The body
    reads its output buffer once before the store; the value read is not used. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .bf16) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_relu_kernel i arg1 harg1 arg2 harg2 arg3 harg3 arg4 harg4) K := by
  simp only [cc2__linear_relu_kernel_eq_skeleton]; unfold cc2__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3Runs.lean ====
import proofs.«154293_j5291399708984_2_alg».proof.Proof.Gen.Kernel.Launch
import proofs.«154293_j5291399708984_2_alg».proof.Proof.Gen.Kernel.Skeleton
import proofs.«154293_j5291399708984_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The last kernel (the mean of the rows through one linear layer): what its three control cases share -/

/-! ## The body's branch conditions -/

/-- The condition of the body's first conditional, from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the body's second conditional. -/
abbrev cond3_1 (i : grid3.Coords) : Prop := k3_cond2 i = 1#1
/-- It holds at the last point only. -/
theorem hcond3_1 : ∀ t : Fin cfg3.N, cond3_1 (grid3.coords t) ↔ t.val = 9 :=
  (by decide +kernel : ∀ t : Fin grid3.N, cond3_1 (grid3.coords t) ↔ t.val = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last point the output window is idle: nothing is stored into it, -/
theorem idleAt3_3 : ∀ t : Fin cfg3.N, ¬cond3_1 (grid3.coords t) → cfg3.idle 3 (grid3.coords t) = true := by decide +kernel
/-- and it is not written back there. -/
theorem noFlush3_3 : ∀ t : Fin cfg3.N, ¬cond3_1 (grid3.coords t) → (cfg3.win 3).flush t = false := by decide +kernel
/-- At the last point it is live. -/
theorem liveAt3_3 : ∀ t : Fin cfg3.N, cond3_1 (grid3.coords t) → cfg3.idle 3 (grid3.coords t) = false := by decide +kernel

/-! ## The staging memrefs and the scratch -/

/-- One staging buffer of the output window, through which its contents are stated. -/
abbrev VO3_3 : View sig .tc .vmem S1x16 .f32 := (Memref.whole cc3_stg3_0 : Memref sig .tc .vmem S1x16 .f32).view
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x16 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x16 .f32 := win3_3.stage (cfg3.slots t 3)
abbrev hs3_3 (t : Fin cfg3.N) : (ms3_3 t).IsWhole := hstage3_3 ((cfg3.slots t 3).cast nbuf3_3)
/-- The scratch operand: the running column sums, a whole scoped buffer of the kernel's own. -/
abbrev scM3_0 : Memref sig .tc .vmem S1x64 .f32 := Memref.whole cc3_scratch0
abbrev VS3_0 : View sig .tc .vmem S1x64 .f32 := scM3_0.view

/-! ## The region invariant, the scratch set apart -/

/-- The scoped buffers of the core that are neither this kernel's staging buffers nor its scratch (the other kernels'
    staging buffers), each at some contents. -/
def R3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

theorem chain_eq {A T R X : sProp 𝕄} (h : T = iprop(R ∗ X)) : iprop(A ∗ T) = iprop(iprop(A ∗ R) ∗ X) := by
  rw [h]; exact (Idealize.SL.BI.sep_assoc.antisymm Idealize.SL.BI.sep_assoc').symm

/-- The class invariant with the scratch operand as a memref owned at some contents, beside the rest. -/
theorem PhiA3_eq (c : Dev nD) :
    (Pipeline.ΦA spec3 c : sProp 𝕄)
      = iprop(iprop(R3 c ∗ (∃ d, owns (c : Thread nD τ) scM3_0 fullShare d)) ∗ (∃ r, prngReg c r)) := by
  unfold Pipeline.ΦA; rw [scopedRest3_eq]; simp only [scM3_0, owns_whole]
  congr 1
  unfold R3
  exact chain_eq (chain_eq (chain_eq (chain_eq (chain_eq (chain_eq (chain_eq (chain_eq (chain_eq (chain_eq (chain_eq (chain_eq (chain_eq (chain_eq (chain_eq (chain_eq (chain_eq (rfl)))))))))))))))))

end Cert.Kernel.Hand

end
-- ==== Proof.K.Region3RunA.lean ====
import proofs.«154293_j5291399708984_2_alg».proof.Proof.K.Region3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (first conditional taken, second not). The scratch is zeroed, then the block's column sums are added
    onto it: on whole memrefs, the rows' block at its contents and the scratch at anything, the body runs to the
    continuation holding the block as it was and the scratch with its pieces written (last first). The other operands
    are not touched and stay outside. -/
noncomputable def kernelRun3_A (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : cond3_0 i) (hc1 : ¬cond3_1 i)
    (x0 : Vec F S10000x64 .f32) :
    { LS0 : List (View.Piece (Elt F) S1x64 .f32) //
      ∀ (E : Set ℕ) (K : PUnit → sProp 𝕄),
        iprop(owns (c : Thread nD τ) arg1 fullShare x0 ∗ (∃ d, owns (c : Thread nD τ) arg5 fullShare d)
            ∗ (iprop(owns (c : Thread nD τ) arg1 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc3__final_layer_kernel i arg1 harg1 arg2 harg2 arg3 harg3 arg4 harg4 arg5 harg5) K } := by
  refine ⟨?_, fun E K => ?run⟩
  case run =>
    simp only [cc3__final_layer_kernel_eq_skeleton]; unfold cc3__final_layer_kernel_skel
    unfold owns
    iintro ⟨⟨%f0, %hf0, H0⟩, ⟨%ds0, %fs0, -, HS0⟩, Hk⟩
    obtain rfl := harg1.eq_unread hf0
    sl_exec (disch := first | exact hc0 | exact hc1)
    sl_step
    iapply Hk
    isplitl [H0]
    · iexists _; isplitr; · ipureintro; exact harg1.read_unread _
      iexact H0
    iexists _; iexact HS0

end Cert.Kernel.Hand

end
-- ==== Proof.K.Region3RunB.lean ====
import proofs.«154293_j5291399708984_2_alg».proof.Proof.K.Region3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional taken). The block's column sums are added onto the scratch: the rows' block at
    its contents, the scratch at what the point before left (`xs0`). -/
noncomputable def kernelRun3_B (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : ¬cond3_1 i)
    (x0 : Vec F S10000x64 .f32) (xs0 : Vec F S1x64 .f32) :
    { LS0 : List (View.Piece (Elt F) S1x64 .f32) //
      ∀ (E : Set ℕ) (K : PUnit → sProp 𝕄),
        iprop(owns (c : Thread nD τ) arg1 fullShare x0 ∗ owns (c : Thread nD τ) arg5 fullShare xs0
            ∗ (iprop(owns (c : Thread nD τ) arg1 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc3__final_layer_kernel i arg1 harg1 arg2 harg2 arg3 harg3 arg4 harg4 arg5 harg5) K } := by
  refine ⟨?_, fun E K => ?run⟩
  case run =>
    simp only [cc3__final_layer_kernel_eq_skeleton]; unfold cc3__final_layer_kernel_skel
    unfold owns
    iintro ⟨⟨%f0, %hf0, H0⟩, ⟨%fs0, %hfs0, HS0⟩, Hk⟩
    obtain rfl := harg1.eq_unread hf0; obtain rfl := harg5.eq_unread hfs0
    sl_exec (disch := first | exact hc0 | exact hc1)
    sl_step
    iapply Hk
    isplitl [H0]
    · iexists _; isplitr; · ipureintro; exact harg1.read_unread _
      iexact H0
    iexists _; iexact HS0

end Cert.Kernel.Hand

end
-- ==== Proof.K.Region3RunC.lean ====
import proofs.«154293_j5291399708984_2_alg».proof.Proof.K.Region3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (first conditional not taken, second taken). The block's column sums are added onto the scratch, then
    the scratch, the weights and the bias are read and the result row is stored: the inputs at their contents, the scratch
    at what the point before left (`xs0`), the output's buffer at anything. -/
noncomputable def kernelRun3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) :
    Σ' (L3 : List (View.Piece (Elt F) S1x16 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc3__final_layer_kernel i arg1 harg1 arg2 harg2 arg3 harg3 arg4 harg4 arg5 harg5) K } := by
  refine ⟨?_, ?_, fun E K => ?run⟩
  case run =>
    simp only [cc3__final_layer_kernel_eq_skeleton]; unfold cc3__final_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.Region3.lean ====
import proofs.«154293_j5291399708984_2_alg».proof.Proof.K.Region3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The last kernel's half of the frame, at the buffer contents `V` found when its region is entered -/

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves -/

/-- The first point's pieces cover the scratch. -/
theorem scover3_A (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : cond3_0 i) (hc1 : ¬cond3_1 i)
    (x0 : Vec F S10000x64 .f32) (y : S1x64.Idx) :
    ∃ pc ∈ (kernelRun3_A c i arg1 harg1 arg2 harg2 arg3 harg3 arg4 harg4 arg5 harg5 hc0 hc1 x0).1, y ∈ pc.1.set :=
  View.cover_of_tiledL (kernelRun3_A c i arg1 harg1 arg2 harg2 arg3 harg3 arg4 harg4 arg5 harg5 hc0 hc1 x0).1 S1x64.size (by sl_kernel_rfl) y

/-- What the first point leaves in the scratch: its pieces read back. -/
def sout3_A (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : cond3_0 i) (hc1 : ¬cond3_1 i)
    (x0 : Vec F S10000x64 .f32) : Vec F S1x64 .f32 :=
  VS3_0.read (Elt F) (VS3_0.writes (Elt F) VS3_0.junk (kernelRun3_A c i arg1 harg1 arg2 harg2 arg3 harg3 arg4 harg4 arg5 harg5 hc0 hc1 x0).1)

theorem scover3_B (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : ¬cond3_1 i)
    (x0 : Vec F S10000x64 .f32) (xs0 : Vec F S1x64 .f32) (y : S1x64.Idx) :
    ∃ pc ∈ (kernelRun3_B c i arg1 harg1 arg2 harg2 arg3 harg3 arg4 harg4 arg5 harg5 hc0 hc1 x0 xs0).1, y ∈ pc.1.set :=
  View.cover_of_tiledL (kernelRun3_B c i arg1 harg1 arg2 harg2 arg3 harg3 arg4 harg4 arg5 harg5 hc0 hc1 x0 xs0).1 S1x64.size (by sl_kernel_rfl) y

/-- What a middle point leaves in the scratch. -/
def sout3_B (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : ¬cond3_1 i)
    (x0 : Vec F S10000x64 .f32) (xs0 : Vec F S1x64 .f32) : Vec F S1x64 .f32 :=
  VS3_0.read (Elt F) (VS3_0.writes (Elt F) VS3_0.junk (kernelRun3_B c i arg1 harg1 arg2 harg2 arg3 harg3 arg4 harg4 arg5 harg5 hc0 hc1 x0 xs0).1)

theorem cover3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) (y : S1x16.Idx) :
    ∃ pc ∈ (kernelRun3_C c i arg1 harg1 arg2 harg2 arg3 harg3 arg4 harg4 arg5 harg5 hc0 hc1 x0 x1 x2 xs0).1, y ∈ pc.1.set :=
  View.cover_of_tiledL (kernelRun3_C c i arg1 harg1 arg2 harg2 arg3 harg3 arg4 harg4 arg5 harg5 hc0 hc1 x0 x1 x2 xs0).1 S1x16.size (by sl_kernel_rfl) y

/-- What the last point leaves in the output's staging buffer. -/
def out3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) : Vec F S1x16 .f32 :=
  VO3_3.read (Elt F) (VO3_3.writes (Elt F) VO3_3.junk (kernelRun3_C c i arg1 harg1 arg2 harg2 arg3 harg3 arg4 harg4 arg5 harg5 hc0 hc1 x0 x1 x2 xs0).1)

theorem scover3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) (y : S1x64.Idx) :
    ∃ pc ∈ (kernelRun3_C c i arg1 harg1 arg2 harg2 arg3 harg3 arg4 harg4 arg5 harg5 hc0 hc1 x0 x1 x2 xs0).2.1, y ∈ pc.1.set :=
  View.cover_of_tiledL (kernelRun3_C c i arg1 harg1 arg2 harg2 arg3 harg3 arg4 harg4 arg5 harg5 hc0 hc1 x0 x1 x2 xs0).2.1 S1x64.size (by sl_kernel_rfl) y

/-- What the last point leaves in the scratch. -/
def sout3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) : Vec F S1x64 .f32 :=
  VS3_0.read (Elt F) (VS3_0.writes (Elt F) VS3_0.junk (kernelRun3_C c i arg1 harg1 arg2 harg2 arg3 harg3 arg4 harg4 arg5 harg5 hc0 hc1 x0 x1 x2 xs0).2.1)

/-! ## The scratch after each point -/

theorem ne0_of_succ {n : ℕ} {hn : n + 1 < cfg3.N} (h : cond3_0 (grid3.coords ⟨n + 1, hn⟩)) : False :=
  Nat.succ_ne_zero n ((hcond3_0 ⟨n + 1, hn⟩).mp h)

/-- THE ACCUMULATION: what the scratch holds after the body at position `n` — the first point's case at 0, afterwards the
    middle or the last point's case over what the point before left. -/
def acc3 (c : Dev nD) : (n : ℕ) → n < cfg3.N → Vec F S1x64 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr rfl)
      (fun h => absurd ((hcond3_1 ⟨0, hn⟩).mp h) (show ¬((0 : ℕ) = 9) from by decide)) (iblk3 V c 0 ⟨0, hn⟩)
  | n + 1, hn =>
    if h1 : n + 1 = 9 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ne0_of_succ ((hcond3_1 ⟨n + 1, hn⟩).mpr h1)
        (iblk3 V c 0 ⟨n + 1, hn⟩) (iblk3 V c 1 ⟨n + 1, hn⟩) (iblk3 V c 2 ⟨n + 1, hn⟩) (acc3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ne0_of_succ (fun h => h1 ((hcond3_1 ⟨n + 1, hn⟩).mp h))
        (iblk3 V c 0 ⟨n + 1, hn⟩) (acc3 c n (Nat.lt_of_succ_lt hn))

theorem acc3_A (c : Dev nD) (t : Fin cfg3.N) (h0 : t.val = 0) (hc0 : cond3_0 (grid3.coords t)) (hc1 : ¬cond3_1 (grid3.coords t)) :
    acc3 V c t.val t.isLt = sout3_A c (grid3.coords t) (ms3_0 t) (hs3_0 t) (ms3_1 t) (hs3_1 t) (ms3_2 t) (hs3_2 t) (ms3_3 t) (hs3_3 t) scM3_0 (Memref.isWhole_whole _) hc0 hc1 (iblk3 V c 0 t) := by
  obtain ⟨n, hn⟩ := t
  cases n with
  | zero => rfl
  | succ n => exact absurd h0 (Nat.succ_ne_zero n)

theorem acc3_B (c : Dev nD) (t : Fin cfg3.N) (h0 : ¬t.val = 0) (h1 : ¬t.val = 9) (hc0 : ¬cond3_0 (grid3.coords t)) (hc1 : ¬cond3_1 (grid3.coords t)) :
    acc3 V c t.val t.isLt = sout3_B c (grid3.coords t) (ms3_0 t) (hs3_0 t) (ms3_1 t) (hs3_1 t) (ms3_2 t) (hs3_2 t) (ms3_3 t) (hs3_3 t) scM3_0 (Memref.isWhole_whole _) hc0 hc1 (iblk3 V c 0 t)
      (acc3 V c (t.val - 1) (Nat.lt_of_le_of_lt (Nat.sub_le _ _) t.isLt)) := by
  obtain ⟨n, hn⟩ := t
  cases n with
  | zero => exact absurd rfl h0
  | succ n => exact (dif_neg h1).trans rfl

theorem acc3_C (c : Dev nD) (t : Fin cfg3.N) (h0 : ¬t.val = 0) (h1 : t.val = 9) (hc0 : ¬cond3_0 (grid3.coords t)) (hc1 : cond3_1 (grid3.coords t)) :
    acc3 V c t.val t.isLt = sout3_C c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)
      (acc3 V c (t.val - 1) (Nat.lt_of_le_of_lt (Nat.sub_le _ _) t.isLt)) := by
  obtain ⟨n, hn⟩ := t
  cases n with
  | zero => exact absurd rfl h0
  | succ n => exact (dif_pos h1).trans rfl

/-- What the output's staging buffer holds after point `t`: at the last point what that case stores, over the scratch the
    point before left; elsewhere the window is idle and this is a placeholder nothing consults. -/
def out3At (c : Dev nD) (t : Fin cfg3.N) : Vec F S1x16 .f32 :=
  if h1 : t.val = 9 then
    out3_C c (grid3.coords t) (ms3_0 t) (hs3_0 t) (ms3_1 t) (hs3_1 t) (ms3_2 t) (hs3_2 t) (ms3_3 t) (hs3_3 t) scM3_0 (Memref.isWhole_whole _) (fun h => by have := (hcond3_0 t).mp h; omega) ((hcond3_1 t).mpr h1)
      (iblk3 V c 0 t) (iblk3 V c 1 t) (iblk3 V c 2 t) (acc3 V c (t.val - 1) (Nat.lt_of_le_of_lt (Nat.sub_le _ _) t.isLt))
  else VO3_3.read (Elt F) VO3_3.junk

theorem out3At_C (c : Dev nD) (t : Fin cfg3.N) (h1 : t.val = 9) (hc0 : ¬cond3_0 (grid3.coords t)) (hc1 : cond3_1 (grid3.coords t)) :
    out3At V c t = out3_C c (grid3.coords t) (ms3_0 t) (hs3_0 t) (ms3_1 t) (hs3_1 t) (ms3_2 t) (hs3_2 t) (ms3_3 t) (hs3_3 t) scM3_0 (Memref.isWhole_whole _) hc0 hc1
      (iblk3 V c 0 t) (iblk3 V c 1 t) (iblk3 V c 2 t) (acc3 V c (t.val - 1) (Nat.lt_of_le_of_lt (Nat.sub_le _ _) t.isLt)) := by
  unfold out3At; rw [dif_pos h1]

/-! ## The region invariant -/

/-- Before the first point the class's invariant; afterwards the rest, the scratch at what the point before left in it,
    and the generator register at some state. -/
def PhiS3 (c : Dev nD) : (n : ℕ) → n ≤ cfg3.N → sProp 𝕄
  | 0, _ => Pipeline.ΦA spec3 c
  | n + 1, hn => iprop(iprop(R3 c ∗ owns (c : Thread nD τ) scM3_0 fullShare (acc3 V c n hn)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(R3 c ∗ owns (c : Thread nD τ) scM3_0 fullShare (acc3 V c n hn)) ∗ (∃ r, prngReg c r)) := rfl

theorem PhiS3_pos (c : Dev nD) (n : ℕ) (h : n ≤ cfg3.N) (hz : n ≠ 0) :
    PhiS3 V c n h = iprop(iprop(R3 c ∗ owns (c : Thread nD τ) scM3_0 fullShare (acc3 V c (n - 1) (by omega))) ∗ (∃ r, prngReg c r)) := by
  cases n with
  | zero => exact absurd rfl hz
  | succ n => rfl

/-! ## The pipeline's proof data -/

/-- The proof data on core `c`: the arrays as the region finds them; after the body at point `t` each input's buffer at
    its block and the output's at `out3At`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3At V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3At V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
/-- The body at any point: the inputs' memrefs hold their blocks; the point is the first, a middle or the last one, and
    that case's run applies; the invariant hands the body the scratch at what the point before left (at anything at the
    first point) and takes it back at this point's contents; away from the last point the output's buffer goes back as
    found; the rest, the generator register and the core's debts pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 10 := lt_of_lt_of_eq t.isLt (show cfg3.N = 10 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 3 t (idleAt3_3 t hc1) (noFlush3_3 t hc1)]
    rw [acc3_A V c t h0 hc0 hc1]
    unfold sout3_A
    rw [PhiS3_castSucc V c t, PhiS3_zero V c _ _ h0, PhiA3_eq]
    iintro ⟨⟨⟨HR, HS0⟩, Hg⟩, Ho, ⟨%d0, H0⟩, ⟨%d1, H1⟩, ⟨%d2, H2⟩, ⟨%d3, H3⟩⟩
    iapply ((kernelRun3_A c (grid3.coords t) _ _ _ _ _ _ _ _ _ _ hc0 hc1 (iblk3 V c 0 t)).2 Set.univ _)
    isplitl [H0]; · iexact H0
    isplitl [HS0]; · iexact HS0
    iintro ⟨H0, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover3_A c _ _ _ _ _ _ _ _ _ _ _ _ _ _)
      iexact Hg
    isplitl [Ho]; · iexact Ho
    isplitl [H0]; · iexact H0
    isplitl [H1]; · iexact H1
    isplitl [H2]; · iexact H2
    iexists _; iexact H3
  · have hc0 : ¬cond3_0 (grid3.coords t) := fun h => h0 ((hcond3_0 t).mp h)
    by_cases h1 : t.val = 9
    · have hc1 : cond3_1 (grid3.coords t) := (hcond3_1 t).mpr h1
      rw [show (dat3 V c).leavesExact 3 t = owns (c : Thread nD τ) (ms3_3 t) fullShare ((dat3 V c).after 3 t) from by
        unfold Dat.leavesExact; rw [liveAt3_3 t hc1], after3_3]
      rw [out3At_C V c t h1 hc0 hc1, acc3_C V c t h0 h1 hc0 hc1]
      unfold out3_C sout3_C
      rw [PhiS3_castSucc V c t, PhiS3_pos V c _ _ h0]
      iintro ⟨⟨⟨HR, HS0⟩, Hg⟩, Ho, ⟨%d0, H0⟩, ⟨%d1, H1⟩, ⟨%d2, H2⟩, ⟨%d3, H3⟩⟩
      iapply ((kernelRun3_C c (grid3.coords t) _ _ _ _ _ _ _ _ _ _ hc0 hc1 (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover3_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · have hc1 : ¬cond3_1 (grid3.coords t) := fun h => h1 ((hcond3_1 t).mp h)
      rw [Dat.leavesExact_idle (dat3 V c) 3 t (idleAt3_3 t hc1) (noFlush3_3 t hc1)]
      rw [acc3_B V c t h0 h1 hc0 hc1]
      unfold sout3_B
      rw [PhiS3_castSucc V c t, PhiS3_pos V c _ _ h0]
      iintro ⟨⟨⟨HR, HS0⟩, Hg⟩, Ho, ⟨%d0, H0⟩, ⟨%d1, H1⟩, ⟨%d2, H2⟩, ⟨%d3, H3⟩⟩
      iapply ((kernelRun3_B c (grid3.coords t) _ _ _ _ _ _ _ _ _ _ hc0 hc1 (iblk3 V c 0 t) _).2 Set.univ _)
      isplitl [H0]; · iexact H0
      isplitl [HS0]; · iexact HS0
      iintro ⟨H0, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover3_B c _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR, HS0⟩, Hg⟩
  isplitl [HR HS0]
  · isplitl [HR]; · iexact HR
    iexists _; iexact HS0
  iexact Hg

theorem hout3 (c : Dev nD) : (dat3 V c).Φ (Fin.last cfg3.N) ⊢ Pipeline.ΦA spec3 c :=
  Phi_out3 V c _ (by rw [Fin.val_last]; have : cfg3.N = 10 := N_3; omega)

end Region3

end Cert.Kernel.Hand

end
-- ==== Proof.K.Run.lean ====
/- The run of @main: its eight segments (four stretches of host operations, each followed by a pallas_call) from the
   launch to the return. The buffer contents at every segment boundary, as a fold from the launch memory (a stretch's
   `StableHlo.after`; a region's arrays at what its write-backs leave, every other buffer as entered); each argument
   array read back through the fold to its launch contents (no host operation writes one, and a region only reads one
   through an input window); every pipeline's proof data at its region's entry contents; a segment record per stretch
   and per region over the thread state "every unscoped buffer at the boundary's contents, the generator register at
   some state, nothing owed"; and the run: every weakly fair execution terminates, the result array ends at the last
   boundary's contents and every argument as launched. -/
import proofs.«154293_j5291399708984_2_alg».proof.Proof.K.Region0
import proofs.«154293_j5291399708984_2_alg».proof.Proof.K.Region1
import proofs.«154293_j5291399708984_2_alg».proof.Proof.K.Region2
import proofs.«154293_j5291399708984_2_alg».proof.Proof.K.Region3
import proofs.«154293_j5291399708984_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary: a fold through @main -/

/-- Core `c`'s buffers at launch. -/
abbrev W0 (c : Dev nD) : Valuation τ sig (Elt F) := fun b => m (c, b)
/-- After `hostOps0` (region 0's entry). -/
abbrev W1 (c : Dev nD) : Valuation τ sig (Elt F) := StableHlo.after hostOps0 (W0 m c)
/-- The same read at the TensorCore's references (what region 0's proof data take). -/
abbrev V1 : (c : Dev nD) → (b : Ref sig .tc) → Buf (Elt F) ((c : Thread nD τ).loc b) := fun c b => W1 m c b
/-- No operation of `hostOps0` writes a reference outside its written list. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- At region 0's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1` (region 1's entry). -/
abbrev W3 (c : Dev nD) : Valuation τ sig (Elt F) := StableHlo.after hostOps1 (W2 m c)
/-- The same read at the TensorCore's references (what region 1's proof data take). -/
abbrev V3 : (c : Dev nD) → (b : Ref sig .tc) → Buf (Elt F) ((c : Thread nD τ).loc b) := fun c b => W3 m c b
/-- No operation of `hostOps1` writes a reference outside its written list. -/
theorem W3_of (c : Dev nD) (r : Ref sig .tc) (h : r ∉ hostOps1_W) : W3 m c (Proc.devRef .tc r) = W2 m c (Proc.devRef .tc r) :=
  StableHlo.after_of_writes_sub hostOps1 _ hostOps1_writes h
/-- At region 1's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m c b
/-- At region 1's exit each of its arrays holds what the pipeline leaves and every other buffer what it held at
    entry. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After `hostOps2` (region 2's entry). -/
abbrev W5 (c : Dev nD) : Valuation τ sig (Elt F) := StableHlo.after hostOps2 (W4 m c)
/-- The same read at the TensorCore's references (what region 2's proof data take). -/
abbrev V5 : (c : Dev nD) → (b : Ref sig .tc) → Buf (Elt F) ((c : Thread nD τ).loc b) := fun c b => W5 m c b
/-- No operation of `hostOps2` writes a reference outside its written list. -/
theorem W5_of (c : Dev nD) (r : Ref sig .tc) (h : r ∉ hostOps2_W) : W5 m c (Proc.devRef .tc r) = W4 m c (Proc.devRef .tc r) :=
  StableHlo.after_of_writes_sub hostOps2 _ hostOps2_writes h
/-- At region 2's exit: its arrays at what the pipeline leaves (the inputs as entered, the output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m c b
/-- At region 2's exit each of its arrays holds what the pipeline leaves and every other buffer what it held at
    entry. -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After `hostOps3` (region 3's entry). -/
abbrev W7 (c : Dev nD) : Valuation τ sig (Elt F) := StableHlo.after hostOps3 (W6 m c)
/-- The same read at the TensorCore's references (what region 3's proof data take). -/
abbrev V7 : (c : Dev nD) → (b : Ref sig .tc) → Buf (Elt F) ((c : Thread nD τ).loc b) := fun c b => W7 m c b
/-- No operation of `hostOps3` writes a reference outside its written list. -/
theorem W7_of (c : Dev nD) (r : Ref sig .tc) (h : r ∉ hostOps3_W) : W7 m c (Proc.devRef .tc r) = W6 m c (Proc.devRef .tc r) :=
  StableHlo.after_of_writes_sub hostOps3 _ hostOps3_writes h
/-- At region 3's exit: its arrays at what the pipeline leaves (the inputs as entered, the output's write-backs
    folded), every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m c b
/-- At region 3's exit each of its arrays holds what the pipeline leaves and every other buffer what it held at
    entry. -/
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ### The arguments end as launched: no host operation writes one, and a region reads one through an input window
    (whose array is never written back) or does not touch it -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := W1_of m c main_arg2 (by decide)
    _ = m ((c : Thread nD τ).loc main_arg2) := rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := (W2_arr m c 2).trans (((dat0 (V1 m) c).arrAt_in 2 rfl _).trans (A_eq0 (V1 m) c 2))
    _ = W0 m c (Proc.devRef .tc main_arg3) := W1_of m c main_arg3 (by decide)
    _ = m ((c : Thread nD τ).loc main_arg3) := rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := (W4_arr m c 1).trans (((dat1 (V3 m) c).arrAt_in 1 rfl _).trans (A_eq1 (V3 m) c 1))
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := (W4_arr m c 2).trans (((dat1 (V3 m) c).arrAt_in 2 rfl _).trans (A_eq1 (V3 m) c 2))
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := W7_of m c main_arg6 (by decide)
    _ = W5 m c (Proc.devRef .tc main_arg6) := (W6_arr m c 1).trans (((dat2 (V5 m) c).arrAt_in 1 rfl _).trans (A_eq2 (V5 m) c 1))
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_of_ne m c main_arg7 (by decide)
    _ = W6 m c (Proc.devRef .tc main_arg7) := W7_of m c main_arg7 (by decide)
    _ = W5 m c (Proc.devRef .tc main_arg7) := (W6_arr m c 2).trans (((dat2 (V5 m) c).arrAt_in 2 rfl _).trans (A_eq2 (V5 m) c 2))
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W8_main_arg8 (c : Dev nD) : W8 m c (Proc.devRef .tc main_arg8) = m ((c : Thread nD τ).loc main_arg8) :=
  calc W8 m c (Proc.devRef .tc main_arg8)
    _ = W7 m c (Proc.devRef .tc main_arg8) := (W8_arr m c 1).trans (((dat3 (V7 m) c).arrAt_in 1 rfl _).trans (A_eq3 (V7 m) c 1))
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
theorem W8_main_arg9 (c : Dev nD) : W8 m c (Proc.devRef .tc main_arg9) = m ((c : Thread nD τ).loc main_arg9) :=
  calc W8 m c (Proc.devRef .tc main_arg9)
    _ = W7 m c (Proc.devRef .tc main_arg9) := (W8_arr m c 2).trans (((dat3 (V7 m) c).arrAt_in 2 rfl _).trans (A_eq3 (V7 m) c 2))
    _ = W6 m c (Proc.devRef .tc main_arg9) := W7_of m c main_arg9 (by decide)
    _ = W5 m c (Proc.devRef .tc main_arg9) := W6_of_ne m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 (pallas_call 0) over the thread state: entered from every unscoped buffer at `W1`, left at `W2`.
    Its arrays split out of the unscoped buffers and put back at the exit contents; the generator register into the
    region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (pallas_call 1) over the thread state: entered from every unscoped buffer at `W3`, left at `W4`.
    Its arrays split out of the unscoped buffers and put back at the exit contents; the generator register into the
    region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (pallas_call 2) over the thread state: entered from every unscoped buffer at `W5`, left at `W6`.
    Its arrays split out of the unscoped buffers and put back at the exit contents; the generator register into the
    region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (pallas_call 3) over the thread state: entered from every unscoped buffer at `W7`, left at `W8`.
    Its arrays split out of the unscoped buffers and put back at the exit contents; the generator register into the
    region's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V7 m) c).Φ 0 from rfl]
    refine BIBase.Entails.trans ?_ (hin3 (V7 m) c)
    unfold Pipeline.ΦA
    iintro ⟨Hp, -, Hr⟩
    isplitl [Hr]; · iexact Hr
    iexact Hp
  hout c := by
    rw [Pipeline.ownSems0_none, show (pdats m 3 c).Φ (Fin.last _) = (dat3 (V7 m) c).Φ (Fin.last cfg3.N) from rfl]
    refine BIBase.Entails.trans (hout3 (V7 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

set_option backward.isDefEq.respectTransparency.types false in
/-- THE RUN. At the compiled mesh, from any memory with zero counters, every weakly fair execution of @main on the
    TensorCores terminates, nothing faulting, and every final state has the result array at the last boundary's
    contents and every argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v93) = W8 m c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v93 (by decide)),
        (h c _ (mem_uc main_arg0 (by decide))).trans (W8_main_arg0 m c),
        (h c _ (mem_uc main_arg1 (by decide))).trans (W8_main_arg1 m c),
        (h c _ (mem_uc main_arg2 (by decide))).trans (W8_main_arg2 m c),
        (h c _ (mem_uc main_arg3 (by decide))).trans (W8_main_arg3 m c),
        (h c _ (mem_uc main_arg4 (by decide))).trans (W8_main_arg4 m c),
        (h c _ (mem_uc main_arg5 (by decide))).trans (W8_main_arg5 m c),
        (h c _ (mem_uc main_arg6 (by decide))).trans (W8_main_arg6 m c),
        (h c _ (mem_uc main_arg7 (by decide))).trans (W8_main_arg7 m c),
        (h c _ (mem_uc main_arg8 (by decide))).trans (W8_main_arg8 m c),
        (h c _ (mem_uc main_arg9 (by decide))).trans (W8_main_arg9 m c)⟩)

/-- THE FRAME: every weakly fair execution of @main terminates, nothing faulting, and every final state has the
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

end Cert.Kernel.Hand

end
-- ==== Proof.KI.Region0.lean ====
/- The class-A half of pallas_call 0 of @main (`cc0__linear_relu_kernel`, pipeline 0), stated at a PARAMETER `V`:
   the TensorCore's buffer contents when the region is entered. Each window's block at a grid point, what the body
   leaves in the output window's staging buffer (one whole-block store of the skeleton's payload), the body's
   triple, the pipeline's proof data and the library's body obligation at every point. The windows: 0 the rows
   (a block of 10000 rows per point), 1 the weights and 2 the bias (fetched at the first point, their block index
   never moving), 3 the bf16 result (written back at every point). -/
import proofs.«154293_j5291399708984_2_alg».proof.Proof.Gen.KernelIdeal.Launch
import proofs.«154293_j5291399708984_2_alg».proof.Proof.Gen.KernelIdeal.Skeleton
import proofs.«154293_j5291399708984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: pallas_call 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved
    since the point that fetched it. The windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S64 := Rect.unit (s := S64) ![0] S64.size inb_S64_S64_0
abbrev r0_3 : Rect S10000x64 := Rect.unit (s := S10000x64) ![0, 0] S10000x64.size inb_S10000x64_S10000x64_0_0

/-! ## What the body leaves in the output window's buffer -/

/-- Window 3's staging buffer after the body, from the input windows' blocks: its one store, of the whole block,
    of the skeleton's payload of the three loaded values. -/
def out0_3 (x0 : Vec F S10000x64 .f32) (x1 : Vec F S64x64 .f32) (x2 : Vec F S64 .f32) : Vec F S10000x64 .bf16 :=
  View.canon [⟨r0_3, k0_pay1 (View.ld x0 r0_0) (View.ld x1 r0_1) (View.ld x2 r0_2)⟩]

/-- The one store is of the whole buffer, so it covers it. -/
theorem cover0_3 (p0 : Vec F S10000x64 .bf16) (y : S10000x64.Idx) :
    ∃ pc ∈ ([⟨r0_3, p0⟩] : List (View.Piece (Elt F) S10000x64 .bf16)), y ∈ pc.1.set :=
  View.cover_of_tiled [⟨r0_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out0_3` of the inputs'. The body
    reads its output buffer once before the store; the value read is not used. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .bf16) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- The class-A half of pallas_call 1 of @main (`cc1__linear_relu_kernel`, pipeline 1), stated at a PARAMETER `V`:
   the TensorCore's buffer contents when the region is entered. Each window's block at a grid point, what the body
   leaves in the output window's staging buffer (one whole-block store of the skeleton's payload), the body's
   triple, the pipeline's proof data and the library's body obligation at every point. The windows: 0 the rows
   (a block of 10000 rows per point), 1 the weights and 2 the bias (fetched at the first point, their block index
   never moving), 3 the bf16 result (written back at every point). -/
import proofs.«154293_j5291399708984_2_alg».proof.Proof.Gen.KernelIdeal.Launch
import proofs.«154293_j5291399708984_2_alg».proof.Proof.Gen.KernelIdeal.Skeleton
import proofs.«154293_j5291399708984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: pallas_call 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved
    since the point that fetched it. The windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S10000x64 := Rect.unit (s := S10000x64) ![0, 0] S10000x64.size inb_S10000x64_S10000x64_0_0
abbrev r1_1 : Rect S64x64 := Rect.unit (s := S64x64) ![0, 0] S64x64.size inb_S64x64_S64x64_0_0
abbrev r1_2 : Rect S64 := Rect.unit (s := S64) ![0] S64.size inb_S64_S64_0
abbrev r1_3 : Rect S10000x64 := Rect.unit (s := S10000x64) ![0, 0] S10000x64.size inb_S10000x64_S10000x64_0_0

/-! ## What the body leaves in the output window's buffer -/

/-- Window 3's staging buffer after the body, from the input windows' blocks: its one store, of the whole block,
    of the skeleton's payload of the three loaded values. -/
def out1_3 (x0 : Vec F S10000x64 .f32) (x1 : Vec F S64x64 .f32) (x2 : Vec F S64 .f32) : Vec F S10000x64 .bf16 :=
  View.canon [⟨r1_3, k1_pay1 (View.ld x0 r1_0) (View.ld x1 r1_1) (View.ld x2 r1_2)⟩]

/-- The one store is of the whole buffer, so it covers it. -/
theorem cover1_3 (p0 : Vec F S10000x64 .bf16) (y : S10000x64.Idx) :
    ∃ pc ∈ ([⟨r1_3, p0⟩] : List (View.Piece (Elt F) S10000x64 .bf16)), y ∈ pc.1.set :=
  View.cover_of_tiled [⟨r1_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out1_3` of the inputs'. The body
    reads its output buffer once before the store; the value read is not used. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .bf16) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/- The class-A half of pallas_call 2 of @main (`cc2__linear_relu_kernel`, pipeline 2), stated at a PARAMETER `V`:
   the TensorCore's buffer contents when the region is entered. Each window's block at a grid point, what the body
   leaves in the output window's staging buffer (one whole-block store of the skeleton's payload), the body's
   triple, the pipeline's proof data and the library's body obligation at every point. The windows: 0 the rows
   (a block of 10000 rows per point), 1 the weights and 2 the bias (fetched at the first point, their block index
   never moving), 3 the bf16 result (written back at every point). -/
import proofs.«154293_j5291399708984_2_alg».proof.Proof.Gen.KernelIdeal.Launch
import proofs.«154293_j5291399708984_2_alg».proof.Proof.Gen.KernelIdeal.Skeleton
import proofs.«154293_j5291399708984_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: pallas_call 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: unfetched, the block index has not moved
    since the point that fetched it. The windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S64 := Rect.unit (s := S64) ![0] S64.size inb_S64_S64_0
abbrev r2_3 : Rect S10000x64 := Rect.unit (s := S10000x64) ![0, 0] S10000x64.size inb_S10000x64_S10000x64_0_0

/-! ## What the body leaves in the output window's buffer -/

/-- Window 3's staging buffer after the body, from the input windows' blocks: its one store, of the whole block,
    of the skeleton's payload of the three loaded values. -/
def out2_3 (x0 : Vec F S10000x64 .f32) (x1 : Vec F S64x64 .f32) (x2 : Vec F S64 .f32) : Vec F S10000x64 .bf16 :=
  View.canon [⟨r2_3, k2_pay1 (View.ld x0 r2_0) (View.ld x1 r2_1) (View.ld x2 r2_2)⟩]

/-- The one store is of the whole buffer, so it covers it. -/
theorem cover2_3 (p0 : Vec F S10000x64 .bf16) (y : S10000x64.Idx) :
    ∃ pc ∈ ([⟨r2_3, p0⟩] : List (View.Piece (Elt F) S10000x64 .bf16)), y ∈ pc.1.set :=
  View.cover_of_tiled [⟨r2_3, p0⟩] S10000x64.size (by rfl) y

/-! ## The body's triple -/

set_option maxHeartbeats 1000000 in
/-- The kernel body on whole staging memrefs, the inputs' at read contents `x0 x1 x2` and the output's at anything,
    runs to the continuation holding the inputs' as they were and the output's at `out2_3` of the inputs'. The body
    reads its output buffer once before the store; the value read is not used. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S10000x64 .bf16) (harg4 : arg4.IsWhole)
    (x0 : Vec F S10000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_relu_kernel i arg1 harg1 arg2 harg2 arg3 harg3 arg4 harg4) K := by
  simp only [cc2__linear_relu_kernel_eq_skeleton]; unfold cc2__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3Runs.lean ====
import proofs.«154293_j5291399708984_2_alg».proof.Proof.Gen.KernelIdeal.Launch
import proofs.«154293_j5291399708984_2_alg».proof.Proof.Gen.KernelIdeal.Skeleton
import proofs.«154293_j5291399708984_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The last kernel (the mean of the rows through one linear layer): what its three control cases share -/

/-! ## The body's branch conditions -/

/-- The condition of the body's first conditional, from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the body's second conditional. -/
abbrev cond3_1 (i : grid3.Coords) : Prop := k3_cond2 i = 1#1
/-- It holds at the last point only. -/
theorem hcond3_1 : ∀ t : Fin cfg3.N, cond3_1 (grid3.coords t) ↔ t.val = 9 :=
  (by decide +kernel : ∀ t : Fin grid3.N, cond3_1 (grid3.coords t) ↔ t.val = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last point the output window is idle: nothing is stored into it, -/
theorem idleAt3_3 : ∀ t : Fin cfg3.N, ¬cond3_1 (grid3.coords t) → cfg3.idle 3 (grid3.coords t) = true := by decide +kernel
/-- and it is not written back there. -/
theorem noFlush3_3 : ∀ t : Fin cfg3.N, ¬cond3_1 (grid3.coords t) → (cfg3.win 3).flush t = false := by decide +kernel
/-- At the last point it is live. -/
theorem liveAt3_3 : ∀ t : Fin cfg3.N, cond3_1 (grid3.coords t) → cfg3.idle 3 (grid3.coords t) = false := by decide +kernel

/-! ## The staging memrefs and the scratch -/

/-- One staging buffer of the output window, through which its contents are stated. -/
abbrev VO3_3 : View sig .tc .vmem S1x16 .f32 := (Memref.whole cc3_stg3_0 : Memref sig .tc .vmem S1x16 .f32).view
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x16 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S16 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x16 .f32 := win3_3.stage (cfg3.slots t 3)
abbrev hs3_3 (t : Fin cfg3.N) : (ms3_3 t).IsWhole := hstage3_3 ((cfg3.slots t 3).cast nbuf3_3)
/-- The scratch operand: the running column sums, a whole scoped buffer of the kernel's own. -/
abbrev scM3_0 : Memref sig .tc .vmem S1x64 .f32 := Memref.whole cc3_scratch0
abbrev VS3_0 : View sig .tc .vmem S1x64 .f32 := scM3_0.view

/-! ## The region invariant, the scratch set apart -/

/-- The scoped buffers of the core that are neither this kernel's staging buffers nor its scratch (the other kernels'
    staging buffers), each at some contents. -/
def R3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

theorem chain_eq {A T R X : sProp 𝕄} (h : T = iprop(R ∗ X)) : iprop(A ∗ T) = iprop(iprop(A ∗ R) ∗ X) := by
  rw [h]; exact (Idealize.SL.BI.sep_assoc.antisymm Idealize.SL.BI.sep_assoc').symm

/-- The class invariant with the scratch operand as a memref owned at some contents, beside the rest. -/
theorem PhiA3_eq (c : Dev nD) :
    (Pipeline.ΦA spec3 c : sProp 𝕄)
      = iprop(iprop(R3 c ∗ (∃ d, owns (c : Thread nD τ) scM3_0 fullShare d)) ∗ (∃ r, prngReg c r)) := by
  unfold Pipeline.ΦA; rw [scopedRest3_eq]; simp only [scM3_0, owns_whole]
  congr 1
  unfold R3
  exact chain_eq (chain_eq (chain_eq (chain_eq (chain_eq (chain_eq (chain_eq (chain_eq (chain_eq (chain_eq (chain_eq (chain_eq (chain_eq (chain_eq (chain_eq (chain_eq (chain_eq (rfl)))))))))))))))))

end Cert.KernelIdeal.Hand

end
-- ==== Proof.KI.Region3RunA.lean ====
import proofs.«154293_j5291399708984_2_alg».proof.Proof.KI.Region3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- THE FIRST POINT (first conditional taken, second not). The scratch is zeroed, then the block's column sums are added
    onto it: on whole memrefs, the rows' block at its contents and the scratch at anything, the body runs to the
    continuation holding the block as it was and the scratch with its pieces written (last first). The other operands
    are not touched and stay outside. -/
noncomputable def kernelRun3_A (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : cond3_0 i) (hc1 : ¬cond3_1 i)
    (x0 : Vec F S10000x64 .f32) :
    { LS0 : List (View.Piece (Elt F) S1x64 .f32) //
      ∀ (E : Set ℕ) (K : PUnit → sProp 𝕄),
        iprop(owns (c : Thread nD τ) arg1 fullShare x0 ∗ (∃ d, owns (c : Thread nD τ) arg5 fullShare d)
            ∗ (iprop(owns (c : Thread nD τ) arg1 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc3__final_layer_kernel i arg1 harg1 arg2 harg2 arg3 harg3 arg4 harg4 arg5 harg5) K } := by
  refine ⟨?_, fun E K => ?run⟩
  case run =>
    simp only [cc3__final_layer_kernel_eq_skeleton]; unfold cc3__final_layer_kernel_skel
    unfold owns
    iintro ⟨⟨%f0, %hf0, H0⟩, ⟨%ds0, %fs0, -, HS0⟩, Hk⟩
    obtain rfl := harg1.eq_unread hf0
    sl_exec (disch := first | exact hc0 | exact hc1)
    sl_step
    iapply Hk
    isplitl [H0]
    · iexists _; isplitr; · ipureintro; exact harg1.read_unread _
      iexact H0
    iexists _; iexact HS0

end Cert.KernelIdeal.Hand

end
-- ==== Proof.KI.Region3RunB.lean ====
import proofs.«154293_j5291399708984_2_alg».proof.Proof.KI.Region3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- A MIDDLE POINT (neither conditional taken). The block's column sums are added onto the scratch: the rows' block at
    its contents, the scratch at what the point before left (`xs0`). -/
noncomputable def kernelRun3_B (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : ¬cond3_1 i)
    (x0 : Vec F S10000x64 .f32) (xs0 : Vec F S1x64 .f32) :
    { LS0 : List (View.Piece (Elt F) S1x64 .f32) //
      ∀ (E : Set ℕ) (K : PUnit → sProp 𝕄),
        iprop(owns (c : Thread nD τ) arg1 fullShare x0 ∗ owns (c : Thread nD τ) arg5 fullShare xs0
            ∗ (iprop(owns (c : Thread nD τ) arg1 fullShare x0 ∗ (∃ f, arg5.view.loc (c : Thread nD τ) ↦[arg5.view.set]{fullShare} arg5.view.writes (Elt F) f LS0)) -∗ K ⟨⟩))
          ⊢ wp frame (wpE (defs₀ (F := F)) Variants.none c none) E (cc3__final_layer_kernel i arg1 harg1 arg2 harg2 arg3 harg3 arg4 harg4 arg5 harg5) K } := by
  refine ⟨?_, fun E K => ?run⟩
  case run =>
    simp only [cc3__final_layer_kernel_eq_skeleton]; unfold cc3__final_layer_kernel_skel
    unfold owns
    iintro ⟨⟨%f0, %hf0, H0⟩, ⟨%fs0, %hfs0, HS0⟩, Hk⟩
    obtain rfl := harg1.eq_unread hf0; obtain rfl := harg5.eq_unread hfs0
    sl_exec (disch := first | exact hc0 | exact hc1)
    sl_step
    iapply Hk
    isplitl [H0]
    · iexists _; isplitr; · ipureintro; exact harg1.read_unread _
      iexact H0
    iexists _; iexact HS0

end Cert.KernelIdeal.Hand

end
-- ==== Proof.KI.Region3RunC.lean ====
import proofs.«154293_j5291399708984_2_alg».proof.Proof.KI.Region3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- THE LAST POINT (first conditional not taken, second taken). The block's column sums are added onto the scratch, then
    the scratch, the weights and the bias are read and the result row is stored: the inputs at their contents, the scratch
    at what the point before left (`xs0`), the output's buffer at anything. -/
noncomputable def kernelRun3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) :
    Σ' (L3 : List (View.Piece (Elt F) S1x16 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc3__final_layer_kernel i arg1 harg1 arg2 harg2 arg3 harg3 arg4 harg4 arg5 harg5) K } := by
  refine ⟨?_, ?_, fun E K => ?run⟩
  case run =>
    simp only [cc3__final_layer_kernel_eq_skeleton]; unfold cc3__final_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Region3.lean ====
import proofs.«154293_j5291399708984_2_alg».proof.Proof.KI.Region3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The last kernel's half of the frame, at the buffer contents `V` found when its region is entered -/

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves -/

/-- The first point's pieces cover the scratch. -/
theorem scover3_A (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : cond3_0 i) (hc1 : ¬cond3_1 i)
    (x0 : Vec F S10000x64 .f32) (y : S1x64.Idx) :
    ∃ pc ∈ (kernelRun3_A c i arg1 harg1 arg2 harg2 arg3 harg3 arg4 harg4 arg5 harg5 hc0 hc1 x0).1, y ∈ pc.1.set :=
  View.cover_of_tiledL (kernelRun3_A c i arg1 harg1 arg2 harg2 arg3 harg3 arg4 harg4 arg5 harg5 hc0 hc1 x0).1 S1x64.size (by sl_kernel_rfl) y

/-- What the first point leaves in the scratch: its pieces read back. -/
def sout3_A (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : cond3_0 i) (hc1 : ¬cond3_1 i)
    (x0 : Vec F S10000x64 .f32) : Vec F S1x64 .f32 :=
  VS3_0.read (Elt F) (VS3_0.writes (Elt F) VS3_0.junk (kernelRun3_A c i arg1 harg1 arg2 harg2 arg3 harg3 arg4 harg4 arg5 harg5 hc0 hc1 x0).1)

theorem scover3_B (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : ¬cond3_1 i)
    (x0 : Vec F S10000x64 .f32) (xs0 : Vec F S1x64 .f32) (y : S1x64.Idx) :
    ∃ pc ∈ (kernelRun3_B c i arg1 harg1 arg2 harg2 arg3 harg3 arg4 harg4 arg5 harg5 hc0 hc1 x0 xs0).1, y ∈ pc.1.set :=
  View.cover_of_tiledL (kernelRun3_B c i arg1 harg1 arg2 harg2 arg3 harg3 arg4 harg4 arg5 harg5 hc0 hc1 x0 xs0).1 S1x64.size (by sl_kernel_rfl) y

/-- What a middle point leaves in the scratch. -/
def sout3_B (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : ¬cond3_1 i)
    (x0 : Vec F S10000x64 .f32) (xs0 : Vec F S1x64 .f32) : Vec F S1x64 .f32 :=
  VS3_0.read (Elt F) (VS3_0.writes (Elt F) VS3_0.junk (kernelRun3_B c i arg1 harg1 arg2 harg2 arg3 harg3 arg4 harg4 arg5 harg5 hc0 hc1 x0 xs0).1)

theorem cover3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) (y : S1x16.Idx) :
    ∃ pc ∈ (kernelRun3_C c i arg1 harg1 arg2 harg2 arg3 harg3 arg4 harg4 arg5 harg5 hc0 hc1 x0 x1 x2 xs0).1, y ∈ pc.1.set :=
  View.cover_of_tiledL (kernelRun3_C c i arg1 harg1 arg2 harg2 arg3 harg3 arg4 harg4 arg5 harg5 hc0 hc1 x0 x1 x2 xs0).1 S1x16.size (by sl_kernel_rfl) y

/-- What the last point leaves in the output's staging buffer. -/
def out3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) : Vec F S1x16 .f32 :=
  VO3_3.read (Elt F) (VO3_3.writes (Elt F) VO3_3.junk (kernelRun3_C c i arg1 harg1 arg2 harg2 arg3 harg3 arg4 harg4 arg5 harg5 hc0 hc1 x0 x1 x2 xs0).1)

theorem scover3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) (y : S1x64.Idx) :
    ∃ pc ∈ (kernelRun3_C c i arg1 harg1 arg2 harg2 arg3 harg3 arg4 harg4 arg5 harg5 hc0 hc1 x0 x1 x2 xs0).2.1, y ∈ pc.1.set :=
  View.cover_of_tiledL (kernelRun3_C c i arg1 harg1 arg2 harg2 arg3 harg3 arg4 harg4 arg5 harg5 hc0 hc1 x0 x1 x2 xs0).2.1 S1x64.size (by sl_kernel_rfl) y

/-- What the last point leaves in the scratch. -/
def sout3_C (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i)
    (x0 : Vec F S10000x64 .f32) (x1 : Vec F S64x16 .f32) (x2 : Vec F S16 .f32) (xs0 : Vec F S1x64 .f32) : Vec F S1x64 .f32 :=
  VS3_0.read (Elt F) (VS3_0.writes (Elt F) VS3_0.junk (kernelRun3_C c i arg1 harg1 arg2 harg2 arg3 harg3 arg4 harg4 arg5 harg5 hc0 hc1 x0 x1 x2 xs0).2.1)

/-! ## The scratch after each point -/

theorem ne0_of_succ {n : ℕ} {hn : n + 1 < cfg3.N} (h : cond3_0 (grid3.coords ⟨n + 1, hn⟩)) : False :=
  Nat.succ_ne_zero n ((hcond3_0 ⟨n + 1, hn⟩).mp h)

/-- THE ACCUMULATION: what the scratch holds after the body at position `n` — the first point's case at 0, afterwards the
    middle or the last point's case over what the point before left. -/
def acc3 (c : Dev nD) : (n : ℕ) → n < cfg3.N → Vec F S1x64 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr rfl)
      (fun h => absurd ((hcond3_1 ⟨0, hn⟩).mp h) (show ¬((0 : ℕ) = 9) from by decide)) (iblk3 V c 0 ⟨0, hn⟩)
  | n + 1, hn =>
    if h1 : n + 1 = 9 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ne0_of_succ ((hcond3_1 ⟨n + 1, hn⟩).mpr h1)
        (iblk3 V c 0 ⟨n + 1, hn⟩) (iblk3 V c 1 ⟨n + 1, hn⟩) (iblk3 V c 2 ⟨n + 1, hn⟩) (acc3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ne0_of_succ (fun h => h1 ((hcond3_1 ⟨n + 1, hn⟩).mp h))
        (iblk3 V c 0 ⟨n + 1, hn⟩) (acc3 c n (Nat.lt_of_succ_lt hn))

theorem acc3_A (c : Dev nD) (t : Fin cfg3.N) (h0 : t.val = 0) (hc0 : cond3_0 (grid3.coords t)) (hc1 : ¬cond3_1 (grid3.coords t)) :
    acc3 V c t.val t.isLt = sout3_A c (grid3.coords t) (ms3_0 t) (hs3_0 t) (ms3_1 t) (hs3_1 t) (ms3_2 t) (hs3_2 t) (ms3_3 t) (hs3_3 t) scM3_0 (Memref.isWhole_whole _) hc0 hc1 (iblk3 V c 0 t) := by
  obtain ⟨n, hn⟩ := t
  cases n with
  | zero => rfl
  | succ n => exact absurd h0 (Nat.succ_ne_zero n)

theorem acc3_B (c : Dev nD) (t : Fin cfg3.N) (h0 : ¬t.val = 0) (h1 : ¬t.val = 9) (hc0 : ¬cond3_0 (grid3.coords t)) (hc1 : ¬cond3_1 (grid3.coords t)) :
    acc3 V c t.val t.isLt = sout3_B c (grid3.coords t) (ms3_0 t) (hs3_0 t) (ms3_1 t) (hs3_1 t) (ms3_2 t) (hs3_2 t) (ms3_3 t) (hs3_3 t) scM3_0 (Memref.isWhole_whole _) hc0 hc1 (iblk3 V c 0 t)
      (acc3 V c (t.val - 1) (Nat.lt_of_le_of_lt (Nat.sub_le _ _) t.isLt)) := by
  obtain ⟨n, hn⟩ := t
  cases n with
  | zero => exact absurd rfl h0
  | succ n => exact (dif_neg h1).trans rfl

theorem acc3_C (c : Dev nD) (t : Fin cfg3.N) (h0 : ¬t.val = 0) (h1 : t.val = 9) (hc0 : ¬cond3_0 (grid3.coords t)) (hc1 : cond3_1 (grid3.coords t)) :
    acc3 V c t.val t.isLt = sout3_C c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)
      (acc3 V c (t.val - 1) (Nat.lt_of_le_of_lt (Nat.sub_le _ _) t.isLt)) := by
  obtain ⟨n, hn⟩ := t
  cases n with
  | zero => exact absurd rfl h0
  | succ n => exact (dif_pos h1).trans rfl

/-- What the output's staging buffer holds after point `t`: at the last point what that case stores, over the scratch the
    point before left; elsewhere the window is idle and this is a placeholder nothing consults. -/
def out3At (c : Dev nD) (t : Fin cfg3.N) : Vec F S1x16 .f32 :=
  if h1 : t.val = 9 then
    out3_C c (grid3.coords t) (ms3_0 t) (hs3_0 t) (ms3_1 t) (hs3_1 t) (ms3_2 t) (hs3_2 t) (ms3_3 t) (hs3_3 t) scM3_0 (Memref.isWhole_whole _) (fun h => by have := (hcond3_0 t).mp h; omega) ((hcond3_1 t).mpr h1)
      (iblk3 V c 0 t) (iblk3 V c 1 t) (iblk3 V c 2 t) (acc3 V c (t.val - 1) (Nat.lt_of_le_of_lt (Nat.sub_le _ _) t.isLt))
  else VO3_3.read (Elt F) VO3_3.junk

theorem out3At_C (c : Dev nD) (t : Fin cfg3.N) (h1 : t.val = 9) (hc0 : ¬cond3_0 (grid3.coords t)) (hc1 : cond3_1 (grid3.coords t)) :
    out3At V c t = out3_C c (grid3.coords t) (ms3_0 t) (hs3_0 t) (ms3_1 t) (hs3_1 t) (ms3_2 t) (hs3_2 t) (ms3_3 t) (hs3_3 t) scM3_0 (Memref.isWhole_whole _) hc0 hc1
      (iblk3 V c 0 t) (iblk3 V c 1 t) (iblk3 V c 2 t) (acc3 V c (t.val - 1) (Nat.lt_of_le_of_lt (Nat.sub_le _ _) t.isLt)) := by
  unfold out3At; rw [dif_pos h1]

/-! ## The region invariant -/

/-- Before the first point the class's invariant; afterwards the rest, the scratch at what the point before left in it,
    and the generator register at some state. -/
def PhiS3 (c : Dev nD) : (n : ℕ) → n ≤ cfg3.N → sProp 𝕄
  | 0, _ => Pipeline.ΦA spec3 c
  | n + 1, hn => iprop(iprop(R3 c ∗ owns (c : Thread nD τ) scM3_0 fullShare (acc3 V c n hn)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(R3 c ∗ owns (c : Thread nD τ) scM3_0 fullShare (acc3 V c n hn)) ∗ (∃ r, prngReg c r)) := rfl

theorem PhiS3_pos (c : Dev nD) (n : ℕ) (h : n ≤ cfg3.N) (hz : n ≠ 0) :
    PhiS3 V c n h = iprop(iprop(R3 c ∗ owns (c : Thread nD τ) scM3_0 fullShare (acc3 V c (n - 1) (by omega))) ∗ (∃ r, prngReg c r)) := by
  cases n with
  | zero => exact absurd rfl hz
  | succ n => rfl

/-! ## The pipeline's proof data -/

/-- The proof data on core `c`: the arrays as the region finds them; after the body at point `t` each input's buffer at
    its block and the output's at `out3At`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3At V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3At V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
/-- The body at any point: the inputs' memrefs hold their blocks; the point is the first, a middle or the last one, and
    that case's run applies; the invariant hands the body the scratch at what the point before left (at anything at the
    first point) and takes it back at this point's contents; away from the last point the output's buffer goes back as
    found; the rest, the generator register and the core's debts pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 10 := lt_of_lt_of_eq t.isLt (show cfg3.N = 10 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 3 t (idleAt3_3 t hc1) (noFlush3_3 t hc1)]
    rw [acc3_A V c t h0 hc0 hc1]
    unfold sout3_A
    rw [PhiS3_castSucc V c t, PhiS3_zero V c _ _ h0, PhiA3_eq]
    iintro ⟨⟨⟨HR, HS0⟩, Hg⟩, Ho, ⟨%d0, H0⟩, ⟨%d1, H1⟩, ⟨%d2, H2⟩, ⟨%d3, H3⟩⟩
    iapply ((kernelRun3_A c (grid3.coords t) _ _ _ _ _ _ _ _ _ _ hc0 hc1 (iblk3 V c 0 t)).2 Set.univ _)
    isplitl [H0]; · iexact H0
    isplitl [HS0]; · iexact HS0
    iintro ⟨H0, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover3_A c _ _ _ _ _ _ _ _ _ _ _ _ _ _)
      iexact Hg
    isplitl [Ho]; · iexact Ho
    isplitl [H0]; · iexact H0
    isplitl [H1]; · iexact H1
    isplitl [H2]; · iexact H2
    iexists _; iexact H3
  · have hc0 : ¬cond3_0 (grid3.coords t) := fun h => h0 ((hcond3_0 t).mp h)
    by_cases h1 : t.val = 9
    · have hc1 : cond3_1 (grid3.coords t) := (hcond3_1 t).mpr h1
      rw [show (dat3 V c).leavesExact 3 t = owns (c : Thread nD τ) (ms3_3 t) fullShare ((dat3 V c).after 3 t) from by
        unfold Dat.leavesExact; rw [liveAt3_3 t hc1], after3_3]
      rw [out3At_C V c t h1 hc0 hc1, acc3_C V c t h0 h1 hc0 hc1]
      unfold out3_C sout3_C
      rw [PhiS3_castSucc V c t, PhiS3_pos V c _ _ h0]
      iintro ⟨⟨⟨HR, HS0⟩, Hg⟩, Ho, ⟨%d0, H0⟩, ⟨%d1, H1⟩, ⟨%d2, H2⟩, ⟨%d3, H3⟩⟩
      iapply ((kernelRun3_C c (grid3.coords t) _ _ _ _ _ _ _ _ _ _ hc0 hc1 (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover3_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · have hc1 : ¬cond3_1 (grid3.coords t) := fun h => h1 ((hcond3_1 t).mp h)
      rw [Dat.leavesExact_idle (dat3 V c) 3 t (idleAt3_3 t hc1) (noFlush3_3 t hc1)]
      rw [acc3_B V c t h0 h1 hc0 hc1]
      unfold sout3_B
      rw [PhiS3_castSucc V c t, PhiS3_pos V c _ _ h0]
      iintro ⟨⟨⟨HR, HS0⟩, Hg⟩, Ho, ⟨%d0, H0⟩, ⟨%d1, H1⟩, ⟨%d2, H2⟩, ⟨%d3, H3⟩⟩
      iapply ((kernelRun3_B c (grid3.coords t) _ _ _ _ _ _ _ _ _ _ hc0 hc1 (iblk3 V c 0 t) _).2 Set.univ _)
      isplitl [H0]; · iexact H0
      isplitl [HS0]; · iexact HS0
      iintro ⟨H0, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover3_B c _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR, HS0⟩, Hg⟩
  isplitl [HR HS0]
  · isplitl [HR]; · iexact HR
    iexists _; iexact HS0
  iexact Hg

theorem hout3 (c : Dev nD) : (dat3 V c).Φ (Fin.last cfg3.N) ⊢ Pipeline.ΦA spec3 c :=
  Phi_out3 V c _ (by rw [Fin.val_last]; have : cfg3.N = 10 := N_3; omega)

end Region3

end Cert.KernelIdeal.Hand

end
-- ==== Proof.KI.Run.lean ====
/- The run of @main: its eight segments (four stretches of host operations, each followed by a pallas_call) from the
   launch to the return. The buffer contents at every segment boundary, as a fold from the launch memory (a stretch's
   `StableHlo.after`; a region's arrays at what its write-backs leave, every other buffer as entered); each argument
   array read back through the fold to its launch contents (no host operation writes one, and a region only reads one
   through an input window); every pipeline's proof data at its region's entry contents; a segment record per stretch
   and per region over the thread state "every unscoped buffer at the boundary's contents, the generator register at
   some state, nothing owed"; and the run: every weakly fair execution terminates, the result array ends at the last
   boundary's contents and every argument as launched. -/
import proofs.«154293_j5291399708984_2_alg».proof.Proof.KI.Region0
import proofs.«154293_j5291399708984_2_alg».proof.Proof.KI.Region1
import proofs.«154293_j5291399708984_2_alg».proof.Proof.KI.Region2
import proofs.«154293_j5291399708984_2_alg».proof.Proof.KI.Region3
import proofs.«154293_j5291399708984_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffer contents at each segment boundary: a fold through @main -/

/-- Core `c`'s buffers at launch. -/
abbrev W0 (c : Dev nD) : Valuation τ sig (Elt F) := fun b => m (c, b)
/-- After `hostOps0` (region 0's entry). -/
abbrev W1 (c : Dev nD) : Valuation τ sig (Elt F) := StableHlo.after hostOps0 (W0 m c)
/-- The same read at the TensorCore's references (what region 0's proof data take). -/
abbrev V1 : (c : Dev nD) → (b : Ref sig .tc) → Buf (Elt F) ((c : Thread nD τ).loc b) := fun c b => W1 m c b
/-- No operation of `hostOps0` writes a reference outside its written list. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- At region 0's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1` (region 1's entry). -/
abbrev W3 (c : Dev nD) : Valuation τ sig (Elt F) := StableHlo.after hostOps1 (W2 m c)
/-- The same read at the TensorCore's references (what region 1's proof data take). -/
abbrev V3 : (c : Dev nD) → (b : Ref sig .tc) → Buf (Elt F) ((c : Thread nD τ).loc b) := fun c b => W3 m c b
/-- No operation of `hostOps1` writes a reference outside its written list. -/
theorem W3_of (c : Dev nD) (r : Ref sig .tc) (h : r ∉ hostOps1_W) : W3 m c (Proc.devRef .tc r) = W2 m c (Proc.devRef .tc r) :=
  StableHlo.after_of_writes_sub hostOps1 _ hostOps1_writes h
/-- At region 1's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m c b
/-- At region 1's exit each of its arrays holds what the pipeline leaves and every other buffer what it held at
    entry. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After `hostOps2` (region 2's entry). -/
abbrev W5 (c : Dev nD) : Valuation τ sig (Elt F) := StableHlo.after hostOps2 (W4 m c)
/-- The same read at the TensorCore's references (what region 2's proof data take). -/
abbrev V5 : (c : Dev nD) → (b : Ref sig .tc) → Buf (Elt F) ((c : Thread nD τ).loc b) := fun c b => W5 m c b
/-- No operation of `hostOps2` writes a reference outside its written list. -/
theorem W5_of (c : Dev nD) (r : Ref sig .tc) (h : r ∉ hostOps2_W) : W5 m c (Proc.devRef .tc r) = W4 m c (Proc.devRef .tc r) :=
  StableHlo.after_of_writes_sub hostOps2 _ hostOps2_writes h
/-- At region 2's exit: its arrays at what the pipeline leaves (the inputs as entered, the output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m c b
/-- At region 2's exit each of its arrays holds what the pipeline leaves and every other buffer what it held at
    entry. -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After `hostOps3` (region 3's entry). -/
abbrev W7 (c : Dev nD) : Valuation τ sig (Elt F) := StableHlo.after hostOps3 (W6 m c)
/-- The same read at the TensorCore's references (what region 3's proof data take). -/
abbrev V7 : (c : Dev nD) → (b : Ref sig .tc) → Buf (Elt F) ((c : Thread nD τ).loc b) := fun c b => W7 m c b
/-- No operation of `hostOps3` writes a reference outside its written list. -/
theorem W7_of (c : Dev nD) (r : Ref sig .tc) (h : r ∉ hostOps3_W) : W7 m c (Proc.devRef .tc r) = W6 m c (Proc.devRef .tc r) :=
  StableHlo.after_of_writes_sub hostOps3 _ hostOps3_writes h
/-- At region 3's exit: its arrays at what the pipeline leaves (the inputs as entered, the output's write-backs
    folded), every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m c b
/-- At region 3's exit each of its arrays holds what the pipeline leaves and every other buffer what it held at
    entry. -/
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-! ### The arguments end as launched: no host operation writes one, and a region reads one through an input window
    (whose array is never written back) or does not touch it -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := W1_of m c main_arg2 (by decide)
    _ = m ((c : Thread nD τ).loc main_arg2) := rfl
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := (W2_arr m c 2).trans (((dat0 (V1 m) c).arrAt_in 2 rfl _).trans (A_eq0 (V1 m) c 2))
    _ = W0 m c (Proc.devRef .tc main_arg3) := W1_of m c main_arg3 (by decide)
    _ = m ((c : Thread nD τ).loc main_arg3) := rfl
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := (W4_arr m c 1).trans (((dat1 (V3 m) c).arrAt_in 1 rfl _).trans (A_eq1 (V3 m) c 1))
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := (W4_arr m c 2).trans (((dat1 (V3 m) c).arrAt_in 2 rfl _).trans (A_eq1 (V3 m) c 2))
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := W7_of m c main_arg6 (by decide)
    _ = W5 m c (Proc.devRef .tc main_arg6) := (W6_arr m c 1).trans (((dat2 (V5 m) c).arrAt_in 1 rfl _).trans (A_eq2 (V5 m) c 1))
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_of_ne m c main_arg7 (by decide)
    _ = W6 m c (Proc.devRef .tc main_arg7) := W7_of m c main_arg7 (by decide)
    _ = W5 m c (Proc.devRef .tc main_arg7) := (W6_arr m c 2).trans (((dat2 (V5 m) c).arrAt_in 2 rfl _).trans (A_eq2 (V5 m) c 2))
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W8_main_arg8 (c : Dev nD) : W8 m c (Proc.devRef .tc main_arg8) = m ((c : Thread nD τ).loc main_arg8) :=
  calc W8 m c (Proc.devRef .tc main_arg8)
    _ = W7 m c (Proc.devRef .tc main_arg8) := (W8_arr m c 1).trans (((dat3 (V7 m) c).arrAt_in 1 rfl _).trans (A_eq3 (V7 m) c 1))
    _ = W6 m c (Proc.devRef .tc main_arg8) := W7_of m c main_arg8 (by decide)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
theorem W8_main_arg9 (c : Dev nD) : W8 m c (Proc.devRef .tc main_arg9) = m ((c : Thread nD τ).loc main_arg9) :=
  calc W8 m c (Proc.devRef .tc main_arg9)
    _ = W7 m c (Proc.devRef .tc main_arg9) := (W8_arr m c 2).trans (((dat3 (V7 m) c).arrAt_in 2 rfl _).trans (A_eq3 (V7 m) c 2))
    _ = W6 m c (Proc.devRef .tc main_arg9) := W7_of m c main_arg9 (by decide)
    _ = W5 m c (Proc.devRef .tc main_arg9) := W6_of_ne m c main_arg9 (by decide)
    _ = W4 m c (Proc.devRef .tc main_arg9) := W5_of m c main_arg9 (by decide)
    _ = W3 m c (Proc.devRef .tc main_arg9) := W4_of_ne m c main_arg9 (by decide)
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 (pallas_call 0) over the thread state: entered from every unscoped buffer at `W1`, left at `W2`.
    Its arrays split out of the unscoped buffers and put back at the exit contents; the generator register into the
    region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (pallas_call 1) over the thread state: entered from every unscoped buffer at `W3`, left at `W4`.
    Its arrays split out of the unscoped buffers and put back at the exit contents; the generator register into the
    region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (pallas_call 2) over the thread state: entered from every unscoped buffer at `W5`, left at `W6`.
    Its arrays split out of the unscoped buffers and put back at the exit contents; the generator register into the
    region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (pallas_call 3) over the thread state: entered from every unscoped buffer at `W7`, left at `W8`.
    Its arrays split out of the unscoped buffers and put back at the exit contents; the generator register into the
    region's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V7 m) c).Φ 0 from rfl]
    refine BIBase.Entails.trans ?_ (hin3 (V7 m) c)
    unfold Pipeline.ΦA
    iintro ⟨Hp, -, Hr⟩
    isplitl [Hr]; · iexact Hr
    iexact Hp
  hout c := by
    rw [Pipeline.ownSems0_none, show (pdats m 3 c).Φ (Fin.last _) = (dat3 (V7 m) c).Φ (Fin.last cfg3.N) from rfl]
    refine BIBase.Entails.trans (hout3 (V7 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

set_option backward.isDefEq.respectTransparency.types false in
/-- THE RUN. At the compiled mesh, from any memory with zero counters, every weakly fair execution of @main on the
    TensorCores terminates, nothing faulting, and every final state has the result array at the last boundary's
    contents and every argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v93) = W8 m c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v93 (by decide)),
        (h c _ (mem_uc main_arg0 (by decide))).trans (W8_main_arg0 m c),
        (h c _ (mem_uc main_arg1 (by decide))).trans (W8_main_arg1 m c),
        (h c _ (mem_uc main_arg2 (by decide))).trans (W8_main_arg2 m c),
        (h c _ (mem_uc main_arg3 (by decide))).trans (W8_main_arg3 m c),
        (h c _ (mem_uc main_arg4 (by decide))).trans (W8_main_arg4 m c),
        (h c _ (mem_uc main_arg5 (by decide))).trans (W8_main_arg5 m c),
        (h c _ (mem_uc main_arg6 (by decide))).trans (W8_main_arg6 m c),
        (h c _ (mem_uc main_arg7 (by decide))).trans (W8_main_arg7 m c),
        (h c _ (mem_uc main_arg8 (by decide))).trans (W8_main_arg8 m c),
        (h c _ (mem_uc main_arg9 (by decide))).trans (W8_main_arg9 m c)⟩)

/-- THE FRAME: every weakly fair execution of @main terminates, nothing faulting, and every final state has the
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

end Cert.KernelIdeal.Hand

end
-- ==== Proof.RefImports.lean ====
/- The reference's run and its stage-by-stage readings, brought in for the modules that compare it with the kernel. -/
import proofs.«154293_j5291399708984_2_alg».proof.Proof.Gen.ReferenceIdeal.Run
import proofs.«154293_j5291399708984_2_alg».proof.Proof.Gen.ReferenceIdeal.Read
-- ==== Proof.Spec.lean ====
/-
  The graph-convolution network of this certificate, as functions of arrays over the extended reals.

  Nodes v < 100000 carry feature rows of width 64; an edge list gives 800000 pairs (s, d) of 32-bit words. One
  aggregation sends a node array H to  H + S(H; s → d) + S(H; d → s),  where S(H; a → b) adds, for every edge e, the row
  of H that a(e) names (a negative word counting from the end, the row clamped into range) onto the row b(e) names
  (an edge whose b(e) names no row is dropped). A layer follows an aggregation by an affine map and max(·, 0).
  The network ends by averaging, over the nodes, one more aggregation followed by an affine map into 16 classes.
  The same average is (1/N) · Σ_v w(v) · H(v, ·) pushed through the affine map, w(v) = 1 + the number of edges ending
  at v + the number starting at v — when every word of the edge list names a row.
-/
import Idealize.ShloMosaic.PureOps.Ideal
import Idealize.ShloMosaic.PureOps.Ideal.Laws
import Idealize.ShloMosaic.Lib.ValueIdx
import Idealize.ShloMosaic.Lib.Pipeline.Value

noncomputable section

namespace Cert.Gcn

open Idealize.ShloMosaic Idealize.ShloMosaic.ValueIdx

abbrev SNF : Shape := ⟨2, ![100000, 64]⟩
abbrev SE : Shape := ⟨1, ![800000]⟩
abbrev SE1 : Shape := ⟨2, ![800000, 1]⟩
abbrev SEF : Shape := ⟨2, ![800000, 64]⟩
abbrev S0 : Shape := ⟨0, ![]⟩
abbrev SN : Shape := ⟨1, ![100000]⟩
abbrev SN1 : Shape := ⟨2, ![100000, 1]⟩
abbrev SFF : Shape := ⟨2, ![64, 64]⟩
abbrev SF : Shape := ⟨1, ![64]⟩
abbrev SFC : Shape := ⟨2, ![64, 16]⟩
abbrev SC : Shape := ⟨1, ![16]⟩
abbrev S1C : Shape := ⟨2, ![1, 16]⟩

/-- The side conditions the operations' spellings carry (each a decidable fact about literal shapes). -/
structure Side : Prop where
  bE : S0.BroadcastsInDim SE (![] : Fin 0 → Fin SE.rank)
  bE1 : SE.BroadcastsInDim SE1 (![0] : Fin 1 → Fin SE1.rank)
  bNF : S0.BroadcastsInDim SNF (![] : Fin 0 → Fin SNF.rank)
  gwf : GatherDims.WF SNF SE1 SEF [1] [0] [] [0] [] 1 ![1, 64]
  swf : ScatterDims.WF SNF SE1 SEF [1] [0] [0] 1

/-- The side conditions of the degree weights' operations. -/
structure SideW : Prop where
  bN : S0.BroadcastsInDim SN (![] : Fin 0 → Fin SN.rank)
  bN1 : SN.BroadcastsInDim SN1 (![0] : Fin 1 → Fin SN1.rank)
  bN1F : SN1.BroadcastsInDim SNF (![0, 1] : Fin 2 → Fin SNF.rank)
  ewf : ScatterDims.WF SN SE1 SE [] [0] [0] 1

variable (h : Side) (hw : SideW)

/-- Take whole rows of a node array by a column of row words. -/
def gRows : GatherDims SNF SE1 SEF where
  offsetDims := [1]
  collapsedSliceDims := [0]
  operandBatchingDims := []
  startIndicesBatchingDims := []
  startIndexMap := [0]
  indexVectorDim := 1
  sliceSizes := ![1, 64]
  wf := h.gwf

/-- Add whole rows onto the rows a column of row words names. -/
def sRows : ScatterDims SNF SE1 SEF where
  updateWindowDims := [1]
  insertedWindowDims := [0]
  scatterDimsToOperandDims := [0]
  indexVectorDim := 1
  wf := h.swf

/-- Add numbers onto the entries a column of words names. -/
def sElts : ScatterDims SN SE1 SE where
  updateWindowDims := []
  insertedWindowDims := [0]
  scatterDimsToOperandDims := [0]
  indexVectorDim := 1
  wf := hw.ewf

/-- A negative word counts from the end: `w < 0 ↦ w + 100000`; laid out as a column. -/
def wrapCol (s : IVec SE 32) : IVec SE1 32 :=
  broadcastInDim SE1 ![0] h.bE1
    (select (cmpi .slt s (broadcastInDim SE ![] h.bE (constantI S0 32 0#32)))
      (addi s (broadcastInDim SE ![] h.bE (constantI S0 32 100000#32))) s)

/-- A row of words as a column. -/
def col (s : IVec SE 32) : IVec SE1 32 := broadcastInDim SE1 ![0] h.bE1 s

/-- The all-zero node array. -/
def zeroNF : FVec Ideal SNF .f32 := broadcastInDim SNF ![] h.bNF (constant (F := Ideal) S0 .f32 0x00000000#32)

/-- S(H; a → b): the rows the words `a` name, added onto the rows the words `b` name. -/
def pushRows (H : FVec Ideal SNF .f32) (a b : IVec SE 32) : FVec Ideal SNF .f32 :=
  Host.scatterAdd (sRows h) (zeroNF h) (col h b) (Host.gather (gRows h) H (wrapCol h a))

/-- One aggregation: every node's own row, plus its neighbours' rows along the edges in both directions. -/
def agg (H : FVec Ideal SNF .f32) (s d : IVec SE 32) : FVec Ideal SNF .f32 :=
  addf (addf H (pushRows h H s d)) (pushRows h H d s)

/-- The degree weights w(v) = 1 + (edges ending at v) + (edges starting at v), as float sums of ones. -/
def wt (s d : IVec SE 32) : FVec Ideal SN .f32 :=
  addf (addf (broadcastInDim SN ![] hw.bN (constant (F := Ideal) S0 .f32 0x3F800000#32))
      (Host.scatterAdd (sElts hw) (broadcastInDim SN ![] hw.bN (constant (F := Ideal) S0 .f32 0x00000000#32)) (col h d)
        (broadcastInDim SE ![] h.bE (constant (F := Ideal) S0 .f32 0x3F800000#32))))
    (Host.scatterAdd (sElts hw) (broadcastInDim SN ![] hw.bN (constant (F := Ideal) S0 .f32 0x00000000#32)) (col h s)
      (broadcastInDim SE ![] h.bE (constant (F := Ideal) S0 .f32 0x3F800000#32)))

/-- Every row of H scaled by its node's weight. -/
def weighted (H : FVec Ideal SNF .f32) (s d : IVec SE 32) : FVec Ideal SNF .f32 :=
  mulf H (broadcastInDim SNF ![0, 1] hw.bN1F (broadcastInDim SN1 ![0] hw.bN1 (wt h hw s d)))

/-- An affine map followed by max(·, 0), at node `p` and output feature `q`. -/
def linReluAt (W : FVec Ideal SFF .f32) (b : FVec Ideal SF .f32) (A : FVec Ideal SNF .f32) (p : Fin 100000) (q : Fin 64) : EReal :=
  max ((∑ k : Fin 64, A (ix2 p k) * W (ix2 k q)) + b (ix1 q)) 0

/-- The layer as a node array. -/
def linRelu (W : FVec Ideal SFF .f32) (b : FVec Ideal SF .f32) (A : FVec Ideal SNF .f32) : FVec Ideal SNF .f32 :=
  fun i => linReluAt W b A ⟨(i 0).val, (i 0).isLt⟩ ⟨(i 1).val, (i 1).isLt⟩

theorem linRelu_ix2 (W : FVec Ideal SFF .f32) (b : FVec Ideal SF .f32) (A : FVec Ideal SNF .f32) (p : Fin 100000) (q : Fin 64) :
    linRelu W b A (ix2 p q) = linReluAt W b A p q := rfl

/-- The three hidden layers. -/
def hidden (X : FVec Ideal SNF .f32) (s d : IVec SE 32) (W0 : FVec Ideal SFF .f32) (b0 : FVec Ideal SF .f32)
    (W1 : FVec Ideal SFF .f32) (b1 : FVec Ideal SF .f32) (W2 : FVec Ideal SFF .f32) (b2 : FVec Ideal SF .f32) : FVec Ideal SNF .f32 :=
  linRelu W2 b2 (agg h (linRelu W1 b1 (agg h (linRelu W0 b0 (agg h X s d)) s d)) s d)

/-- The closing of the reference: the average over the nodes of an affine map of the aggregated rows, at class `q`. -/
def meanOfAffineAt (W3 : FVec Ideal SFC .f32) (b3 : FVec Ideal SC .f32) (A : FVec Ideal SNF .f32) (q : Fin 16) : EReal :=
  Ideal.div (0 + ∑ v : Fin 100000, ((∑ k : Fin 64, A (ix2 v k) * W3 (ix2 k q)) + b3 (ix1 q))) ((100000 : ℝ) : EReal)

/-- The closing of the kernel: the affine map of (1/N) times the column sums of the weighted rows, at class `q`. -/
def affineOfMeanAt (W3 : FVec Ideal SFC .f32) (b3 : FVec Ideal SC .f32) (Hw : FVec Ideal SNF .f32) (q : Fin 16) : EReal :=
  (∑ k : Fin 64, ((∑ v : Fin 100000, Hw (ix2 v k)) * ((1 / 100000 : ℝ) : EReal)) * W3 (ix2 k q)) + b3 (ix1 q)

end Cert.Gcn

end
-- ==== Proof.LibAffineLayer.lean ====
/-
  General lemmas for an affine layer `x ↦ x · W + b` written two ways: as ONE product over a concatenated
  operand, and as a SUM of products over the concatenation's pieces against the matching row blocks of `W`.

  * `sum_split2`, `sum_split3`: a finite sum over `Fin n` is the sum of its sums over two (three) consecutive
    ranges — in any commutative monoid, so it holds on the extended reals with no finiteness asked.
  * `plain_sum`: the contraction sum of a plain `[M,K] × [K,N]` product (one contracted axis, no batch axis),
    read at the output index `(p, q)`, is `∑ k, l (p, k) · r (k, q)`.
  * `matmul_zero_ix2` / `dotGeneral_ix2`: a matrix product into a zero accumulator, and the host's product, at the
    ideal values are that sum.
  * `concat2_left/right`, `concat3_fst/snd/thd`: a concatenation of two (three) matrices along the columns read at
    `(p, k)` with `k` in the first, second, third range of columns.
  * `row_bias_apply`: a vector cast to one row and broadcast over many rows reads, at `(p, q)`, the vector at `q`.
  * `rowBlock`, `slice_rows_eq`: rows `o … o + r - 1` of a matrix, and a slice along the rows as that block.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.AffineLayer

open Idealize.ShloMosaic Idealize.ShloMosaic.ValueIdx

/-! ## Sums over consecutive ranges -/

/-- A sum over `Fin n` with `n = a + b` is the sum over the first `a` positions plus the sum over the next `b`. -/
theorem sum_split2 {M : Type*} [AddCommMonoid M] (a b n : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- A sum over `Fin n` with `n = a + b + c` is the sum of its sums over the three consecutive ranges. -/
theorem sum_split3 {M : Type*} [AddCommMonoid M] (a b c n : ℕ) (h : a + b + c = n) (f : Fin n → M) :
    ∑ k : Fin n, f k
      = (∑ k : Fin a, f ⟨k.val, by omega⟩ + ∑ k : Fin b, f ⟨a + k.val, by omega⟩) + ∑ k : Fin c, f ⟨a + b + k.val, by omega⟩ := by
  subst h
  rw [Fin.sum_univ_add, Fin.sum_univ_add]
  rfl

/-! ## A plain matrix product read at an index -/

/-- The contraction sum of a plain `[M,K] × [K,N]` product at the output index `(p, q)`: the left operand's row `p`
    against the right operand's column `q`. -/
theorem plain_sum {M K N : ℕ} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A kernel's matrix product into the zero accumulator, at the ideal values, read at `(p, q)`. -/
theorem matmul_zero_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q)
      = ∑ k : Fin K, a (ix2 p k) * b (ix2 k q) := by
  subst hD
  exact (Ideal.matmul_constant_zero_apply _ prec a b (ix2 p q)).trans (plain_sum a b p q)

/-- The host's matrix product, at the ideal values, read at `(p, q)`. -/
theorem dotGeneral_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    Host.dotGeneral D prec a b (ix2 p q) = ∑ k : Fin K, a (ix2 p k) * b (ix2 k q) := by
  subst hD
  exact (Ideal.dotGeneral_apply _ prec .single a b (ix2 p q)).trans (plain_sum a b p q)

/-! ## A concatenation along the columns read at an index -/

section Concat
variable {α : Type}

/-- Two matrices joined along the columns, read in the first one's columns. -/
theorem concat2_left {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩] h (ix2 p k') = x₁ (ix2 p k) :=
  concatenate_apply_piece 1 [⟨⟨2, ![R, a]⟩, x₁⟩, ⟨⟨2, ![R, b]⟩, x₂⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Two matrices joined along the columns, read in the second one's columns. -/
theorem concat2_right {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩] h (ix2 p k') = x₂ (ix2 p k) :=
  concatenate_apply_piece 1 [⟨⟨2, ![R, a]⟩, x₁⟩, ⟨⟨2, ![R, b]⟩, x₂⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the first one's columns. -/
theorem concat3_fst {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩, ⟨⟨2, ![R, c]⟩, x₃⟩] h (ix2 p k') = x₁ (ix2 p k) :=
  concatenate_apply_piece 1 [⟨⟨2, ![R, a]⟩, x₁⟩, ⟨⟨2, ![R, b]⟩, x₂⟩, ⟨⟨2, ![R, c]⟩, x₃⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Three matrices joined along the columns, read in the second one's columns. -/
theorem concat3_snd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩, ⟨⟨2, ![R, c]⟩, x₃⟩] h (ix2 p k') = x₂ (ix2 p k) :=
  concatenate_apply_piece 1 [⟨⟨2, ![R, a]⟩, x₁⟩, ⟨⟨2, ![R, b]⟩, x₂⟩, ⟨⟨2, ![R, c]⟩, x₃⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the third one's columns. -/
theorem concat3_thd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin c) (k' : Fin n)
    (hk : k'.val = a + b + k.val) :
    concatenate ⟨2, ![R, n]⟩ 1 [⟨⟨2, ![R, a]⟩, x₁⟩, ⟨⟨2, ![R, b]⟩, x₂⟩, ⟨⟨2, ![R, c]⟩, x₃⟩] h (ix2 p k') = x₃ (ix2 p k) :=
  concatenate_apply_piece 1 [⟨⟨2, ![R, a]⟩, x₁⟩, ⟨⟨2, ![R, b]⟩, x₂⟩, ⟨⟨2, ![R, c]⟩, x₃⟩] h (ix2 p k') 2 (Nat.succ_lt_succ (Nat.succ_lt_succ (Nat.zero_lt_succ _))) _ x₃ rfl rfl (a + b) (by simp) (ix2 p k)
    (fun b hb => by
      match b with
      | ⟨0, _⟩ => rfl
      | ⟨1, _⟩ => exact absurd rfl hb)
    (by show a + b + k.val = k'.val; omega)

/-- A vector cast to one row and broadcast over `a` rows reads, at `(p, q)`, the vector at `q`. -/
theorem row_bias_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ 0 q)

/-- Rows `o … o + r - 1` of a matrix with `n` rows. -/
def rowBlock {n c : ℕ} (o r : ℕ) (h : o + r ≤ n) (W : (⟨2, ![n, c]⟩ : Shape).Idx → α) : (⟨2, ![r, c]⟩ : Shape).Idx → α :=
  fun j => W (ix2 ⟨o + (j 0).val, by have := idx2_lt0 j; omega⟩ (j 1))

theorem rowBlock_ix2 {n c : ℕ} (o r : ℕ) (h : o + r ≤ n) (W : (⟨2, ![n, c]⟩ : Shape).Idx → α) (p : Fin r) (q : Fin c) :
    rowBlock o r h W (ix2 p q) = W (ix2 ⟨o + p.val, by omega⟩ q) := rfl

/-- A slice of a matrix along its rows from row `o` is that block of rows. -/
theorem slice_rows_eq {n c r : ℕ} (o : ℕ) (h : o + r ≤ n) (W : (⟨2, ![n, c]⟩ : Shape).Idx → α)
    (hs : (⟨2, ![n, c]⟩ : Shape).Slices ![o, 0] ⟨2, ![r, c]⟩) :
    extractStridedSlice ⟨2, ![r, c]⟩ ![o, 0] W hs = rowBlock o r h W := by
  funext j
  obtain ⟨p, q, rfl⟩ : ∃ (p : Fin r) (q : Fin c), j = ix2 p q := ⟨j 0, j 1, eq_ix2 j⟩
  exact slice2_axis0_apply o W hs p q ⟨o + p.val, by omega⟩ rfl

end Concat

end Cert.Lib.AffineLayer

end
-- ==== Proof.LibLayerRead.lean ====
/-
  One layer of a perceptron and the layouts around a batch of rows, read at an index given by coordinates — general
  statements at the ideal values, for any extents.

  * `biased_product_apply`: a matrix product into the zero accumulator plus a bias row `[1, N]` broadcast over the
    rows is, at `(p, c)`, `(∑ k, a (p, k) · w (k, c)) + b (0, c)`.
  * `maximumf_zero_apply`: the maximum with the splat of the zero word is `max · 0`.
  * `shapeCast_abc_rc_apply`, `shapeCast_rc_abc_apply`: the cast between `[a, b, c]` and `[a·b, c]` (a batch of
    `b` rows per point laid out as rows): row `r = p·b + k` is the pair `(p, k)`.
  * `shapeCast_a1b_ab_apply`: a unit middle axis dropped.
  * `broadcastTo_a1_ab_apply`, `broadcastTo_11c_abc_apply`: a column repeated along the rows' entries, and one row
    `[1, 1, c]` repeated over `[a, b, c]`.
  * `reduces_axis1_lift`: for a reduction of `[a, b, c]` over its middle axis, the source index over the result index
    `(i, j)` with the coordinate `k` inserted is `(i, k, j)`.
-/
import Idealize.ShloMosaic.Lib.ValueIdx
import Idealize.ShloMosaic.Lib.ValueLayout
import Idealize.ShloMosaic.Lib.Pipeline.Value
import Idealize.ShloMosaic.PureOps.Ideal.Laws
import proofs.«154293_j5291399708984_2_alg».proof.Proof.LibAffineLayer

noncomputable section

namespace Cert.Lib.LayerRead

open Idealize.ShloMosaic Idealize.ShloMosaic.ValueIdx

/-! ## A product plus a bias row, and the rectifier -/

/-- A matrix product into the zero accumulator plus a bias row broadcast over the rows, at the ideal values, read at
    `(p, c)`. -/
theorem biased_product_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (c : Fin N) :
    addf (matmul D prec a w (constant (F := Ideal) ⟨2, ![M, N]⟩ .f32 0x00000000#32))
        (broadcastTo ⟨2, ![M, N]⟩ (shapeCast ⟨2, ![1, N]⟩ b hc) hb) (ix2 p c)
      = (∑ k : Fin K, a (ix2 p k) * w (ix2 k c)) + b (ix2 0 c) := by
  refine (addf_apply _ _ _).trans ?_
  rw [Cert.Lib.AffineLayer.matmul_zero_ix2 D hD prec a w p c, shapeCast_self, broadcastTo_1b_ab_apply]

/-- The maximum with the splat of the f32 zero word, at the ideal values, read at an index. -/
theorem maximumf_zero_apply {s : Shape} (v : FVec Ideal s .f32) (i : s.Idx) :
    maximumf v (broadcast s (Scalar.ofBits (F := Ideal) .f32 0x00000000#32)) i = max (v i) 0 := by
  refine (maximumf_apply _ _ _).trans ?_
  show max (v i) (Ideal.ofBits .f32 0x00000000#32) = max (v i) 0
  rw [Ideal.ofBits_zero_f32]

/-! ## Rows of pairs -/

section Layout
variable {α : Type}

/-- An `[a, b, c]` array cast to `[R, c]` reads, at row `r = p·b + k` and column `i`, the operand at `(p, k, i)`. -/
theorem shapeCast_abc_rc_apply {a b c R : ℕ} (x : (⟨3, ![a, b, c]⟩ : Shape).Idx → α)
    (h : (⟨3, ![a, b, c]⟩ : Shape).ShapeCasts ⟨2, ![R, c]⟩) (p : Fin a) (k : Fin b) (i : Fin c) (r : Fin R)
    (hr : r.val = p.val * b + k.val) :
    shapeCast ⟨2, ![R, c]⟩ x h (ix2 r i) = x (ix3 p k i) :=
  shapeCast_apply x h _ _ (by
    rw [Shape.rowMajor_val_three, Shape.rowMajor_val_two]
    show (p.val * b + k.val) * c + i.val = r.val * c + i.val
    rw [hr])

/-- An `[R, c]` array cast to `[a, b, c]` reads, at `(p, k, i)`, the operand at row `r = p·b + k` and column `i`. -/
theorem shapeCast_rc_abc_apply {a b c R : ℕ} (y : (⟨2, ![R, c]⟩ : Shape).Idx → α)
    (h : (⟨2, ![R, c]⟩ : Shape).ShapeCasts ⟨3, ![a, b, c]⟩) (p : Fin a) (k : Fin b) (i : Fin c) (r : Fin R)
    (hr : r.val = p.val * b + k.val) :
    shapeCast ⟨3, ![a, b, c]⟩ y h (ix3 p k i) = y (ix2 r i) :=
  shapeCast_apply y h _ _ (by
    rw [Shape.rowMajor_val_three, Shape.rowMajor_val_two]
    show r.val * c + i.val = (p.val * b + k.val) * c + i.val
    rw [hr])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, 1]` array broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## The middle axis of a rank-3 array reduced away -/

/-- For a reduction of `[a, b, c]` over its middle axis, the source index over the result index `(i, j)` whose
    coordinate on the reduced axis is `k` is `(i, k, j)`. -/
theorem reduces_axis1_lift {a b c : ℕ} (h : (⟨3, ![a, b, c]⟩ : Shape).Reduces [1] ⟨2, ![a, c]⟩) (i : Fin a) (j : Fin c)
    (k : Fin b) : h.lift (ix2 i j) k = ix3 i k j := by
  funext ax
  apply Fin.ext
  match ax with
  | ⟨0, _⟩ => rfl
  | ⟨1, _⟩ => rfl
  | ⟨2, _⟩ => rfl

end Cert.Lib.LayerRead

end
-- ==== Proof.KPayload.lean ====
/-
  The arithmetic of the kernel bodies at an index, at the ideal values.

  A hidden layer's body computes, from a block `x` of 10000 aggregated rows, the weights `w` and the bias `b`,
  max(x · w + b, 0): entry (p, q) is max(Σ_k x(p, k) · w(k, q) + b(q), 0) (the changes of float format are the identity).
-/
import proofs.«154293_j5291399708984_2_alg».proof.Proof.Gen.KernelIdeal.Skeleton
import proofs.«154293_j5291399708984_2_alg».proof.Proof.LibAffineLayer
import proofs.«154293_j5291399708984_2_alg».proof.Proof.LibLayerRead

noncomputable section

open scoped BigOperators

namespace Cert.KernelIdeal.Val

open Cert.KernelIdeal Cert.KernelIdeal.Gen Idealize.ShloMosaic Idealize.ShloMosaic.ValueIdx

/-- The layer's arithmetic as one term of the three loaded values. -/
def layerTerm (x0 : FVec Ideal S10000x64 .f32) (x1 : FVec Ideal S64x64 .f32) (x2 : FVec Ideal S64 .f32) : FVec Ideal S10000x64 .f32 :=
  maximumf
    (addf (matmul dot_S10000x64_S64x64_S10000x64_1_0_0_1_n_n none x0 x1 (constant (F := Ideal) S10000x64 .f32 0x00000000#32))
      (broadcastTo S10000x64 (shapeCast S1x64 x2 shapeCasts_S64_S1x64) broadcasts_S1x64_S10000x64))
    (broadcast S10000x64 (Scalar.ofBits (F := Ideal) .f32 0x00000000#32))

theorem layerTerm_apply (x0 : FVec Ideal S10000x64 .f32) (x1 : FVec Ideal S64x64 .f32) (x2 : FVec Ideal S64 .f32)
    (p : Fin 10000) (q : Fin 64) :
    layerTerm x0 x1 x2 (ix2 p q) = max ((∑ k : Fin 64, x0 (ix2 p k) * x1 (ix2 k q)) + x2 (ix1 q)) 0 := by
  unfold layerTerm
  refine (Cert.Lib.LayerRead.maximumf_zero_apply _ _).trans ?_
  refine congrArg (fun v => max v 0) ?_
  refine (addf_apply _ _ _).trans ?_
  exact congrArg₂ (· + ·)
    (Cert.Lib.AffineLayer.matmul_zero_ix2 dot_S10000x64_S64x64_S10000x64_1_0_0_1_n_n rfl none x0 x1 p q)
    (Cert.Lib.AffineLayer.row_bias_apply x2 shapeCasts_S64_S1x64 broadcasts_S1x64_S10000x64 p q)

theorem pay0_eq (x0 : Vec Ideal S10000x64 .f32) (x1 : Vec Ideal S64x64 .f32) (x2 : Vec Ideal S64 .f32) :
    k0_pay1 (F := Ideal) x0 x1 x2 = layerTerm x0 x1 x2 := by
  unfold k0_pay1 layerTerm
  rw [shapeCast_self]
  rfl

theorem pay1_eq (x0 : Vec Ideal S10000x64 .f32) (x1 : Vec Ideal S64x64 .f32) (x2 : Vec Ideal S64 .f32) :
    k1_pay1 (F := Ideal) x0 x1 x2 = layerTerm x0 x1 x2 := by
  unfold k1_pay1 layerTerm
  rw [shapeCast_self]
  rfl

theorem pay2_eq (x0 : Vec Ideal S10000x64 .f32) (x1 : Vec Ideal S64x64 .f32) (x2 : Vec Ideal S64 .f32) :
    k2_pay1 (F := Ideal) x0 x1 x2 = layerTerm x0 x1 x2 := by
  unfold k2_pay1 layerTerm
  rw [shapeCast_self]
  rfl

end Cert.KernelIdeal.Val

end
-- ==== Proof.KVal0.lean ====
/-
  What pallas_call 0 leaves in its output array, at the ideal values: the layer  max(A · W + b, 0)  of the whole arrays the
  call finds. Point t of the grid computes rows 10000·t … 10000·t + 9999 from the same rows of A and the whole of W and b,
  and writes them back; the ten blocks fill the array.
-/
import proofs.«154293_j5291399708984_2_alg».proof.Proof.KI.Region0
import proofs.«154293_j5291399708984_2_alg».proof.Proof.Spec
import proofs.«154293_j5291399708984_2_alg».proof.Proof.KPayload

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a <;> rfl

/-- The printed index maps over the grid: the row blocks of the input and of the output move together, one block per
    point; the weights' and the bias's one block stays. -/
theorem idx_facts0 : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0 ∧ win0_2.index t (0 : Fin 1) = 0 :=
  (by decide +kernel : ∀ t : Fin grid0.N, _)

/-- What point t writes back is block t of the layer of the whole arrays. -/
theorem flushed0_eq (c : Dev nD) (t : Fin cfg0.N) :
    (dat0 V c).flushed 3 t = ((cfg0.win 3).blk t).view.read (Elt Ideal)
      (Cert.Gcn.linRelu (V c main_arg2) (V c main_arg3) (V c main_v25)) := by
  show (cfg0.win 3).cut (grid0.coords t) ((dat0 V c).after 3 t) = _
  rw [after0_3]
  unfold out0_3
  rw [View.canon_unit_zero hz2_0]
  simp only [View.ld_unit_zero (S := S10000x64) hz2_0, View.ld_unit_zero (S := S64x64) hz2_0, View.ld_unit_zero (S := S64) hz1_0]
  rw [pay0_eq]
  obtain ⟨e0, e1, e2, e3, e4, e5, e6⟩ := idx_facts0 t
  funext j
  obtain ⟨p, q, rfl⟩ : ∃ (p : Fin 10000) (q : Fin 64), j = ix2 p q := ⟨j 0, j 1, eq_ix2 j⟩
  show layerTerm (iblk0 V c 0 t) (iblk0 V c 1 t) (iblk0 V c 2 t) (ix2 p q)
    = Cert.Gcn.linRelu (V c main_arg2) (V c main_arg3) (V c main_v25) (((cfg0.win 3).blk t).view.emb (ix2 p q))
  rw [layerTerm_apply]
  show _ = Cert.Gcn.linReluAt (V c main_arg2) (V c main_arg3) (V c main_v25)
    ⟨((((cfg0.win 3).blk t).view.emb (ix2 p q)) 0).val, ((((cfg0.win 3).blk t).view.emb (ix2 p q)) 0).isLt⟩
    ⟨((((cfg0.win 3).blk t).view.emb (ix2 p q)) 1).val, ((((cfg0.win 3).blk t).view.emb (ix2 p q)) 1).isLt⟩
  unfold Cert.Gcn.linReluAt
  refine congrArg (fun v => max v 0) (congrArg₂ (· + ·) (Finset.sum_congr rfl fun k _ => congrArg₂ (· * ·) ?_ ?_) ?_)
  · show V c main_v25 (((cfg0.win 0).blk t).view.emb (ix2 p k)) = _
    refine congrArg (V c main_v25) (funext fun a => Fin.ext ?_)
    match a with
    | ⟨0, _⟩ =>
      show win0_0.index t (0 : Fin 2) * 10000 + 1 * p.val = win0_3.index t (0 : Fin 2) * 10000 + 1 * p.val
      omega
    | ⟨1, _⟩ =>
      show win0_0.index t (1 : Fin 2) * 64 + 1 * k.val = k.val
      omega
  · show V c main_arg2 (((cfg0.win 1).blk t).view.emb (ix2 k q)) = _
    refine congrArg (V c main_arg2) (funext fun a => Fin.ext ?_)
    match a with
    | ⟨0, _⟩ =>
      show win0_1.index t (0 : Fin 2) * 64 + 1 * k.val = k.val
      omega
    | ⟨1, _⟩ =>
      show win0_1.index t (1 : Fin 2) * 64 + 1 * q.val = win0_3.index t (1 : Fin 2) * 64 + 1 * q.val
      omega
  · show V c main_arg3 (((cfg0.win 2).blk t).view.emb (ix1 q)) = _
    refine congrArg (V c main_arg3) (funext fun a => Fin.ext ?_)
    match a with
    | ⟨0, _⟩ =>
      show win0_2.index t (0 : Fin 1) * 64 + 1 * q.val = win0_3.index t (1 : Fin 2) * 64 + 1 * q.val
      omega

/-- An index of the array is in point t's block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole (Pipeline.arrRef spec0 3)).slice (win0_3.rect t)).set ↔ _
  rw [View.set_slice_whole, Rect.mem_set_unit]
  exact Iff.rfl

/-- Every index is in some point's block: row r is written at point r / 10000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 10000, by rw [show cfg0.N = 10 from N_0]; omega⟩, flush0_3 _, ?_⟩
  rw [mem_blk0]
  obtain ⟨e0, e1, e2, e3, e4, e5, e6⟩ := idx_facts0 ⟨(i 0).val / 10000, by rw [show cfg0.N = 10 from N_0]; omega⟩
  intro a
  match a with
  | ⟨0, _⟩ =>
    show win0_3.index _ (0 : Fin 2) * 10000 ≤ (i 0).val ∧ (i 0).val < win0_3.index _ (0 : Fin 2) * 10000 + 10000
    rw [e2]
    show (i 0).val / 10000 * 10000 ≤ (i 0).val ∧ (i 0).val < (i 0).val / 10000 * 10000 + 10000
    omega
  | ⟨1, _⟩ =>
    show win0_3.index _ (1 : Fin 2) * 64 ≤ (i 1).val ∧ (i 1).val < win0_3.index _ (1 : Fin 2) * 64 + 64
    rw [e3]
    omega

/-- THE ARRAY after the call: the layer of the arrays the call finds. -/
theorem final0 (c : Dev nD) :
    (dat0 V c).arrAt 3 cfg0.N = Cert.Gcn.linRelu (V c main_arg2) (V c main_arg3) (V c main_v25) :=
  (dat0 V c).arrAt_eq_of_cover 3 _ (fun t _ => flushed0_eq V c t) (cover0)

end Cert.KernelIdeal.Val

end
-- ==== Proof.KVal1.lean ====
/-
  What pallas_call 1 leaves in its output array, at the ideal values: the layer  max(A · W + b, 0)  of the whole arrays the
  call finds. Point t of the grid computes rows 10000·t … 10000·t + 9999 from the same rows of A and the whole of W and b,
  and writes them back; the ten blocks fill the array.
-/
import proofs.«154293_j5291399708984_2_alg».proof.Proof.KI.Region1
import proofs.«154293_j5291399708984_2_alg».proof.Proof.Spec
import proofs.«154293_j5291399708984_2_alg».proof.Proof.KPayload

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a <;> rfl

/-- The printed index maps over the grid: the row blocks of the input and of the output move together, one block per
    point; the weights' and the bias's one block stays. -/
theorem idx_facts1 : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0 ∧ win1_2.index t (0 : Fin 1) = 0 :=
  (by decide +kernel : ∀ t : Fin grid1.N, _)

/-- What point t writes back is block t of the layer of the whole arrays. -/
theorem flushed1_eq (c : Dev nD) (t : Fin cfg1.N) :
    (dat1 V c).flushed 3 t = ((cfg1.win 3).blk t).view.read (Elt Ideal)
      (Cert.Gcn.linRelu (V c main_arg4) (V c main_arg5) (V c main_v51)) := by
  show (cfg1.win 3).cut (grid1.coords t) ((dat1 V c).after 3 t) = _
  rw [after1_3]
  unfold out1_3
  rw [View.canon_unit_zero hz2_1]
  simp only [View.ld_unit_zero (S := S10000x64) hz2_1, View.ld_unit_zero (S := S64x64) hz2_1, View.ld_unit_zero (S := S64) hz1_1]
  rw [pay1_eq]
  obtain ⟨e0, e1, e2, e3, e4, e5, e6⟩ := idx_facts1 t
  funext j
  obtain ⟨p, q, rfl⟩ : ∃ (p : Fin 10000) (q : Fin 64), j = ix2 p q := ⟨j 0, j 1, eq_ix2 j⟩
  show layerTerm (iblk1 V c 0 t) (iblk1 V c 1 t) (iblk1 V c 2 t) (ix2 p q)
    = Cert.Gcn.linRelu (V c main_arg4) (V c main_arg5) (V c main_v51) (((cfg1.win 3).blk t).view.emb (ix2 p q))
  rw [layerTerm_apply]
  show _ = Cert.Gcn.linReluAt (V c main_arg4) (V c main_arg5) (V c main_v51)
    ⟨((((cfg1.win 3).blk t).view.emb (ix2 p q)) 0).val, ((((cfg1.win 3).blk t).view.emb (ix2 p q)) 0).isLt⟩
    ⟨((((cfg1.win 3).blk t).view.emb (ix2 p q)) 1).val, ((((cfg1.win 3).blk t).view.emb (ix2 p q)) 1).isLt⟩
  unfold Cert.Gcn.linReluAt
  refine congrArg (fun v => max v 0) (congrArg₂ (· + ·) (Finset.sum_congr rfl fun k _ => congrArg₂ (· * ·) ?_ ?_) ?_)
  · show V c main_v51 (((cfg1.win 0).blk t).view.emb (ix2 p k)) = _
    refine congrArg (V c main_v51) (funext fun a => Fin.ext ?_)
    match a with
    | ⟨0, _⟩ =>
      show win1_0.index t (0 : Fin 2) * 10000 + 1 * p.val = win1_3.index t (0 : Fin 2) * 10000 + 1 * p.val
      omega
    | ⟨1, _⟩ =>
      show win1_0.index t (1 : Fin 2) * 64 + 1 * k.val = k.val
      omega
  · show V c main_arg4 (((cfg1.win 1).blk t).view.emb (ix2 k q)) = _
    refine congrArg (V c main_arg4) (funext fun a => Fin.ext ?_)
    match a with
    | ⟨0, _⟩ =>
      show win1_1.index t (0 : Fin 2) * 64 + 1 * k.val = k.val
      omega
    | ⟨1, _⟩ =>
      show win1_1.index t (1 : Fin 2) * 64 + 1 * q.val = win1_3.index t (1 : Fin 2) * 64 + 1 * q.val
      omega
  · show V c main_arg5 (((cfg1.win 2).blk t).view.emb (ix1 q)) = _
    refine congrArg (V c main_arg5) (funext fun a => Fin.ext ?_)
    match a with
    | ⟨0, _⟩ =>
      show win1_2.index t (0 : Fin 1) * 64 + 1 * q.val = win1_3.index t (1 : Fin 2) * 64 + 1 * q.val
      omega

/-- An index of the array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole (Pipeline.arrRef spec1 3)).slice (win1_3.rect t)).set ↔ _
  rw [View.set_slice_whole, Rect.mem_set_unit]
  exact Iff.rfl

/-- Every index is in some point's block: row r is written at point r / 10000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  refine ⟨⟨(i 0).val / 10000, by rw [show cfg1.N = 10 from N_1]; omega⟩, flush1_3 _, ?_⟩
  rw [mem_blk1]
  obtain ⟨e0, e1, e2, e3, e4, e5, e6⟩ := idx_facts1 ⟨(i 0).val / 10000, by rw [show cfg1.N = 10 from N_1]; omega⟩
  intro a
  match a with
  | ⟨0, _⟩ =>
    show win1_3.index _ (0 : Fin 2) * 10000 ≤ (i 0).val ∧ (i 0).val < win1_3.index _ (0 : Fin 2) * 10000 + 10000
    rw [e2]
    show (i 0).val / 10000 * 10000 ≤ (i 0).val ∧ (i 0).val < (i 0).val / 10000 * 10000 + 10000
    omega
  | ⟨1, _⟩ =>
    show win1_3.index _ (1 : Fin 2) * 64 ≤ (i 1).val ∧ (i 1).val < win1_3.index _ (1 : Fin 2) * 64 + 64
    rw [e3]
    omega

/-- THE ARRAY after the call: the layer of the arrays the call finds. -/
theorem final1 (c : Dev nD) :
    (dat1 V c).arrAt 3 cfg1.N = Cert.Gcn.linRelu (V c main_arg4) (V c main_arg5) (V c main_v51) :=
  (dat1 V c).arrAt_eq_of_cover 3 _ (fun t _ => flushed1_eq V c t) (cover1)

end Cert.KernelIdeal.Val

end
-- ==== Proof.KVal2.lean ====
/-
  What pallas_call 2 leaves in its output array, at the ideal values: the layer  max(A · W + b, 0)  of the whole arrays the
  call finds. Point t of the grid computes rows 10000·t … 10000·t + 9999 from the same rows of A and the whole of W and b,
  and writes them back; the ten blocks fill the array.
-/
import proofs.«154293_j5291399708984_2_alg».proof.Proof.KI.Region2
import proofs.«154293_j5291399708984_2_alg».proof.Proof.Spec
import proofs.«154293_j5291399708984_2_alg».proof.Proof.KPayload

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a <;> rfl

/-- The printed index maps over the grid: the row blocks of the input and of the output move together, one block per
    point; the weights' and the bias's one block stays. -/
theorem idx_facts2 : ∀ t : Fin cfg2.N, win2_0.index t (0 : Fin 2) = t.val ∧ win2_0.index t (1 : Fin 2) = 0
    ∧ win2_3.index t (0 : Fin 2) = t.val ∧ win2_3.index t (1 : Fin 2) = 0
    ∧ win2_1.index t (0 : Fin 2) = 0 ∧ win2_1.index t (1 : Fin 2) = 0 ∧ win2_2.index t (0 : Fin 1) = 0 :=
  (by decide +kernel : ∀ t : Fin grid2.N, _)

/-- What point t writes back is block t of the layer of the whole arrays. -/
theorem flushed2_eq (c : Dev nD) (t : Fin cfg2.N) :
    (dat2 V c).flushed 3 t = ((cfg2.win 3).blk t).view.read (Elt Ideal)
      (Cert.Gcn.linRelu (V c main_arg6) (V c main_arg7) (V c main_v77)) := by
  show (cfg2.win 3).cut (grid2.coords t) ((dat2 V c).after 3 t) = _
  rw [after2_3]
  unfold out2_3
  rw [View.canon_unit_zero hz2_2]
  simp only [View.ld_unit_zero (S := S10000x64) hz2_2, View.ld_unit_zero (S := S64x64) hz2_2, View.ld_unit_zero (S := S64) hz1_2]
  rw [pay2_eq]
  obtain ⟨e0, e1, e2, e3, e4, e5, e6⟩ := idx_facts2 t
  funext j
  obtain ⟨p, q, rfl⟩ : ∃ (p : Fin 10000) (q : Fin 64), j = ix2 p q := ⟨j 0, j 1, eq_ix2 j⟩
  show layerTerm (iblk2 V c 0 t) (iblk2 V c 1 t) (iblk2 V c 2 t) (ix2 p q)
    = Cert.Gcn.linRelu (V c main_arg6) (V c main_arg7) (V c main_v77) (((cfg2.win 3).blk t).view.emb (ix2 p q))
  rw [layerTerm_apply]
  show _ = Cert.Gcn.linReluAt (V c main_arg6) (V c main_arg7) (V c main_v77)
    ⟨((((cfg2.win 3).blk t).view.emb (ix2 p q)) 0).val, ((((cfg2.win 3).blk t).view.emb (ix2 p q)) 0).isLt⟩
    ⟨((((cfg2.win 3).blk t).view.emb (ix2 p q)) 1).val, ((((cfg2.win 3).blk t).view.emb (ix2 p q)) 1).isLt⟩
  unfold Cert.Gcn.linReluAt
  refine congrArg (fun v => max v 0) (congrArg₂ (· + ·) (Finset.sum_congr rfl fun k _ => congrArg₂ (· * ·) ?_ ?_) ?_)
  · show V c main_v77 (((cfg2.win 0).blk t).view.emb (ix2 p k)) = _
    refine congrArg (V c main_v77) (funext fun a => Fin.ext ?_)
    match a with
    | ⟨0, _⟩ =>
      show win2_0.index t (0 : Fin 2) * 10000 + 1 * p.val = win2_3.index t (0 : Fin 2) * 10000 + 1 * p.val
      omega
    | ⟨1, _⟩ =>
      show win2_0.index t (1 : Fin 2) * 64 + 1 * k.val = k.val
      omega
  · show V c main_arg6 (((cfg2.win 1).blk t).view.emb (ix2 k q)) = _
    refine congrArg (V c main_arg6) (funext fun a => Fin.ext ?_)
    match a with
    | ⟨0, _⟩ =>
      show win2_1.index t (0 : Fin 2) * 64 + 1 * k.val = k.val
      omega
    | ⟨1, _⟩ =>
      show win2_1.index t (1 : Fin 2) * 64 + 1 * q.val = win2_3.index t (1 : Fin 2) * 64 + 1 * q.val
      omega
  · show V c main_arg7 (((cfg2.win 2).blk t).view.emb (ix1 q)) = _
    refine congrArg (V c main_arg7) (funext fun a => Fin.ext ?_)
    match a with
    | ⟨0, _⟩ =>
      show win2_2.index t (0 : Fin 1) * 64 + 1 * q.val = win2_3.index t (1 : Fin 2) * 64 + 1 * q.val
      omega

/-- An index of the array is in point t's block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole (Pipeline.arrRef spec2 3)).slice (win2_3.rect t)).set ↔ _
  rw [View.set_slice_whole, Rect.mem_set_unit]
  exact Iff.rfl

/-- Every index is in some point's block: row r is written at point r / 10000. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  refine ⟨⟨(i 0).val / 10000, by rw [show cfg2.N = 10 from N_2]; omega⟩, flush2_3 _, ?_⟩
  rw [mem_blk2]
  obtain ⟨e0, e1, e2, e3, e4, e5, e6⟩ := idx_facts2 ⟨(i 0).val / 10000, by rw [show cfg2.N = 10 from N_2]; omega⟩
  intro a
  match a with
  | ⟨0, _⟩ =>
    show win2_3.index _ (0 : Fin 2) * 10000 ≤ (i 0).val ∧ (i 0).val < win2_3.index _ (0 : Fin 2) * 10000 + 10000
    rw [e2]
    show (i 0).val / 10000 * 10000 ≤ (i 0).val ∧ (i 0).val < (i 0).val / 10000 * 10000 + 10000
    omega
  | ⟨1, _⟩ =>
    show win2_3.index _ (1 : Fin 2) * 64 ≤ (i 1).val ∧ (i 1).val < win2_3.index _ (1 : Fin 2) * 64 + 64
    rw [e3]
    omega

/-- THE ARRAY after the call: the layer of the arrays the call finds. -/
theorem final2 (c : Dev nD) :
    (dat2 V c).arrAt 3 cfg2.N = Cert.Gcn.linRelu (V c main_arg6) (V c main_arg7) (V c main_v77) :=
  (dat2 V c).arrAt_eq_of_cover 3 _ (fun t _ => flushed2_eq V c t) (cover2)

end Cert.KernelIdeal.Val

end
-- ==== Proof.KI.Region3Value.lean ====
import proofs.«154293_j5291399708984_2_alg».proof.Proof.KI.Region3
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The last kernel's contents in closed form: the scratch point by point, the result row, the output array -/

theorem hz2 : (![0, 0] : Fin 2 → Nat) = fun _ => 0 := funext fun a => by fin_cases a <;> rfl
theorem hz1 : (![0] : Fin 1 → Nat) = fun _ => 0 := funext fun a => by fin_cases a; rfl

/-- The first point zeroes the scratch and adds the block's column sums onto it. -/
theorem soutA_eq (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : cond3_0 i) (hc1 : ¬cond3_1 i) (x0 : Vec F S10000x64 .f32) :
    sout3_A c i arg1 harg1 arg2 harg2 arg3 harg3 arg4 harg4 arg5 harg5 hc0 hc1 x0 = k3_pay2 x0 (k3_pay1 (F := F)) := by
  unfold sout3_A
  rw [View.read_writes_eq_canon _ _ _ (scover3_A c i arg1 harg1 arg2 harg2 arg3 harg3 arg4 harg4 arg5 harg5 hc0 hc1 x0)]
  unfold kernelRun3_A
  dsimp only
  try sl_unfold_words
  refine (View.canon_cons_unit_zero (S := S1x64) hz2 _ _ _).trans ?_
  simp only [View.readAt_eq_ld, harg1.read_unread, View.ld_unit_zero (S := S10000x64) hz2, View.readCov_unit_zero (S := S1x64) _ hz2]

/-- A middle point adds the block's column sums onto what the scratch held. -/
theorem soutB_eq (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : ¬cond3_1 i) (x0 : Vec F S10000x64 .f32) (xs0 : Vec F S1x64 .f32) :
    sout3_B c i arg1 harg1 arg2 harg2 arg3 harg3 arg4 harg4 arg5 harg5 hc0 hc1 x0 xs0 = k3_pay2 x0 xs0 := by
  unfold sout3_B
  rw [View.read_writes_eq_canon _ _ _ (scover3_B c i arg1 harg1 arg2 harg2 arg3 harg3 arg4 harg4 arg5 harg5 hc0 hc1 x0 xs0)]
  unfold kernelRun3_B
  dsimp only
  try sl_unfold_words
  refine (View.canon_cons_unit_zero (S := S1x64) hz2 _ _ _).trans ?_
  simp only [View.readAt_eq_ld, harg1.read_unread, harg5.read_unread, View.ld_unit_zero (S := S10000x64) hz2, View.ld_unit_zero (S := S1x64) hz2]

/-- So does the last point, -/
theorem soutC_eq (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i) (x0 : Vec F S10000x64 .f32) (x1 : Vec F S64x16 .f32) (x2 : Vec F S16 .f32) (xs0 : Vec F S1x64 .f32) :
    sout3_C c i arg1 harg1 arg2 harg2 arg3 harg3 arg4 harg4 arg5 harg5 hc0 hc1 x0 x1 x2 xs0 = k3_pay2 x0 xs0 := by
  unfold sout3_C
  rw [View.read_writes_eq_canon _ _ _ (scover3_C c i arg1 harg1 arg2 harg2 arg3 harg3 arg4 harg4 arg5 harg5 hc0 hc1 x0 x1 x2 xs0)]
  unfold kernelRun3_C
  dsimp only
  try sl_unfold_words
  refine (View.canon_cons_unit_zero (S := S1x64) hz2 _ _ _).trans ?_
  simp only [View.readAt_eq_ld, harg1.read_unread, harg5.read_unread, View.ld_unit_zero (S := S10000x64) hz2, View.ld_unit_zero (S := S1x64) hz2]

/-- which then stores the result row computed from the scratch, the weights and the bias. -/
theorem outC_eq (c : Dev nD) (i : grid3.Coords) (arg1 : Memref sig .tc .vmem S10000x64 .f32) (harg1 : arg1.IsWhole) (arg2 : Memref sig .tc .vmem S64x16 .f32) (harg2 : arg2.IsWhole) (arg3 : Memref sig .tc .vmem S16 .f32) (harg3 : arg3.IsWhole) (arg4 : Memref sig .tc .vmem S1x16 .f32) (harg4 : arg4.IsWhole) (arg5 : Memref sig .tc .vmem S1x64 .f32) (harg5 : arg5.IsWhole) (hc0 : ¬cond3_0 i) (hc1 : cond3_1 i) (x0 : Vec F S10000x64 .f32) (x1 : Vec F S64x16 .f32) (x2 : Vec F S16 .f32) (xs0 : Vec F S1x64 .f32) :
    out3_C c i arg1 harg1 arg2 harg2 arg3 harg3 arg4 harg4 arg5 harg5 hc0 hc1 x0 x1 x2 xs0 = k3_pay3 (k3_pay2 x0 xs0) x1 x2 := by
  unfold out3_C
  rw [View.read_writes_eq_canon _ _ _ (cover3_C c i arg1 harg1 arg2 harg2 arg3 harg3 arg4 harg4 arg5 harg5 hc0 hc1 x0 x1 x2 xs0)]
  unfold kernelRun3_C
  dsimp only
  try sl_unfold_words
  refine (View.canon_cons_unit_zero (S := S1x16) hz2 _ _ _).trans ?_
  simp only [View.readAt_eq_ld, harg1.read_unread, harg2.read_unread, harg3.read_unread, harg5.read_unread, View.ld_unit_zero (S := S10000x64) hz2, View.ld_unit_zero (S := S1x64) hz2, View.ld_unit_zero (S := S64x16) hz2, View.ld_unit_zero (S := S16) hz1, View.readCov_unit_zero (S := S1x64) _ hz2]

section Region3Value
variable (V : (c : Dev nD) → (b : Ref sig .tc) → Buf (Elt F) ((c : Thread nD τ).loc b))

/-- THE SCRATCH AFTER THE FIRST POINT: zero, with the first block's column sums added. -/
theorem acc3_zero (c : Dev nD) (hn : 0 < cfg3.N) :
    acc3 V c 0 hn = k3_pay2 (iblk3 V c 0 ⟨0, hn⟩) (k3_pay1 (F := F)) :=
  soutA_eq c _ _ _ _ _ _ _ _ _ _ _ _ _ _

/-- THE SCRATCH AFTER A LATER POINT: what the point before left, with this point's block's column sums added. -/
theorem acc3_succ (c : Dev nD) (n : ℕ) (hn : n + 1 < cfg3.N) :
    acc3 V c (n + 1) hn = k3_pay2 (iblk3 V c 0 ⟨n + 1, hn⟩) (acc3 V c n (Nat.lt_of_succ_lt hn)) := by
  by_cases h1 : n + 1 = 9
  · exact (dif_pos h1).trans (soutC_eq c _ _ _ _ _ _ _ _ _ _ _ _ _ _ _ _ _)
  · exact (dif_neg h1).trans (soutB_eq c _ _ _ _ _ _ _ _ _ _ _ _ _ _ _)

/-- WHAT THE LAST POINT STORES INTO THE OUTPUT'S BUFFER: the result row from the scratch after that point (all ten
    blocks' column sums), the weights and the bias. -/
theorem out3_last (c : Dev nD) (t : Fin cfg3.N) (h1 : t.val = 9) :
    (dat3 V c).after 3 t = k3_pay3 (acc3 V c t.val t.isLt) (iblk3 V c 1 t) (iblk3 V c 2 t) := by
  have h0 : ¬t.val = 0 := by omega
  have hc0 : ¬cond3_0 (grid3.coords t) := fun h => h0 ((hcond3_0 t).mp h)
  have hc1 : cond3_1 (grid3.coords t) := (hcond3_1 t).mpr h1
  rw [after3_3, out3At_C V c t h1 hc0 hc1, outC_eq, acc3_C V c t h0 h1 hc0 hc1, soutC_eq]

/-- The result row. -/
abbrev result3 (c : Dev nD) : Buf (Elt F) ((c : Thread nD τ).loc main_v93) :=
  k3_pay3 (acc3 V c t3_9.val t3_9.isLt) (iblk3 V c 1 t3_9) (iblk3 V c 2 t3_9)

/-- The one write-back, at the last point, writes the result row: the block at zero offsets of the [1,16] array is the array. -/
theorem flushed3_eq (c : Dev nD) (t : Fin cfg3.N) (hf : (cfg3.win 3).flush t = true) :
    (dat3 V c).flushed 3 t = ((cfg3.win 3).blk t).view.read (Elt F) (result3 V c) := by
  have hN : cfg3.N = 10 := N_3
  have h1 : t.val = 9 := by have := (flush3_3 t).mp hf; have := t.isLt; omega
  obtain rfl : t = t3_9 := Fin.ext h1
  show (cfg3.win 3).cut (grid3.coords t3_9) ((dat3 V c).after 3 t3_9) = _
  rw [out3_last V c t3_9 rfl]
  have hz' : (fun a => win3_3.index t3_9 a * main_v93.ty.shape.size a) = fun _ => 0 := funext fun a => by fin_cases a <;> decide
  exact (Memref.read_access_unit_zero (Elt F) main_v93 hz' (fun a => by rw [congrFun hz' a]; simp) (result3 V c)).symm

/-- So the output array ends holding the result row: the last point's block covers it. -/
theorem final3 (c : Dev nD) : (dat3 V c).arrAt 3 cfg3.N = result3 V c :=
  (dat3 V c).arrAt_eq_of_cover 3 (result3 V c) (flushed3_eq V c) fun i =>
    ⟨t3_9, (flush3_3 t3_9).mpr rfl, by
      show i ∈ ((View.whole main_v93).slice (win3_3.rect t3_9)).set
      rw [View.set_slice_whole, Rect.mem_set_unit]
      intro a
      have h0 : (i 0 : Nat) < 1 := (i 0).isLt
      have h1 : (i 1 : Nat) < 16 := (i 1).isLt
      match a with
      | ⟨0, _⟩ => show win3_3.index t3_9 0 * win3_3.size 0 ≤ (i 0 : Nat) ∧ (i 0 : Nat) < win3_3.index t3_9 0 * win3_3.size 0 + win3_3.xsize (grid3.coords t3_9) 0
                  rw [show win3_3.index t3_9 0 * win3_3.size 0 = 0 from by decide +kernel, show win3_3.xsize (grid3.coords t3_9) 0 = 1 from by decide +kernel]; omega
      | ⟨1, _⟩ => show win3_3.index t3_9 1 * win3_3.size 1 ≤ (i 1 : Nat) ∧ (i 1 : Nat) < win3_3.index t3_9 1 * win3_3.size 1 + win3_3.xsize (grid3.coords t3_9) 1
                  rw [show win3_3.index t3_9 1 * win3_3.size 1 = 0 from by decide +kernel, show win3_3.xsize (grid3.coords t3_9) 1 = 16 from by decide +kernel]; omega⟩

end Region3Value

end Cert.KernelIdeal.Hand

end
-- ==== Proof.LibColSums.lean ====
/-
  Column sums of a matrix and the broadcast of a single number, read at explicit coordinates (general lemmas, no
  program imported).

  Summing an `[a, b]` matrix of extended reals down its columns gives, at entry `q`, the sum of column `q`; a
  `[1, 1, 1]` array broadcast to any rank-3 shape reads its one entry everywhere.
-/
import Idealize.ShloMosaic.PureOps.Ideal
import Idealize.ShloMosaic.PureOps.Ideal.Laws
import Idealize.ShloMosaic.Lib.ValueIdx
import Idealize.ShloMosaic.Lib.Pipeline.Value

noncomputable section

namespace Cert.ColSums

open Idealize.ShloMosaic Idealize.ShloMosaic.ValueIdx

variable {α : Type}

/-- The sum down the columns of an `[a, b]` matrix of extended reals, at column `q`, is the sum of the column's entries. -/
theorem colSum_apply {a b : ℕ} (src : FVec Ideal ⟨2, ![a, b]⟩ .f32) (hr : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ src 0x00000000#32 hr hφ hacc (ix1 q) = ∑ k : Fin a, src (ix2 k q) := by
  refine (Ideal.multiReduction_add_single src 0x00000000#32 hr hφ hacc (ix1 q)).trans ?_
  refine Finset.sum_congr rfl fun k _ => congrArg src ?_
  funext c
  refine Fin.ext ?_
  rw [hr.lift_val]
  match c with
  | ⟨0, _⟩ => rfl
  | ⟨1, _⟩ => rfl

/-- A `[1, 1, 1]` array broadcast to `[a, b, c]` reads its one entry at every index. -/
theorem broadcastTo_111_abc_apply {a b c : ℕ} (v : (⟨3, ![1, 1, 1]⟩ : Shape).Idx → α)
    (h : (⟨3, ![1, 1, 1]⟩ : Shape).Broadcasts ⟨3, ![a, b, c]⟩) (j : (⟨3, ![a, b, c]⟩ : Shape).Idx) :
    broadcastTo ⟨3, ![a, b, c]⟩ v h j = v (ix3 (0 : Fin 1) (0 : Fin 1) (0 : Fin 1)) := by
  refine broadcastTo_apply v h j _ fun ax => ?_
  match ax with
  | ⟨0, _⟩ => rfl
  | ⟨1, _⟩ => rfl
  | ⟨2, _⟩ => rfl

end Cert.ColSums

end
-- ==== Proof.LibTileSum.lean ====
/- Regrouping a long sum into consecutive blocks, and a running total of block sums.

   Two facts about finite sums in a commutative additive monoid (no finiteness of the summands is
   used, so both hold for extended reals): a sum over `a * b` consecutive indices is the sum over the
   `a` blocks of the sums over each block's `b` indices; and adding block sums one after another,
   starting from zero, ends at the sum of all the blocks. -/
import Mathlib.Data.EReal.Basic
import Mathlib.Algebra.BigOperators.Fin
import Mathlib.Algebra.BigOperators.Group.Finset.Basic
import Mathlib.Logic.Equiv.Fin.Basic
import Mathlib.Tactic.Linarith
import Mathlib.Tactic.Ring

namespace Cert.Bridge

open scoped BigOperators

/-- Index `k` of block `j` lies below `a * b`. -/
theorem tile_lt {a b : ℕ} (j : Fin a) (k : Fin b) : j.val * b + k.val < a * b := by
  have hj : j.val + 1 ≤ a := j.isLt
  calc j.val * b + k.val < j.val * b + b := Nat.add_lt_add_left k.isLt _
    _ = (j.val + 1) * b := (Nat.succ_mul _ _).symm
    _ ≤ a * b := Nat.mul_le_mul_right _ hj

/-- A sum over `Fin (a * b)` regrouped into `a` blocks of `b` consecutive indices: index `q` is
    `j * b + k` for exactly one block `j` and one offset `k`. -/
theorem sum_tiles {M : Type*} [AddCommMonoid M] (a b : ℕ) (f : Fin (a * b) → M) :
    ∑ q : Fin (a * b), f q = ∑ j : Fin a, ∑ k : Fin b, f ⟨j.val * b + k.val, tile_lt j k⟩ := by
  rw [← Equiv.sum_comp (finProdFinEquiv (m := a) (n := b)) f, Fintype.sum_prod_type]
  refine Finset.sum_congr rfl fun j _ => Finset.sum_congr rfl fun k _ => ?_
  refine congrArg f (Fin.ext ?_)
  show k.val + b * j.val = j.val * b + k.val
  rw [Nat.mul_comm, Nat.add_comm]

/-- The regrouping at 8192 = 8 · 1024: eight blocks of 1024 consecutive indices. -/
theorem sum_tiles_8192 (f : Fin 8192 → EReal) :
    ∑ q : Fin 8192, f q
      = ∑ j : Fin 8, ∑ k : Fin 1024, f ⟨j.val * 1024 + k.val, by have := j.isLt; have := k.isLt; omega⟩ :=
  sum_tiles 8 1024 f

/-- The running total after `n` blocks: start at zero, then add the blocks' sums in order. -/
noncomputable def accUpTo (s : ℕ → EReal) : ℕ → EReal
  | 0 => 0
  | n + 1 => accUpTo s n + s n

@[simp] theorem accUpTo_zero (s : ℕ → EReal) : accUpTo s 0 = 0 := rfl
@[simp] theorem accUpTo_succ (s : ℕ → EReal) (n : ℕ) : accUpTo s (n + 1) = accUpTo s n + s n := rfl

/-- The running total after `n` blocks is the sum of the first `n` block sums. -/
theorem accUpTo_eq (s : ℕ → EReal) (n : ℕ) : accUpTo s n = ∑ j ∈ Finset.range n, s j := by
  induction n with
  | zero => rfl
  | succ n ih => rw [accUpTo_succ, ih, Finset.sum_range_succ]

/-- Eight blocks: the left fold `((((0 + s 0) + s 1) + …) + s 7)` is the sum of the eight block sums. -/
theorem fold_blocks (s : Fin 8 → EReal) :
    accUpTo (fun n => if h : n < 8 then s ⟨n, h⟩ else 0) 8 = ∑ j : Fin 8, s j := by
  rw [accUpTo_eq, Finset.sum_range]
  exact Finset.sum_congr rfl fun j _ => by rw [dif_pos j.isLt]

/-- The same fold written out: adding `s 0`, …, `s 7` to zero in that order gives their sum. -/
theorem fold_blocks_explicit (s : Fin 8 → EReal) :
    0 + s 0 + s 1 + s 2 + s 3 + s 4 + s 5 + s 6 + s 7 = ∑ j : Fin 8, s j := by
  simp only [Fin.sum_univ_eight, zero_add]

end Cert.Bridge
-- ==== Proof.KVal3.lean ====
/-
  What the last pallas_call leaves in its output array, at the ideal values: the affine map of the mean of the rows of the
  array it finds. Point t of the grid adds the column sums of rows 10000·t … 10000·t + 9999 onto a running total that
  starts at zero; after the last point the total holds the column sums of all 100000 rows, and the last point stores
  (total · (1/100000)) · W + b into the one block of the output, which is the whole array.
-/
import proofs.«154293_j5291399708984_2_alg».proof.Proof.KI.Region3Value
import proofs.«154293_j5291399708984_2_alg».proof.Proof.Spec
import proofs.«154293_j5291399708984_2_alg».proof.Proof.LibColSums
import proofs.«154293_j5291399708984_2_alg».proof.Proof.LibTileSum
import proofs.«154293_j5291399708984_2_alg».proof.Proof.LibAffineLayer
import Idealize.ShloMosaic.PureOps.IdealRules

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The body's arithmetic at an index -/

/-- The zeroed scratch reads zero everywhere. -/
theorem pay3_1_apply (k : Fin 64) : k3_pay1 (F := Ideal) (ix2 (0 : Fin 1) k) = 0 := by
  unfold k3_pay1
  simp only [shapeCast_self]
  show Ideal.ofBits .f32 0x00000000#32 = 0
  exact Ideal.ofBits_zero_f32

/-- One accumulation step: column k of the scratch gains the sum of column k of the block. -/
theorem pay3_2_apply (v3 : Vec Ideal S10000x64 .f32) (v5 : Vec Ideal S1x64 .f32) (k : Fin 64) :
    k3_pay2 (F := Ideal) v3 v5 (ix2 (0 : Fin 1) k) = v5 (ix2 (0 : Fin 1) k) + ∑ r : Fin 10000, v3 (ix2 r k) := by
  unfold k3_pay2
  simp only [shapeCast_self]
  refine (addf_apply _ _ _).trans ?_
  refine congrArg (v5 (ix2 (0 : Fin 1) k) + ·) ?_
  refine (shapeCast_a_1a_apply _ shapeCasts_S64_S1x64 0 k).trans ?_
  exact Cert.ColSums.colSum_apply v3 reduces_S10000x64_S64 (.inl rfl) rfl k

/-- The kernel's named reciprocal denotes the rational 1/100000. -/
theorem inv_100000 : Named.named (F := Ideal) Cert.KernelIdeal.κ "inv_100000" (φ := .f32) 0x3727C5AC#32 = ((1 / 100000 : ℝ) : EReal) :=
  IdealRules.named_const.ideal_named_scalar _ _ _ _ rfl

/-- The closing step: entry q of the result row is Σ_k (total(k) · (1/100000)) · W(k, q) + b(q). -/
theorem pay3_3_apply (v15 : Vec Ideal S1x64 .f32) (v19 : Vec Ideal S64x16 .f32) (v22 : Vec Ideal S16 .f32) (q : Fin 16) :
    k3_pay3 (F := Ideal) v15 v19 v22 (ix2 (0 : Fin 1) q)
      = (∑ k : Fin 64, (v15 (ix2 (0 : Fin 1) k) * ((1 / 100000 : ℝ) : EReal)) * v19 (ix2 k q)) + v22 (ix1 q) := by
  unfold k3_pay3
  refine (addf_apply _ _ _).trans ?_
  refine congrArg₂ (· + ·) ?_ (shapeCast_a_1a_apply v22 shapeCasts_S16_S1x16 0 q)
  refine (Cert.Lib.AffineLayer.matmul_zero_ix2 dot_S1x64_S64x16_S1x16_1_0_0_1_n_n rfl none _ _ 0 q).trans ?_
  refine Finset.sum_congr rfl fun k _ => ?_
  show (v15 (ix2 (0 : Fin 1) k) * Named.named (F := Ideal) Cert.KernelIdeal.κ "inv_100000" (φ := .f32) 0x3727C5AC#32) * v19 (ix2 k q) = _
  rw [inv_100000]

/-! ## The blocks the points read -/

/-- The printed index maps over the grid: the rows' block moves with the point; the weights' and the bias's one block stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0 :=
  (by decide +kernel : ∀ t : Fin grid3.N, _)

/-- Row r of point t's block is row 10000·t + r of the array. -/
theorem iblk3_0_apply (c : Dev nD) (t : Fin cfg3.N) (r : Fin 10000) (k : Fin 64) :
    (iblk3 V c 0 t : Vec Ideal S10000x64 .f32) (ix2 r k)
      = V c main_v92 (ix2 (⟨t.val * 10000 + r.val, by have := r.isLt; have := lt_of_lt_of_eq t.isLt (show cfg3.N = 10 from N_3); omega⟩ : Fin 100000) k) := by
  obtain ⟨e0, e1, e2, e3, e4⟩ := idx_facts3 t
  show V c main_v92 (((cfg3.win 0).blk t).view.emb (ix2 r k)) = _
  refine congrArg (V c main_v92) (funext fun a => Fin.ext ?_)
  match a with
  | ⟨0, _⟩ =>
    show win3_0.index t (0 : Fin 2) * 10000 + 1 * r.val = t.val * 10000 + r.val
    omega
  | ⟨1, _⟩ =>
    show win3_0.index t (1 : Fin 2) * 64 + 1 * k.val = k.val
    omega

/-- The weights' block is the whole array, -/
theorem iblk3_1_apply (c : Dev nD) (t : Fin cfg3.N) (k : Fin 64) (q : Fin 16) :
    (iblk3 V c 1 t : Vec Ideal S64x16 .f32) (ix2 k q) = V c main_arg8 (ix2 k q) := by
  obtain ⟨e0, e1, e2, e3, e4⟩ := idx_facts3 t
  show V c main_arg8 (((cfg3.win 1).blk t).view.emb (ix2 k q)) = _
  refine congrArg (V c main_arg8) (funext fun a => Fin.ext ?_)
  match a with
  | ⟨0, _⟩ =>
    show win3_1.index t (0 : Fin 2) * 64 + 1 * k.val = k.val
    omega
  | ⟨1, _⟩ =>
    show win3_1.index t (1 : Fin 2) * 16 + 1 * q.val = q.val
    omega

/-- and so is the bias's. -/
theorem iblk3_2_apply (c : Dev nD) (t : Fin cfg3.N) (q : Fin 16) :
    (iblk3 V c 2 t : Vec Ideal S16 .f32) (ix1 q) = V c main_arg9 (ix1 q) := by
  obtain ⟨e0, e1, e2, e3, e4⟩ := idx_facts3 t
  show V c main_arg9 (((cfg3.win 2).blk t).view.emb (ix1 q)) = _
  refine congrArg (V c main_arg9) (funext fun a => Fin.ext ?_)
  match a with
  | ⟨0, _⟩ =>
    show win3_2.index t (0 : Fin 1) * 16 + 1 * q.val = q.val
    omega

/-! ## The running total -/

/-- The array of rows the call finds, and point t's block of it, as arrays of extended reals. -/
abbrev Hw3 (c : Dev nD) : FVec Ideal S100000x64 .f32 := V c main_v92
abbrev blk3 (c : Dev nD) (t : Fin cfg3.N) : FVec Ideal S10000x64 .f32 := iblk3 V c 0 t

/-- The sum of column k over the rows of block j (zero past the last block). -/
def blockSum (c : Dev nD) (k : Fin 64) (j : ℕ) : EReal :=
  if h : j < 10 then ∑ r : Fin 10000, Hw3 V c (ix2 (⟨j * 10000 + r.val, by have := r.isLt; omega⟩ : Fin 100000) k) else 0

theorem blockSum_eq (c : Dev nD) (k : Fin 64) (t : Fin cfg3.N) :
    ∑ r : Fin 10000, blk3 V c t (ix2 r k) = blockSum V c k t.val := by
  unfold blockSum
  rw [dif_pos (lt_of_lt_of_eq t.isLt (show cfg3.N = 10 from N_3))]
  exact Finset.sum_congr rfl fun r _ => iblk3_0_apply V c t r k

/-- After point n the scratch holds, in column k, the running total of the first n + 1 blocks' column sums. -/
theorem acc3_apply (c : Dev nD) (k : Fin 64) : ∀ (n : ℕ) (hn : n < cfg3.N),
    acc3 V c n hn (ix2 (0 : Fin 1) k) = Cert.Bridge.accUpTo (blockSum V c k) (n + 1)
  | 0, hn => by
    refine (congrFun (acc3_zero V c hn) _).trans ?_
    refine (pay3_2_apply (blk3 V c ⟨0, hn⟩) _ k).trans ?_
    exact congrArg₂ (· + ·) (pay3_1_apply k) (blockSum_eq V c k ⟨0, hn⟩)
  | n + 1, hn => by
    refine (congrFun (acc3_succ V c n hn) _).trans ?_
    refine (pay3_2_apply (blk3 V c ⟨n + 1, hn⟩) _ k).trans ?_
    exact congrArg₂ (· + ·) (acc3_apply c k n (Nat.lt_of_succ_lt hn)) (blockSum_eq V c k ⟨n + 1, hn⟩)

/-- After the last point: the sum of column k over all 100000 rows. -/
theorem acc3_last (c : Dev nD) (k : Fin 64) :
    acc3 V c t3_9.val t3_9.isLt (ix2 (0 : Fin 1) k) = ∑ v : Fin 100000, Hw3 V c (ix2 v k) := by
  refine (acc3_apply V c k 9 t3_9.isLt).trans ?_
  rw [Cert.Bridge.accUpTo_eq, Finset.sum_range]
  refine Eq.trans ?_ (Cert.Bridge.sum_tiles 10 10000 (fun v : Fin (10 * 10000) => Hw3 V c (ix2 (v : Fin 100000) k))).symm
  refine Finset.sum_congr rfl fun j _ => ?_
  unfold blockSum
  rw [dif_pos j.isLt]

/-! ## The array after the call -/

/-- The result row at entry q: the affine map of the mean of the rows. -/
theorem result3_apply (c : Dev nD) (q : Fin 16) :
    k3_pay3 (F := Ideal) (acc3 V c t3_9.val t3_9.isLt) (iblk3 V c 1 t3_9) (iblk3 V c 2 t3_9) (ix2 (0 : Fin 1) q)
      = Cert.Gcn.affineOfMeanAt (V c main_arg8) (V c main_arg9) (V c main_v92) q := by
  refine (pay3_3_apply _ _ _ q).trans ?_
  unfold Cert.Gcn.affineOfMeanAt
  refine congrArg₂ (· + ·) (Finset.sum_congr rfl fun k _ => ?_) (iblk3_2_apply V c t3_9 q)
  exact congrArg₂ (· * ·) (congrArg (· * ((1 / 100000 : ℝ) : EReal)) (acc3_last V c k)) (iblk3_1_apply V c t3_9 k q)

/-- THE ARRAY after the call: the affine map of the mean of the rows the call finds. -/
theorem final3_spec (c : Dev nD) :
    (dat3 V c).arrAt 3 cfg3.N
      = fun i => Cert.Gcn.affineOfMeanAt (V c main_arg8) (V c main_arg9) (V c main_v92) ⟨(i 1).val, (i 1).isLt⟩ := by
  refine (final3 V c).trans (funext fun i => ?_)
  obtain ⟨p, q, rfl⟩ : ∃ (p : Fin 1) (q : Fin 16), i = ix2 p q := ⟨i 0, i 1, eq_ix2 i⟩
  obtain rfl : p = 0 := Fin.eq_zero p
  exact result3_apply V c q

end Cert.KernelIdeal.Val

end
-- ==== Proof.KHost.lean ====
/-
  What the host stretches of the kernel program leave in the buffers they write, read as the specification's
  operations: the two rows of the edge list, the aggregation before each of the three layers, and the rows weighted by
  the nodes' degrees before the closing sum — each as a function of the contents the stretch starts from.
-/
import proofs.«154293_j5291399708984_2_alg».proof.Proof.Gen.KernelIdeal.Launch
import proofs.«154293_j5291399708984_2_alg».proof.Proof.Spec
import Idealize.ShloMosaic.Lib.StableHlo.Run

set_option maxRecDepth 1112

noncomputable section

namespace Cert.KernelIdeal.HostVal

open Cert.KernelIdeal Cert.KernelIdeal.Gen Idealize.ShloMosaic Idealize.ShloMosaic.TcCoe Idealize.SL.Sem Idealize.ShloMosaic.StableHlo

/-- The side conditions of the specification's aggregation, as the kernel program states them over the same literal shapes. -/
theorem side : Cert.Gcn.Side :=
  ⟨bcast_S_S800000, bcast_S800000_S800000x1_0, bcast_S_S100000x64,
    gather_S100000x64_S800000x1_S800000x64_1_0_n_n_0_1_164_wf, scatter_S100000x64_S800000x1_S800000x64_1_0_0_1_wf⟩

/-- The side conditions of the specification's degree weights, likewise. -/
theorem sideW : Cert.Gcn.SideW :=
  ⟨bcast_S_S100000, bcast_S100000_S100000x1_0, bcast_S100000x1_S100000x64_0_1, scatter_S100000_S800000x1_S800000_n_0_0_1_wf⟩

variable (W : Valuation τ sig (Elt Ideal))

/-! ## The first stretch: the rows of the edge list and the first aggregation -/

/-- The first stretch leaves the first row of the edge list, as a vector, in its buffer. -/
theorem h0_src :
    StableHlo.after (hostOps0 (F := Ideal)) W (Proc.devRef .tc main_v1)
      = shapeCast S800000 (extractStridedSlice S1x800000 ![0, 0] (W (Proc.devRef .tc main_arg1)) slices_S2x800000_S1x800000_0_0)
          shapeCasts_S1x800000_S800000 := by
  after_results_simp
  rfl

/-- … and the second row. -/
theorem h0_dst :
    StableHlo.after (hostOps0 (F := Ideal)) W (Proc.devRef .tc main_v3)
      = shapeCast S800000 (extractStridedSlice S1x800000 ![1, 0] (W (Proc.devRef .tc main_arg1)) slices_S2x800000_S1x800000_1_0)
          shapeCasts_S1x800000_S800000 := by
  after_results_simp
  rfl

/-- The first stretch leaves the specification's aggregation of the input features along those two rows. -/
theorem h0_agg :
    StableHlo.after (hostOps0 (F := Ideal)) W (Proc.devRef .tc main_v25)
      = Cert.Gcn.agg side (W (Proc.devRef .tc main_arg0)) (StableHlo.after (hostOps0 (F := Ideal)) W (Proc.devRef .tc main_v1)) (StableHlo.after (hostOps0 (F := Ideal)) W (Proc.devRef .tc main_v3)) := by
  rw [h0_src, h0_dst]
  after_results_simp
  rfl

/-! ## The second and third stretches: the aggregations of the first two layers' outputs

  The layers' outputs are stored in the narrower float format; widening is the identity on the extended reals, so the
  stretch's gathers of the narrow array followed by a widening are the specification's gathers. -/

/-- The second stretch leaves the aggregation of the first layer's output along the rows the first stretch left. -/
theorem h1_agg :
    StableHlo.after (hostOps1 (F := Ideal)) W (Proc.devRef .tc main_v51)
      = Cert.Gcn.agg side (W (Proc.devRef .tc main_v26)) (W (Proc.devRef .tc main_v1)) (W (Proc.devRef .tc main_v3)) := by
  after_results_simp
  rfl

/-- The third stretch leaves the aggregation of the second layer's output. -/
theorem h2_agg :
    StableHlo.after (hostOps2 (F := Ideal)) W (Proc.devRef .tc main_v77)
      = Cert.Gcn.agg side (W (Proc.devRef .tc main_v52)) (W (Proc.devRef .tc main_v1)) (W (Proc.devRef .tc main_v3)) := by
  after_results_simp
  rfl

/-! ## The fourth stretch: the rows weighted by the degrees -/

/-- The fourth stretch leaves the third layer's output with every row scaled by its node's weight. -/
theorem h3_weighted :
    StableHlo.after (hostOps3 (F := Ideal)) W (Proc.devRef .tc main_v92)
      = Cert.Gcn.weighted side sideW (W (Proc.devRef .tc main_v78)) (W (Proc.devRef .tc main_v1)) (W (Proc.devRef .tc main_v3)) := by
  after_results_simp
  rfl

end Cert.KernelIdeal.HostVal

end
-- ==== Proof.KernelValue.lean ====
/-
  What the kernel program leaves in its result buffer, as the specification's term of the arguments: the three layers
  each of the aggregation before it, the rows of the last layer weighted by the degrees, and the affine map of their
  scaled column sums. Each region's output array and each host stretch's result is rewritten by the array before it,
  back to the launch contents; the two index rows and the weights are written by nothing on the way.
-/
import proofs.«154293_j5291399708984_2_alg».proof.Proof.KI.Run
import proofs.«154293_j5291399708984_2_alg».proof.Proof.KVal0
import proofs.«154293_j5291399708984_2_alg».proof.Proof.KVal1
import proofs.«154293_j5291399708984_2_alg».proof.Proof.KVal2
import proofs.«154293_j5291399708984_2_alg».proof.Proof.KVal3
import proofs.«154293_j5291399708984_2_alg».proof.Proof.KHost

set_option maxRecDepth 16384

noncomputable section

namespace Cert.KernelIdeal.Val

open Cert.KernelIdeal Cert.KernelIdeal.Gen Cert.KernelIdeal.Hand Cert.KernelIdeal.HostVal
open Idealize.ShloMosaic Idealize.ShloMosaic.ValueIdx Idealize.ShloMosaic.TcCoe Idealize.SL.Sem

/-! ## Equal arguments, equal results -/

theorem linRelu_congr {W W' : FVec Ideal Cert.Gcn.SFF .f32} {b b' : FVec Ideal Cert.Gcn.SF .f32} {A A' : FVec Ideal Cert.Gcn.SNF .f32}
    (h1 : W = W') (h2 : b = b') (h3 : A = A') : Cert.Gcn.linRelu W b A = Cert.Gcn.linRelu W' b' A' := by rw [h1, h2, h3]

theorem agg_congr {H H' : FVec Ideal Cert.Gcn.SNF .f32} {s s' d d' : IVec Cert.Gcn.SE 32}
    (h1 : H = H') (h2 : s = s') (h3 : d = d') : Cert.Gcn.agg side H s d = Cert.Gcn.agg side H' s' d' := by rw [h1, h2, h3]

theorem weighted_congr {H H' : FVec Ideal Cert.Gcn.SNF .f32} {s s' d d' : IVec Cert.Gcn.SE 32}
    (h1 : H = H') (h2 : s = s') (h3 : d = d') :
    Cert.Gcn.weighted side sideW H s d = Cert.Gcn.weighted side sideW H' s' d' := by rw [h1, h2, h3]

theorem affineOfMean_congr {W W' : FVec Ideal Cert.Gcn.SFC .f32} {b b' : FVec Ideal Cert.Gcn.SC .f32} {H H' : FVec Ideal Cert.Gcn.SNF .f32}
    (h1 : W = W') (h2 : b = b') (h3 : H = H') (q : Fin 16) :
    Cert.Gcn.affineOfMeanAt W b H q = Cert.Gcn.affineOfMeanAt W' b' H' q := by rw [h1, h2, h3]

variable (m : (ℓ : Loc nD τ sig) → Buf (Elt Ideal) ℓ) (c : Dev nD)

/-- The two rows of the edge list as launched, as vectors. -/
abbrev srcRow : IVec Cert.Gcn.SE 32 :=
  shapeCast S800000 (extractStridedSlice S1x800000 ![0, 0] (m ((c : Thread nD τ).loc main_arg1)) slices_S2x800000_S1x800000_0_0) shapeCasts_S1x800000_S800000
abbrev dstRow : IVec Cert.Gcn.SE 32 :=
  shapeCast S800000 (extractStridedSlice S1x800000 ![1, 0] (m ((c : Thread nD τ).loc main_arg1)) slices_S2x800000_S1x800000_1_0) shapeCasts_S1x800000_S800000

/-! ## A buffer nothing writes keeps its contents through the items it crosses -/

section Walk
variable (r : Ref sig .tc)

theorem W1_launch (a0 : r ∉ hostOps0_W) : W1 m c (Proc.devRef .tc r) = m ((c : Thread nD τ).loc r) := W1_of m c r a0
theorem W3_W1 (a1 : r ∉ hostOps1_W) (b0 : ∀ w, Pipeline.arrRef spec0 w ≠ r) : W3 m c (Proc.devRef .tc r) = W1 m c (Proc.devRef .tc r) :=
  (W3_of m c r a1).trans (W2_of_ne m c r b0)
theorem W4_W1 (b1 : ∀ w, Pipeline.arrRef spec1 w ≠ r) (a1 : r ∉ hostOps1_W) (b0 : ∀ w, Pipeline.arrRef spec0 w ≠ r) :
    W4 m c (Proc.devRef .tc r) = W1 m c (Proc.devRef .tc r) := (W4_of_ne m c r b1).trans (W3_W1 m c r a1 b0)
theorem W5_W1 (a2 : r ∉ hostOps2_W) (b1 : ∀ w, Pipeline.arrRef spec1 w ≠ r) (a1 : r ∉ hostOps1_W) (b0 : ∀ w, Pipeline.arrRef spec0 w ≠ r) :
    W5 m c (Proc.devRef .tc r) = W1 m c (Proc.devRef .tc r) := (W5_of m c r a2).trans (W4_W1 m c r b1 a1 b0)
theorem W6_W1 (b2 : ∀ w, Pipeline.arrRef spec2 w ≠ r) (a2 : r ∉ hostOps2_W) (b1 : ∀ w, Pipeline.arrRef spec1 w ≠ r) (a1 : r ∉ hostOps1_W)
    (b0 : ∀ w, Pipeline.arrRef spec0 w ≠ r) : W6 m c (Proc.devRef .tc r) = W1 m c (Proc.devRef .tc r) := (W6_of_ne m c r b2).trans (W5_W1 m c r a2 b1 a1 b0)
theorem W7_W1 (a3 : r ∉ hostOps3_W) (b2 : ∀ w, Pipeline.arrRef spec2 w ≠ r) (a2 : r ∉ hostOps2_W) (b1 : ∀ w, Pipeline.arrRef spec1 w ≠ r)
    (a1 : r ∉ hostOps1_W) (b0 : ∀ w, Pipeline.arrRef spec0 w ≠ r) : W7 m c (Proc.devRef .tc r) = W1 m c (Proc.devRef .tc r) :=
  (W7_of m c r a3).trans (W6_W1 m c r b2 a2 b1 a1 b0)

end Walk

/-! ## The index rows at each item -/

theorem W1_src : W1 m c (Proc.devRef .tc main_v1) = srcRow m c := h0_src (W0 m c)
theorem W1_dst : W1 m c (Proc.devRef .tc main_v3) = dstRow m c := h0_dst (W0 m c)
theorem W2_src : W2 m c (Proc.devRef .tc main_v1) = srcRow m c := (W2_of_ne m c main_v1 (by decide)).trans (W1_src m c)
theorem W2_dst : W2 m c (Proc.devRef .tc main_v3) = dstRow m c := (W2_of_ne m c main_v3 (by decide)).trans (W1_dst m c)
theorem W4_src : W4 m c (Proc.devRef .tc main_v1) = srcRow m c := (W4_W1 m c main_v1 (by decide) (by decide) (by decide)).trans (W1_src m c)
theorem W4_dst : W4 m c (Proc.devRef .tc main_v3) = dstRow m c := (W4_W1 m c main_v3 (by decide) (by decide) (by decide)).trans (W1_dst m c)
theorem W6_src : W6 m c (Proc.devRef .tc main_v1) = srcRow m c :=
  (W6_W1 m c main_v1 (by decide) (by decide) (by decide) (by decide) (by decide)).trans (W1_src m c)
theorem W6_dst : W6 m c (Proc.devRef .tc main_v3) = dstRow m c :=
  (W6_W1 m c main_v3 (by decide) (by decide) (by decide) (by decide) (by decide)).trans (W1_dst m c)

/-! ## The layers -/

/-- The first region leaves the first layer of the aggregated input features. -/
theorem out0 : W2 m c (Proc.devRef .tc main_v26)
    = Cert.Gcn.linRelu (m ((c : Thread nD τ).loc main_arg2)) (m ((c : Thread nD τ).loc main_arg3)) (Cert.Gcn.agg side (m ((c : Thread nD τ).loc main_arg0)) (srcRow m c) (dstRow m c)) := by
  have e0 : W2 m c (Proc.devRef .tc main_v26) = (dat0 (Hand.V1 m) c).arrAt 3 cfg0.N := W2_arr m c 3
  have a2 : Hand.V1 m c main_arg2 = m ((c : Thread nD τ).loc main_arg2) := W1_launch m c main_arg2 (by decide)
  have a3 : Hand.V1 m c main_arg3 = m ((c : Thread nD τ).loc main_arg3) := W1_launch m c main_arg3 (by decide)
  have aA : Hand.V1 m c main_v25 = Cert.Gcn.agg side (m ((c : Thread nD τ).loc main_arg0)) (srcRow m c) (dstRow m c) :=
    (h0_agg (W0 m c)).trans (agg_congr rfl (W1_src m c) (W1_dst m c))
  exact e0.trans ((final0 (Hand.V1 m) c).trans (linRelu_congr a2 a3 aA))

/-- The second region leaves the second layer of the aggregated first layer. -/
theorem out1 : W4 m c (Proc.devRef .tc main_v52)
    = Cert.Gcn.linRelu (m ((c : Thread nD τ).loc main_arg4)) (m ((c : Thread nD τ).loc main_arg5))
        (Cert.Gcn.agg side (Cert.Gcn.linRelu (m ((c : Thread nD τ).loc main_arg2)) (m ((c : Thread nD τ).loc main_arg3))
          (Cert.Gcn.agg side (m ((c : Thread nD τ).loc main_arg0)) (srcRow m c) (dstRow m c))) (srcRow m c) (dstRow m c)) := by
  have e0 : W4 m c (Proc.devRef .tc main_v52) = (dat1 (Hand.V3 m) c).arrAt 3 cfg1.N := W4_arr m c 3
  have a2 : Hand.V3 m c main_arg4 = m ((c : Thread nD τ).loc main_arg4) :=
    (W3_W1 m c main_arg4 (by decide) (by decide)).trans (W1_launch m c main_arg4 (by decide))
  have a3 : Hand.V3 m c main_arg5 = m ((c : Thread nD τ).loc main_arg5) :=
    (W3_W1 m c main_arg5 (by decide) (by decide)).trans (W1_launch m c main_arg5 (by decide))
  have aA : Hand.V3 m c main_v51 = _ := (h1_agg (W2 m c)).trans (agg_congr (out0 m c) (W2_src m c) (W2_dst m c))
  exact e0.trans ((final1 (Hand.V3 m) c).trans (linRelu_congr a2 a3 aA))

/-- The third region leaves the specification's three hidden layers. -/
theorem out2 : W6 m c (Proc.devRef .tc main_v78)
    = Cert.Gcn.hidden side (m ((c : Thread nD τ).loc main_arg0)) (srcRow m c) (dstRow m c) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  have e0 : W6 m c (Proc.devRef .tc main_v78) = (dat2 (Hand.V5 m) c).arrAt 3 cfg2.N := W6_arr m c 3
  have a2 : Hand.V5 m c main_arg6 = m ((c : Thread nD τ).loc main_arg6) :=
    (W5_W1 m c main_arg6 (by decide) (by decide) (by decide) (by decide)).trans (W1_launch m c main_arg6 (by decide))
  have a3 : Hand.V5 m c main_arg7 = m ((c : Thread nD τ).loc main_arg7) :=
    (W5_W1 m c main_arg7 (by decide) (by decide) (by decide) (by decide)).trans (W1_launch m c main_arg7 (by decide))
  have aA : Hand.V5 m c main_v77 = _ := (h2_agg (W4 m c)).trans (agg_congr (out1 m c) (W4_src m c) (W4_dst m c))
  unfold Cert.Gcn.hidden
  exact e0.trans ((final2 (Hand.V5 m) c).trans (linRelu_congr a2 a3 aA))

/-- The last host stretch leaves the hidden layers' rows weighted by the degrees. -/
theorem weighted_hidden : Hand.V7 m c main_v92
    = Cert.Gcn.weighted side sideW (Cert.Gcn.hidden side (m ((c : Thread nD τ).loc main_arg0)) (srcRow m c) (dstRow m c) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))) (srcRow m c) (dstRow m c) :=
  (h3_weighted (W6 m c)).trans (weighted_congr (out2 m c) (W6_src m c) (W6_dst m c))

theorem V7_arg8 : Hand.V7 m c main_arg8 = m ((c : Thread nD τ).loc main_arg8) :=
  (W7_W1 m c main_arg8 (by decide) (by decide) (by decide) (by decide) (by decide) (by decide)).trans (W1_launch m c main_arg8 (by decide))
theorem V7_arg9 : Hand.V7 m c main_arg9 = m ((c : Thread nD τ).loc main_arg9) :=
  (W7_W1 m c main_arg9 (by decide) (by decide) (by decide) (by decide) (by decide) (by decide)).trans (W1_launch m c main_arg9 (by decide))

/-! ## The result -/

/-- The kernel program's result buffer holds the affine map of the scaled column sums of the weighted hidden layers. -/
theorem kernel_result :
    W8 m c (Proc.devRef .tc main_v93) = fun i : S1x16.Idx => Cert.Gcn.affineOfMeanAt (m ((c : Thread nD τ).loc main_arg8)) (m ((c : Thread nD τ).loc main_arg9))
      (Cert.Gcn.weighted side sideW (Cert.Gcn.hidden side (m ((c : Thread nD τ).loc main_arg0)) (srcRow m c) (dstRow m c) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))) (srcRow m c) (dstRow m c))
      ⟨(i 1).val, (i 1).isLt⟩ := by
  have e0 : W8 m c (Proc.devRef .tc main_v93) = (dat3 (Hand.V7 m) c).arrAt 3 cfg3.N := W8_arr m c 3
  refine e0.trans ((final3_spec (Hand.V7 m) c).trans ?_)
  funext i
  exact affineOfMean_congr (V7_arg8 m c) (V7_arg9 m c) (weighted_hidden m c) _

end Cert.KernelIdeal.Val

end
-- ==== Proof.RefValue.lean ====
/-
  The reference's stages read as the graph-convolution network of the specification: each aggregation of the
  reference is the specification's aggregation of the array before it, each affine-and-max stage is the
  specification's layer of the aggregation before it, and the result is the average of the last affine map.
-/
import proofs.«154293_j5291399708984_2_alg».proof.Proof.RefImports
import proofs.«154293_j5291399708984_2_alg».proof.Proof.Spec

noncomputable section

namespace Cert.ReferenceIdeal.RefValue

open Cert.ReferenceIdeal Cert.ReferenceIdeal.Gen Idealize.ShloMosaic Idealize.ShloMosaic.ValueIdx

/-- The side conditions of the specification's operations, as the reference states them over the same literal shapes. -/
theorem side : Cert.Gcn.Side :=
  ⟨bcast_S_S800000, bcast_S800000_S800000x1_0, bcast_S_S100000x64,
    gather_S100000x64_S800000x1_S800000x64_1_0_n_n_0_1_164_wf, scatter_S100000x64_S800000x1_S800000x64_1_0_0_1_wf⟩

/-- A node array, the edge list, the weights and biases, as the reference's arguments are typed. -/
abbrev NF := (⟨S100000x64, .f32⟩ : BufTy).Contents (Elt Ideal)
abbrev E2 := (⟨S2x800000, .i32⟩ : BufTy).Contents (Elt Ideal)
abbrev EV := (⟨S800000, .i32⟩ : BufTy).Contents (Elt Ideal)
abbrev FF := (⟨S64x64, .f32⟩ : BufTy).Contents (Elt Ideal)
abbrev F1 := (⟨S64, .f32⟩ : BufTy).Contents (Elt Ideal)
abbrev FC := (⟨S64x16, .f32⟩ : BufTy).Contents (Elt Ideal)
abbrev C1 := (⟨S16, .f32⟩ : BufTy).Contents (Elt Ideal)

/-- The words a row of the edge list names, negative ones counted from the end, as a column. -/
def wrapOf (s : EV) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 100000#32))) s)

/-- One direction of an aggregation in the reference's spelling: rows taken by the words of `a`, added onto the rows `b` names. -/
def pushOf (H : NF) (a b : EV) : NF :=
  Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0 b)
    (Host.gather gather_S100000x64_S800000x1_S800000x64_1_0_n_n_0_1_164 H (wrapOf a))

/-- The reference's spelling of one aggregation is the specification's. -/
theorem agg_form (H : NF) (s d : EV) :
    addf (addf H (pushOf H s d)) (pushOf H d s) = Cert.Gcn.agg side H s d := rfl

/-! ## The aggregations -/

/-- The first aggregation of the reference is the specification's aggregation of the input features. -/
theorem agg0_eq (x0 : NF) (x1 : E2) :
    Read.val_main_v25 (F := Ideal) x0 x1
      = Cert.Gcn.agg side x0 (Read.val_main_v1 (F := Ideal) x1) (Read.val_main_v3 (F := Ideal) x1) :=
  agg_form x0 (Read.val_main_v1 (F := Ideal) x1) (Read.val_main_v3 (F := Ideal) x1)

/-- The second aggregation of the reference is the specification's aggregation of the layer before it. -/
theorem agg1_eq (x0 : NF) (x1 : E2) (x2 : FF) (x3 : F1) :
    Read.val_main_v52 (F := Ideal) x0 x1 x2 x3
      = Cert.Gcn.agg side (Read.val_main_v30 (F := Ideal) x0 x1 x2 x3) (Read.val_main_v1 (F := Ideal) x1) (Read.val_main_v3 (F := Ideal) x1) :=
  agg_form (Read.val_main_v30 (F := Ideal) x0 x1 x2 x3) (Read.val_main_v1 (F := Ideal) x1) (Read.val_main_v3 (F := Ideal) x1)

/-- The third aggregation of the reference is the specification's aggregation of the layer before it. -/
theorem agg2_eq (x0 : NF) (x1 : E2) (x2 : FF) (x3 : F1) (x4 : FF) (x5 : F1) :
    Read.val_main_v79 (F := Ideal) x0 x1 x2 x3 x4 x5
      = Cert.Gcn.agg side (Read.val_main_v57 (F := Ideal) x0 x1 x2 x3 x4 x5) (Read.val_main_v1 (F := Ideal) x1) (Read.val_main_v3 (F := Ideal) x1) :=
  agg_form (Read.val_main_v57 (F := Ideal) x0 x1 x2 x3 x4 x5) (Read.val_main_v1 (F := Ideal) x1) (Read.val_main_v3 (F := Ideal) x1)

/-- The fourth aggregation of the reference is the specification's aggregation of the layer before it. -/
theorem agg3_eq (x0 : NF) (x1 : E2) (x2 : FF) (x3 : F1) (x4 : FF) (x5 : F1) (x6 : FF) (x7 : F1) :
    Read.val_main_v106 (F := Ideal) x0 x1 x2 x3 x4 x5 x6 x7
      = Cert.Gcn.agg side (Read.val_main_v84 (F := Ideal) x0 x1 x2 x3 x4 x5 x6 x7) (Read.val_main_v1 (F := Ideal) x1) (Read.val_main_v3 (F := Ideal) x1) :=
  agg_form (Read.val_main_v84 (F := Ideal) x0 x1 x2 x3 x4 x5 x6 x7) (Read.val_main_v1 (F := Ideal) x1) (Read.val_main_v3 (F := Ideal) x1)

/-! ## The affine-and-max stages -/

theorem lidx_l0 (p : Fin 100000) (q k : Fin 64) : Read.lidx_main_v26 (ix2 p q) k = ix2 p k :=
  funext fun a => Fin.ext (by match a with | ⟨0, _⟩ => rfl | ⟨1, _⟩ => rfl)
theorem ridx_l0 (p : Fin 100000) (q k : Fin 64) : Read.ridx_main_v26 (ix2 p q) k = ix2 k q :=
  funext fun a => Fin.ext (by match a with | ⟨0, _⟩ => rfl | ⟨1, _⟩ => rfl)
theorem bidx_l0 (p : Fin 100000) (q : Fin 64) : Read.idx_main_v27 (Read.idx_main_v28 (ix2 p q)) = ix1 q :=
  funext fun a => Fin.ext (by match a with | ⟨0, _⟩ => rfl)

/-- The first affine-and-max stage is the specification's layer of the first aggregation. -/
theorem layer0_eq (x0 : NF) (x1 : E2) (x2 : FF) (x3 : F1) :
    Read.val_main_v30 (F := Ideal) x0 x1 x2 x3
      = Cert.Gcn.linRelu x2 x3 (Read.val_main_v25 (F := Ideal) x0 x1) := by
  funext i
  obtain ⟨p, q, rfl⟩ : ∃ (p : Fin 100000) (q : Fin 64), i = ix2 p q := ⟨i 0, i 1, eq_ix2 i⟩
  rw [Read.val_main_v30_apply, Read.val_main_v29_apply, Read.val_main_v26_apply, Read.val_main_v28_apply,
    Read.val_main_v27_apply, Read.val_main_call0_v0_apply, Read.val_main_call0_cst_apply, Cert.Gcn.linRelu_ix2]
  unfold Cert.Gcn.linReluAt
  simp only [lidx_l0, ridx_l0, bidx_l0, Ideal.maximumf_def, Ideal.addf_def, Ideal.ofBits_def, Ideal.ofBits_zero_f32]

theorem lidx_l1 (p : Fin 100000) (q k : Fin 64) : Read.lidx_main_v53 (ix2 p q) k = ix2 p k :=
  funext fun a => Fin.ext (by match a with | ⟨0, _⟩ => rfl | ⟨1, _⟩ => rfl)
theorem ridx_l1 (p : Fin 100000) (q k : Fin 64) : Read.ridx_main_v53 (ix2 p q) k = ix2 k q :=
  funext fun a => Fin.ext (by match a with | ⟨0, _⟩ => rfl | ⟨1, _⟩ => rfl)
theorem bidx_l1 (p : Fin 100000) (q : Fin 64) : Read.idx_main_v54 (Read.idx_main_v55 (ix2 p q)) = ix1 q :=
  funext fun a => Fin.ext (by match a with | ⟨0, _⟩ => rfl)

/-- The second affine-and-max stage is the specification's layer of the second aggregation. -/
theorem layer1_eq (x0 : NF) (x1 : E2) (x2 : FF) (x3 : F1) (x4 : FF) (x5 : F1) :
    Read.val_main_v57 (F := Ideal) x0 x1 x2 x3 x4 x5
      = Cert.Gcn.linRelu x4 x5 (Read.val_main_v52 (F := Ideal) x0 x1 x2 x3) := by
  funext i
  obtain ⟨p, q, rfl⟩ : ∃ (p : Fin 100000) (q : Fin 64), i = ix2 p q := ⟨i 0, i 1, eq_ix2 i⟩
  rw [Read.val_main_v57_apply, Read.val_main_v56_apply, Read.val_main_v53_apply, Read.val_main_v55_apply,
    Read.val_main_v54_apply, Read.val_main_call1_v0_apply, Read.val_main_call1_cst_apply, Cert.Gcn.linRelu_ix2]
  unfold Cert.Gcn.linReluAt
  simp only [lidx_l1, ridx_l1, bidx_l1, Ideal.maximumf_def, Ideal.addf_def, Ideal.ofBits_def, Ideal.ofBits_zero_f32]

theorem lidx_l2 (p : Fin 100000) (q k : Fin 64) : Read.lidx_main_v80 (ix2 p q) k = ix2 p k :=
  funext fun a => Fin.ext (by match a with | ⟨0, _⟩ => rfl | ⟨1, _⟩ => rfl)
theorem ridx_l2 (p : Fin 100000) (q k : Fin 64) : Read.ridx_main_v80 (ix2 p q) k = ix2 k q :=
  funext fun a => Fin.ext (by match a with | ⟨0, _⟩ => rfl | ⟨1, _⟩ => rfl)
theorem bidx_l2 (p : Fin 100000) (q : Fin 64) : Read.idx_main_v81 (Read.idx_main_v82 (ix2 p q)) = ix1 q :=
  funext fun a => Fin.ext (by match a with | ⟨0, _⟩ => rfl)

/-- The third affine-and-max stage is the specification's layer of the third aggregation. -/
theorem layer2_eq (x0 : NF) (x1 : E2) (x2 : FF) (x3 : F1) (x4 : FF) (x5 : F1) (x6 : FF) (x7 : F1) :
    Read.val_main_v84 (F := Ideal) x0 x1 x2 x3 x4 x5 x6 x7
      = Cert.Gcn.linRelu x6 x7 (Read.val_main_v79 (F := Ideal) x0 x1 x2 x3 x4 x5) := by
  funext i
  obtain ⟨p, q, rfl⟩ : ∃ (p : Fin 100000) (q : Fin 64), i = ix2 p q := ⟨i 0, i 1, eq_ix2 i⟩
  rw [Read.val_main_v84_apply, Read.val_main_v83_apply, Read.val_main_v80_apply, Read.val_main_v82_apply,
    Read.val_main_v81_apply, Read.val_main_call2_v0_apply, Read.val_main_call2_cst_apply, Cert.Gcn.linRelu_ix2]
  unfold Cert.Gcn.linReluAt
  simp only [lidx_l2, ridx_l2, bidx_l2, Ideal.maximumf_def, Ideal.addf_def, Ideal.ofBits_def, Ideal.ofBits_zero_f32]

/-- The three hidden layers of the reference are the specification's. -/
theorem hidden_eq (x0 : NF) (x1 : E2) (x2 : FF) (x3 : F1) (x4 : FF) (x5 : F1) (x6 : FF) (x7 : F1) :
    Read.val_main_v84 (F := Ideal) x0 x1 x2 x3 x4 x5 x6 x7
      = Cert.Gcn.hidden side x0 (Read.val_main_v1 (F := Ideal) x1) (Read.val_main_v3 (F := Ideal) x1) x2 x3 x4 x5 x6 x7 := by
  unfold Cert.Gcn.hidden
  rw [layer2_eq, agg2_eq, layer1_eq, agg1_eq, layer0_eq, agg0_eq]

/-- The operand of the last affine map is the specification's aggregation of the hidden layers. -/
theorem agg3_hidden (x0 : NF) (x1 : E2) (x2 : FF) (x3 : F1) (x4 : FF) (x5 : F1) (x6 : FF) (x7 : F1) :
    Read.val_main_v106 (F := Ideal) x0 x1 x2 x3 x4 x5 x6 x7
      = Cert.Gcn.agg side (Cert.Gcn.hidden side x0 (Read.val_main_v1 (F := Ideal) x1) (Read.val_main_v3 (F := Ideal) x1) x2 x3 x4 x5 x6 x7)
          (Read.val_main_v1 (F := Ideal) x1) (Read.val_main_v3 (F := Ideal) x1) := by
  rw [agg3_eq, hidden_eq]

/-! ## The closing average -/

/-- The divisor's word denotes the number of nodes. -/
theorem ofBits_100000 : Ideal.ofBits .f32 0x47C35000#32 = ((100000 : ℝ) : EReal) := by
  simp [Ideal.ofBits, Ideal.ieee, -EReal.coe_mul]; norm_num

/-- Through the sum over the nodes and the last product, the left operand is read at node `v`, feature `k`. -/
theorem lidx_last (i : S1x16.Idx) (v : Fin 100000) (k : Fin 64) :
    Read.lidx_main_v107 (Read.idx_main_v111 (Read.idx_main_v112 i) v) k = ix2 v k :=
  funext fun a => Fin.ext (by match a with | ⟨0, _⟩ => rfl | ⟨1, _⟩ => rfl)

/-- … the weight at feature `k` and the result's class. -/
theorem ridx_last (i : S1x16.Idx) (v : Fin 100000) (k : Fin 64) :
    Read.ridx_main_v107 (Read.idx_main_v111 (Read.idx_main_v112 i) v) k = ix2 k ⟨(i 1).val, (i 1).isLt⟩ :=
  funext fun a => Fin.ext (by match a with | ⟨0, _⟩ => rfl | ⟨1, _⟩ => rfl)

/-- … and the bias at the result's class. -/
theorem bidx_last (i : S1x16.Idx) (v : Fin 100000) :
    Read.idx_main_v108 (Read.idx_main_v109 (Read.idx_main_v111 (Read.idx_main_v112 i) v)) = ix1 ⟨(i 1).val, (i 1).isLt⟩ :=
  funext fun a => Fin.ext (by match a with | ⟨0, _⟩ => rfl)

/-- The reference's result is, class by class, the average over the nodes of the last affine map of the aggregated
    hidden layers. -/
theorem result_eq (x0 : NF) (x1 : E2) (x2 : FF) (x3 : F1) (x4 : FF) (x5 : F1) (x6 : FF) (x7 : F1) (x8 : FC) (x9 : C1) :
    Read.val_main_v114 (F := Ideal) x0 x1 x2 x3 x4 x5 x6 x7 x8 x9
      = fun i => Cert.Gcn.meanOfAffineAt x8 x9
          (Cert.Gcn.agg side (Cert.Gcn.hidden side x0 (Read.val_main_v1 (F := Ideal) x1) (Read.val_main_v3 (F := Ideal) x1) x2 x3 x4 x5 x6 x7)
            (Read.val_main_v1 (F := Ideal) x1) (Read.val_main_v3 (F := Ideal) x1))
          ⟨(i 1).val, (i 1).isLt⟩ := by
  funext i
  rw [← agg3_hidden x0 x1 x2 x3 x4 x5 x6 x7]
  unfold Cert.Gcn.meanOfAffineAt
  rw [Read.val_main_v114_apply, Read.val_main_v112_apply, Read.val_main_v111_apply, Read.val_main_v113_apply,
    Read.val_main_cst_23_apply, Read.val_main_cst_22_apply]
  simp only [Read.val_main_v110_apply, Read.val_main_v107_apply, Read.val_main_v109_apply, Read.val_main_v108_apply,
    lidx_last, ridx_last, bidx_last, Ideal.hostDivf_def, Ideal.addf_def, Ideal.ofBits_def, Ideal.ofBits_zero_f32, ofBits_100000]
  rfl

end Cert.ReferenceIdeal.RefValue

end
-- ==== Proof.RangeFacts.lean ====
/-
  When every word of the edge list names a node, so does every word of its two rows as the reference reads them.
-/
import proofs.«154293_j5291399708984_2_alg».proof.Proof.RefImports
import proofs.«154293_j5291399708984_2_alg».proof.Proof.Spec

noncomputable section

namespace Cert.ReferenceIdeal.RangeFacts

open Cert.ReferenceIdeal Cert.ReferenceIdeal.Gen Idealize.ShloMosaic Idealize.ShloMosaic.ValueIdx

/-- Every word of the first row of the edge list names a node. -/
theorem src_inRange (x1 : (⟨S2x800000, .i32⟩ : BufTy).Contents (Elt Ideal))
    (hE : ∀ j : S2x800000.Idx, 0 ≤ (x1 j).toInt ∧ (x1 j).toInt < 100000) :
    ∀ r : Fin 800000, 0 ≤ ((Read.val_main_v1 (F := Ideal) x1) (ix1 r)).toInt
      ∧ ((Read.val_main_v1 (F := Ideal) x1) (ix1 r)).toInt < 100000 := fun r => by
  rw [Read.val_main_v1_apply, Read.val_main_v0_apply]
  exact hE _

/-- Every word of the second row of the edge list names a node. -/
theorem dst_inRange (x1 : (⟨S2x800000, .i32⟩ : BufTy).Contents (Elt Ideal))
    (hE : ∀ j : S2x800000.Idx, 0 ≤ (x1 j).toInt ∧ (x1 j).toInt < 100000) :
    ∀ r : Fin 800000, 0 ≤ ((Read.val_main_v3 (F := Ideal) x1) (ix1 r)).toInt
      ∧ ((Read.val_main_v3 (F := Ideal) x1) (ix1 r)).toInt < 100000 := fun r => by
  rw [Read.val_main_v3_apply, Read.val_main_v2_apply]
  exact hE _

end Cert.ReferenceIdeal.RangeFacts

end
-- ==== Proof.PreFacts.lean ====
/-
  What the precondition says of the arguments: every entry of the nine float arrays is a real number, and every word
  of the edge list names a node.
-/
import proofs.«154293_j5291399708984_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreFacts

open Idealize.ShloMosaic Cert.Pre_finite_inputs Cert.Pre_finite_inputs.Gen

/-- The shape with no axes has one index. -/
instance : Subsingleton S_.Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- A Boolean as a one-bit word is 1 exactly when it is true. -/
theorem ofBool_one {b : Bool} : BitVec.ofBool b = 1#1 ↔ b = true := by cases b <;> decide

/-- An extended real whose absolute value compares below +∞ is a real number. -/
theorem real_of_abs_lt (x : Ideal .f32)
    (h : FloatOps.cmpf (F := Ideal) .olt (FloatOps.hostAbsf x) (FloatOps.ofBits .f32 0x7F800000#32) = 1#1) :
    ∃ r : ℝ, x = (r : EReal) := by
  rw [Ideal.hostAbsf_def, Ideal.absf_def, Ideal.cmpf_def, Ideal.ofBits_def, ofBits_inf] at h
  have h' : (x : EReal) < ⊤ ∧ -(x : EReal) < ⊤ := by
    simpa [Ideal.cmp, ofBool_one] using h
  induction x using EReal.rec with
  | bot => simp at h'
  | coe r => exact ⟨r, rfl⟩
  | top => simp at h'

/-- The conjunction over all entries of an array of `|x| < +∞`, read back: every entry is a real number. -/
theorem reals_of_all {s : Shape} {axes : List (Fin s.rank)} (hb : S_.BroadcastsInDim s (![] : Fin 0 → Fin s.rank))
    (hr : s.ReducesTo axes S_) (hu : 0 < S_.numel) (x : FVec Ideal s .f32) (j : S_.Idx)
    (e : Host.reduce IntOp.andi (cmpf .olt (Host.absf x) (broadcastInDim s ![] hb (constant (F := Ideal) S_ .f32 0x7F800000#32)))
          (constantI S_ 1 1#1) hr hu j = 1#1) :
    ∀ i, ∃ r : ℝ, x i = (r : EReal) := fun i =>
  real_of_abs_lt (x i) (Host.reduce_andi_all _ _ hr hu j e i)

/-- The conjunctions over all words of the edge list of `0 ≤ E` and of `E < 100000`, read back: every word names a node. -/
theorem range_of_all {axes : List (Fin S2x800000.rank)} (hb : S_.BroadcastsInDim S2x800000 (![] : Fin 0 → Fin S2x800000.rank))
    (hr : S2x800000.ReducesTo axes S_) (hu : 0 < S_.numel) (x1 : IVec S2x800000 32) (j : S_.Idx)
    (e0 : Host.reduce IntOp.andi (cmpi .sge x1 (broadcastInDim S2x800000 ![] hb (constantI S_ 32 0#32)))
          (constantI S_ 1 1#1) hr hu j = 1#1)
    (e1 : Host.reduce IntOp.andi (cmpi .slt x1 (broadcastInDim S2x800000 ![] hb (constantI S_ 32 100000#32)))
          (constantI S_ 1 1#1) hr hu j = 1#1) :
    ∀ i : S2x800000.Idx, 0 ≤ (x1 i).toInt ∧ (x1 i).toInt < 100000 := fun i => by
  have a : (0#32 : BitVec 32).toInt ≤ (x1 i).toInt := IntOp.cmpi_sge.1 (Host.reduce_andi_all _ _ hr hu j e0 i)
  have b : (x1 i).toInt < (100000#32 : BitVec 32).toInt := IntOp.cmpi_slt.1 (Host.reduce_andi_all _ _ hr hu j e1 i)
  have z : (0#32 : BitVec 32).toInt = 0 := by decide
  have n : (100000#32 : BitVec 32).toInt = 100000 := by decide
  rw [z] at a
  rw [n] at b
  exact ⟨a, b⟩

/-- Under the precondition every entry of the nine float arguments is a real number and every word of the edge list
    is a node's number. -/
theorem of_pre (x0 : FVec Ideal S100000x64 .f32) (x1 : IVec S2x800000 32) (x2 : FVec Ideal S64x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x16 .f32) (x9 : FVec Ideal S16 .f32)
    (hpre : Cert.Pre_finite_inputs.fn (F := Ideal) x0 x1 x2 x3 x4 x5 x6 x7 x8 x9 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) ∧ (∀ i, ∃ r : ℝ, x8 i = (r : EReal)) ∧ (∀ i, ∃ r : ℝ, x9 i = (r : EReal))
      ∧ (∀ j : S2x800000.Idx, 0 ≤ (x1 j).toInt ∧ (x1 j).toInt < 100000) := by
  have h := congrFun hpre ValueIdx.ix0
  dsimp only [fn, fn_part1, fn_part2, fn_part3] at h
  obtain ⟨h, e50⟩ := IntOp.andi_eq_one.1 h
  obtain ⟨h, e46⟩ := IntOp.andi_eq_one.1 h
  obtain ⟨h, e42⟩ := IntOp.andi_eq_one.1 h
  obtain ⟨h, e37⟩ := IntOp.andi_eq_one.1 h
  obtain ⟨h, e32⟩ := IntOp.andi_eq_one.1 h
  obtain ⟨h, e27⟩ := IntOp.andi_eq_one.1 h
  obtain ⟨h, e22⟩ := IntOp.andi_eq_one.1 h
  obtain ⟨h, e17⟩ := IntOp.andi_eq_one.1 h
  obtain ⟨h, e12⟩ := IntOp.andi_eq_one.1 h
  obtain ⟨e3, e7⟩ := IntOp.andi_eq_one.1 h
  exact ⟨reals_of_all _ _ _ x0 _ e3, reals_of_all _ _ _ x2 _ e7, reals_of_all _ _ _ x3 _ e12, reals_of_all _ _ _ x4 _ e17,
    reals_of_all _ _ _ x5 _ e22, reals_of_all _ _ _ x6 _ e27, reals_of_all _ _ _ x7 _ e32, reals_of_all _ _ _ x8 _ e37,
    reals_of_all _ _ _ x9 _ e42, range_of_all _ _ _ x1 _ e46 e50⟩

end Cert.PreFacts

end
-- ==== Proof.LibScatterSplit.lean ====
/-
  A scatter along rows whose index and update arrays are two pieces laid end to end equals the two pieces' scatters combined
  (general lemmas: any extents, any index width; no program imported).

  The setting is the indexed accumulation `x[idx[r]] ← f (x[idx[r]]) (u[r])` over the update rows `r`: the operand's leading axis
  is indexed by one signed integer per update row, read off an `[e, 1]` index array; update row `r` goes to operand row `idx[r, 0]`
  when that number lies in `[0, n)` and is dropped otherwise (`target`). The two shapes treated are an `[n, c]` operand with
  `[e, c]` updates (`rowDims`) and an `[n]` operand with `[e]` updates (`eltDims`); `rowDims_resultIdx?` and
  `eltDims_resultIdx?` compute where an update element lands.

  For the exact sum (the float scatter-add read at the extended reals) the value at an operand element is the operand's
  element plus the sum of the update elements that land on it; when the update rows are `e = e₁ + e₂` rows, the first `e₁`
  agreeing with one pair of index / update arrays and the last `e₂` with another, the sum over the landing set splits into
  the two pieces' sums (`scatterAdd_rows_split`, `scatterAdd_elts_split`). A scatter-add of the constant 1 counts the
  landing updates, so it is a natural number (`scatterAdd_elts_ones_nat`).

  For a scatter by an associative operation `f` (a left fold of "replace the target by `f old update`" over the update rows in
  order) the fold over `e₁ + e₂` rows is the fold over the last `e₂` started from the fold over the first `e₁`; and a fold
  started from `y` is `f (y p)` of the fold started from `x` at every element `p` as soon as `f (y p) (x p) = y p`
  (`foldl_step_assoc`). With `x` constantly a right identity of `f` this gives `scatter_elts_split`; the signed maximum with
  the least integer is the instance `scatter_elts_maxsi_split`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.ScatterSplit

open Idealize.ShloMosaic Idealize.ShloMosaic.ValueIdx

/-! ## Where an update row lands -/

/-- The operand row a start index names: the word read as a signed integer when that lies in `[0, n)`, nothing otherwise
    (the update is dropped; the index is not clamped). -/
def target {w : Nat} (n : Nat) (v : BitVec w) : Option (Fin n) :=
  if h : 0 ≤ v.toInt ∧ v.toInt < (n : Int) then some ⟨v.toInt.toNat, by omega⟩ else none

/-- The dimension numbers of a row scatter: operand `[n, c]`, indices `[e, 1]`, updates `[e, c]`; update window axis 1,
    inserted window axis 0, the one index component naming operand axis 0, the index vector on axis 1. -/
abbrev rowDims (n c e : Nat) (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- The dimension numbers of an element scatter: operand `[n]`, indices `[e, 1]`, updates `[e]`; no window axis, the
    operand's one axis inserted and named by the one index component, the index vector on axis 1. -/
abbrev eltDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

section Land
variable {n c e w : Nat}

theorem rowDims_start0 (wf) (j : (⟨2, ![e, c]⟩ : Shape).Idx) (idx : IVec ⟨2, ![e, 1]⟩ w) :
    (rowDims n c e wf).start j idx 0 = (idx (ix2 (j 0) 0)).toInt := by
  unfold ScatterDims.start
  rw [dif_pos (show (0 : Fin 2) ∈ (rowDims n c e wf).scatterDimsToOperandDims from List.mem_singleton.mpr rfl)]
  have hsi : (rowDims n c e wf).siIdx j ⟨List.idxOf (0 : Fin 2) (rowDims n c e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowDims_start1 (wf) (j : (⟨2, ![e, c]⟩ : Shape).Idx) (idx : IVec ⟨2, ![e, 1]⟩ w) :
    (rowDims n c e wf).start j idx 1 = 0 := by
  unfold ScatterDims.start
  rw [dif_neg (show (1 : Fin 2) ∉ ([0] : List (Fin 2)) by decide)]

theorem rowDims_window0 (wf) (j : (⟨2, ![e, c]⟩ : Shape).Idx) :
    (rowDims n c e wf).window j 0 = 0 := by
  unfold ScatterDims.window
  have h : (0 : Fin 2) ∉ (rowDims n c e wf).sKept := by
    show (0 : Fin 2) ∉ (List.finRange 2).filter (· ∉ ([0] : List (Fin 2)))
    decide
  rw [dif_neg h]

theorem rowDims_window1 (wf) (j : (⟨2, ![e, c]⟩ : Shape).Idx) :
    (rowDims n c e wf).window j 1 = (j 1).val := by
  unfold ScatterDims.window
  have h : (1 : Fin 2) ∈ (rowDims n c e wf).sKept := by
    show (1 : Fin 2) ∈ (List.finRange 2).filter (· ∉ ([0] : List (Fin 2)))
    decide
  rw [dif_pos h]
  rfl

/-- A row scatter's update element `(r, k)` lands at `(idx[r, 0], k)` when the start index names a row, nowhere otherwise. -/
theorem rowDims_resultIdx? (wf) (j : (⟨2, ![e, c]⟩ : Shape).Idx) (idx : IVec ⟨2, ![e, 1]⟩ w) :
    (rowDims n c e wf).resultIdx? j idx = (target n (idx (ix2 (j 0) 0))).map fun r => ix2 r (j 1) := by
  unfold ScatterDims.resultIdx? target
  by_cases h : 0 ≤ (idx (ix2 (j 0) 0)).toInt ∧ (idx (ix2 (j 0) 0)).toInt < (n : Int)
  · have H : ∀ a : Fin 2, 0 ≤ (rowDims n c e wf).start j idx a + ((rowDims n c e wf).window j a : Int) ∧
        (rowDims n c e wf).start j idx a + ((rowDims n c e wf).window j a : Int) < ((⟨2, ![n, c]⟩ : Shape).size a : Int) := by
      refine Fin.forall_fin_two.2 ⟨?_, ?_⟩
      · rw [rowDims_start0, rowDims_window0]
        show 0 ≤ _ + ((0 : Nat) : Int) ∧ _ + ((0 : Nat) : Int) < (n : Int)
        omega
      · rw [rowDims_start1, rowDims_window1]
        have := (j 1).isLt
        show 0 ≤ (0 : Int) + ((j 1).val : Int) ∧ (0 : Int) + ((j 1).val : Int) < (c : Int)
        have : (j 1).val < c := this
        omega
    rw [dif_pos H, dif_pos h, Option.map_some]
    refine congrArg some (funext fun a => Fin.ext ?_)
    revert a
    refine Fin.forall_fin_two.2 ⟨?_, ?_⟩
    · show ((rowDims n c e wf).start j idx 0 + ((rowDims n c e wf).window j 0 : Int)).toNat = _
      rw [rowDims_start0, rowDims_window0]
      show ((idx (ix2 (j 0) 0)).toInt + ((0 : Nat) : Int)).toNat = (idx (ix2 (j 0) 0)).toInt.toNat
      simp
    · show ((rowDims n c e wf).start j idx 1 + ((rowDims n c e wf).window j 1 : Int)).toNat = _
      rw [rowDims_start1, rowDims_window1]
      show ((0 : Int) + ((j 1).val : Int)).toNat = (j 1).val
      simp
  · have H : ¬ ∀ a : Fin 2, 0 ≤ (rowDims n c e wf).start j idx a + ((rowDims n c e wf).window j a : Int) ∧
        (rowDims n c e wf).start j idx a + ((rowDims n c e wf).window j a : Int) < ((⟨2, ![n, c]⟩ : Shape).size a : Int) := by
      intro H
      have H0 := H 0
      rw [rowDims_start0, rowDims_window0] at H0
      apply h
      have H0' : 0 ≤ (idx (ix2 (j 0) 0)).toInt + ((0 : Nat) : Int) ∧ (idx (ix2 (j 0) 0)).toInt + ((0 : Nat) : Int) < (n : Int) := H0
      omega
    rw [dif_neg H, dif_neg h]
    rfl

end Land

section LandElt
variable {n e w : Nat}

theorem eltDims_start0 (wf) (j : (⟨1, ![e]⟩ : Shape).Idx) (idx : IVec ⟨2, ![e, 1]⟩ w) :
    (eltDims n e wf).start j idx 0 = (idx (ix2 (j 0) 0)).toInt := by
  unfold ScatterDims.start
  rw [dif_pos (show (0 : Fin 1) ∈ (eltDims n e wf).scatterDimsToOperandDims from List.mem_singleton.mpr rfl)]
  have hsi : (eltDims n e wf).siIdx j ⟨List.idxOf (0 : Fin 1) (eltDims n e wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem eltDims_window0 (wf) (j : (⟨1, ![e]⟩ : Shape).Idx) :
    (eltDims n e wf).window j 0 = 0 := by
  unfold ScatterDims.window
  have h : (0 : Fin 1) ∉ (eltDims n e wf).sKept := by
    show (0 : Fin 1) ∉ (List.finRange 1).filter (· ∉ ([0] : List (Fin 1)))
    decide
  rw [dif_neg h]

/-- An element scatter's update element `r` lands at `idx[r, 0]` when the start index names an element, nowhere otherwise. -/
theorem eltDims_resultIdx? (wf) (j : (⟨1, ![e]⟩ : Shape).Idx) (idx : IVec ⟨2, ![e, 1]⟩ w) :
    (eltDims n e wf).resultIdx? j idx = (target n (idx (ix2 (j 0) 0))).map fun r => ix1 r := by
  unfold ScatterDims.resultIdx? target
  by_cases h : 0 ≤ (idx (ix2 (j 0) 0)).toInt ∧ (idx (ix2 (j 0) 0)).toInt < (n : Int)
  · have H : ∀ a : Fin 1, 0 ≤ (eltDims n e wf).start j idx a + ((eltDims n e wf).window j a : Int) ∧
        (eltDims n e wf).start j idx a + ((eltDims n e wf).window j a : Int) < ((⟨1, ![n]⟩ : Shape).size a : Int) := by
      intro a
      obtain rfl : a = 0 := Subsingleton.elim _ _
      rw [eltDims_start0, eltDims_window0]
      show 0 ≤ _ + ((0 : Nat) : Int) ∧ _ + ((0 : Nat) : Int) < (n : Int)
      omega
    rw [dif_pos H, dif_pos h, Option.map_some]
    refine congrArg some (funext fun a => Fin.ext ?_)
    obtain rfl : a = 0 := Subsingleton.elim _ _
    show ((eltDims n e wf).start j idx 0 + ((eltDims n e wf).window j 0 : Int)).toNat = _
    rw [eltDims_start0, eltDims_window0]
    show ((idx (ix2 (j 0) 0)).toInt + ((0 : Nat) : Int)).toNat = (idx (ix2 (j 0) 0)).toInt.toNat
    simp
  · have H : ¬ ∀ a : Fin 1, 0 ≤ (eltDims n e wf).start j idx a + ((eltDims n e wf).window j a : Int) ∧
        (eltDims n e wf).start j idx a + ((eltDims n e wf).window j a : Int) < ((⟨1, ![n]⟩ : Shape).size a : Int) := by
      intro H
      have H0 := H 0
      rw [eltDims_start0, eltDims_window0] at H0
      apply h
      have H0' : 0 ≤ (idx (ix2 (j 0) 0)).toInt + ((0 : Nat) : Int) ∧ (idx (ix2 (j 0) 0)).toInt + ((0 : Nat) : Int) < (n : Int) := H0
      omega
    rw [dif_neg H, dif_neg h]
    rfl

end LandElt

/-! ## Reading the index column and the two-piece arrays at explicit coordinates -/

section Read
variable {α : Type}

/-- An `[e]` array broadcast to a column `[e, 1]` reads, at `(a, u)`, the operand at `a`. -/
theorem bcast_col_apply {e : Nat} (h : (⟨1, ![e]⟩ : Shape).BroadcastsInDim ⟨2, ![e, 1]⟩ ![0]) (x : (⟨1, ![e]⟩ : Shape).Idx → α)
    (a : Fin e) (u : Fin 1) : broadcastInDim ⟨2, ![e, 1]⟩ ![0] h x (ix2 a u) = x (ix1 a) :=
  broadcastInDim_apply _ h x _ (ix1 a) (by
    intro b
    obtain rfl : b = 0 := Subsingleton.elim _ _
    show a.val = if e = 1 then 0 else a.val
    split
    · omega
    · rfl)

/-- Two `[e₁]`, `[e₂]` arrays laid end to end, read in the first piece. -/
theorem concat_elts_left {e₁ e₂ e : Nat} (x₁ : (⟨1, ![e₁]⟩ : Shape).Idx → α) (x₂ : (⟨1, ![e₂]⟩ : Shape).Idx → α)
    (h : Shape.Concatenates [⟨1, ![e₁]⟩, ⟨1, ![e₂]⟩] ⟨1, ![e]⟩ 0) (a : Fin e₁) (ha : a.val < e) :
    concatenate ⟨1, ![e]⟩ 0 [⟨⟨1, ![e₁]⟩, x₁⟩, ⟨⟨1, ![e₂]⟩, x₂⟩] h (ix1 ⟨a.val, ha⟩) = x₁ (ix1 a) :=
  concatenate_pair_apply_left 0 x₁ x₂ h _ rfl (ix1 a) (by
    intro b
    obtain rfl : b = 0 := Subsingleton.elim _ _
    rfl)

/-- Two `[e₁]`, `[e₂]` arrays laid end to end, read in the second piece. -/
theorem concat_elts_right {e₁ e₂ e : Nat} (x₁ : (⟨1, ![e₁]⟩ : Shape).Idx → α) (x₂ : (⟨1, ![e₂]⟩ : Shape).Idx → α)
    (h : Shape.Concatenates [⟨1, ![e₁]⟩, ⟨1, ![e₂]⟩] ⟨1, ![e]⟩ 0) (a : Fin e₂) (ha : e₁ + a.val < e) :
    concatenate ⟨1, ![e]⟩ 0 [⟨⟨1, ![e₁]⟩, x₁⟩, ⟨⟨1, ![e₂]⟩, x₂⟩] h (ix1 ⟨e₁ + a.val, ha⟩) = x₂ (ix1 a) :=
  concatenate_pair_apply_right 0 x₁ x₂ h _ rfl rfl (ix1 a)
    (by
      intro b hb
      obtain rfl : b = 0 := Subsingleton.elim _ _
      exact absurd rfl hb)
    (by
      show a.val + e₁ = e₁ + a.val
      omega)

/-- Two `[e₁, c]`, `[e₂, c]` arrays stacked by rows, read in the first piece. -/
theorem concat_rows_left {e₁ e₂ e c : Nat} (x₁ : (⟨2, ![e₁, c]⟩ : Shape).Idx → α) (x₂ : (⟨2, ![e₂, c]⟩ : Shape).Idx → α)
    (h : Shape.Concatenates [⟨2, ![e₁, c]⟩, ⟨2, ![e₂, c]⟩] ⟨2, ![e, c]⟩ 0) (a : Fin e₁) (ha : a.val < e) (b : Fin c) :
    concatenate ⟨2, ![e, c]⟩ 0 [⟨⟨2, ![e₁, c]⟩, x₁⟩, ⟨⟨2, ![e₂, c]⟩, x₂⟩] h (ix2 ⟨a.val, ha⟩ b) = x₁ (ix2 a b) :=
  concatenate_pair_apply_left 0 x₁ x₂ h _ rfl (ix2 a b) (by
    refine Fin.forall_fin_two.2 ⟨rfl, rfl⟩)

/-- Two `[e₁, c]`, `[e₂, c]` arrays stacked by rows, read in the second piece. -/
theorem concat_rows_right {e₁ e₂ e c : Nat} (x₁ : (⟨2, ![e₁, c]⟩ : Shape).Idx → α) (x₂ : (⟨2, ![e₂, c]⟩ : Shape).Idx → α)
    (h : Shape.Concatenates [⟨2, ![e₁, c]⟩, ⟨2, ![e₂, c]⟩] ⟨2, ![e, c]⟩ 0) (a : Fin e₂) (ha : e₁ + a.val < e) (b : Fin c) :
    concatenate ⟨2, ![e, c]⟩ 0 [⟨⟨2, ![e₁, c]⟩, x₁⟩, ⟨⟨2, ![e₂, c]⟩, x₂⟩] h (ix2 ⟨e₁ + a.val, ha⟩ b) = x₂ (ix2 a b) :=
  concatenate_pair_apply_right 0 x₁ x₂ h _ rfl rfl (ix2 a b)
    (by
      refine Fin.forall_fin_two.2 ⟨fun hb => absurd rfl hb, fun _ => rfl⟩)
    (by
      show a.val + e₁ = e₁ + a.val
      omega)

end Read

/-! ## The exact sum: a scatter-add over two pieces laid end to end -/

section Sum
variable {M : Type*} [AddCommMonoid M]

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → M) : ∑ i, f i = ∑ a : Fin n, f (ix1 a) := by
  rw [← Equiv.sum_comp (idxEquiv1 (n := n)).symm f]
  rfl

/-- A sum over the elements of an `[e₁ + e₂, c]` array is the sum over its first `e₁` rows plus the sum over its last `e₂`. -/
theorem sum_rows_add {e₁ e₂ c : Nat} (g : (⟨2, ![e₁ + e₂, c]⟩ : Shape).Idx → M) :
    ∑ j, g j = (∑ a : Fin e₁, ∑ b : Fin c, g (ix2 (Fin.castAdd e₂ a) b)) + ∑ a : Fin e₂, ∑ b : Fin c, g (ix2 (Fin.natAdd e₁ a) b) := by
  rw [sum_idx2, Fin.sum_univ_add]

/-- A sum over the elements of an `[e₁ + e₂]` array is the sum over its first `e₁` plus the sum over its last `e₂`. -/
theorem sum_elts_add {e₁ e₂ : Nat} (g : (⟨1, ![e₁ + e₂]⟩ : Shape).Idx → M) :
    ∑ j, g j = (∑ a : Fin e₁, g (ix1 (Fin.castAdd e₂ a))) + ∑ a : Fin e₂, g (ix1 (Fin.natAdd e₁ a)) := by
  rw [sum_idx1, Fin.sum_univ_add]

end Sum

section Add
variable {φ : FTy}

/-- The exact scatter-add at an element: the operand's element plus the sum of the updates landing on it. -/
theorem scatterAdd_apply {s si u : Shape} {w : Nat} (d : ScatterDims s si u) (x : FVec Ideal s φ) (idx : IVec si w)
    (upd : FVec Ideal u φ) (i : s.Idx) :
    Host.scatterAdd d x idx upd i = x i + ∑ j, if d.resultIdx? j idx = some i then upd j else 0 := by
  show x i + ∑ j ∈ Finset.univ.filter (fun j => d.resultIdx? j idx = some i), upd j = _
  rw [Finset.sum_filter]

/-- ROWS. A row scatter-add whose `e = e₁ + e₂` index and update rows are those of one pair of arrays followed by those of
    another is the sum of the two pairs' scatter-adds, the operand split as a sum likewise. -/
theorem scatterAdd_rows_split {n c e₁ e₂ e w : Nat} (he : e = e₁ + e₂)
    (wf : ScatterDims.WF ⟨2, ![n, c]⟩ ⟨2, ![e, 1]⟩ ⟨2, ![e, c]⟩ [1] [0] [0] 1)
    (wf₁ : ScatterDims.WF ⟨2, ![n, c]⟩ ⟨2, ![e₁, 1]⟩ ⟨2, ![e₁, c]⟩ [1] [0] [0] 1)
    (wf₂ : ScatterDims.WF ⟨2, ![n, c]⟩ ⟨2, ![e₂, 1]⟩ ⟨2, ![e₂, c]⟩ [1] [0] [0] 1)
    (x x₁ x₂ : FVec Ideal ⟨2, ![n, c]⟩ φ) (hx : ∀ i, x i = x₁ i + x₂ i)
    (idx : IVec ⟨2, ![e, 1]⟩ w) (idx₁ : IVec ⟨2, ![e₁, 1]⟩ w) (idx₂ : IVec ⟨2, ![e₂, 1]⟩ w)
    (h₁ : ∀ a : Fin e₁, idx (ix2 ⟨a.val, by omega⟩ 0) = idx₁ (ix2 a 0))
    (h₂ : ∀ a : Fin e₂, idx (ix2 ⟨e₁ + a.val, by omega⟩ 0) = idx₂ (ix2 a 0))
    (upd : FVec Ideal ⟨2, ![e, c]⟩ φ) (upd₁ : FVec Ideal ⟨2, ![e₁, c]⟩ φ) (upd₂ : FVec Ideal ⟨2, ![e₂, c]⟩ φ)
    (hu₁ : ∀ (a : Fin e₁) (b : Fin c), upd (ix2 ⟨a.val, by omega⟩ b) = upd₁ (ix2 a b))
    (hu₂ : ∀ (a : Fin e₂) (b : Fin c), upd (ix2 ⟨e₁ + a.val, by omega⟩ b) = upd₂ (ix2 a b)) :
    Host.scatterAdd (rowDims n c e wf) x idx upd
      = addf (Host.scatterAdd (rowDims n c e₁ wf₁) x₁ idx₁ upd₁) (Host.scatterAdd (rowDims n c e₂ wf₂) x₂ idx₂ upd₂) := by
  subst he
  funext i
  rw [addf_apply, scatterAdd_apply, scatterAdd_apply, scatterAdd_apply, hx i, sum_rows_add, sum_idx2, sum_idx2,
    add_add_add_comm]
  refine congrArg₂ (· + ·) (congrArg (x₁ i + ·) ?_) (congrArg (x₂ i + ·) ?_)
  · refine Finset.sum_congr rfl fun a _ => Finset.sum_congr rfl fun b _ => ?_
    rw [rowDims_resultIdx?, rowDims_resultIdx?]
    show (if (target n (idx (ix2 (Fin.castAdd e₂ a) 0))).map (fun r => ix2 r b) = some i then upd (ix2 (Fin.castAdd e₂ a) b) else 0)
      = if (target n (idx₁ (ix2 a 0))).map (fun r => ix2 r b) = some i then upd₁ (ix2 a b) else 0
    rw [show idx (ix2 (Fin.castAdd e₂ a) 0) = idx₁ (ix2 a 0) from h₁ a,
      show upd (ix2 (Fin.castAdd e₂ a) b) = upd₁ (ix2 a b) from hu₁ a b]
  · refine Finset.sum_congr rfl fun a _ => Finset.sum_congr rfl fun b _ => ?_
    rw [rowDims_resultIdx?, rowDims_resultIdx?]
    show (if (target n (idx (ix2 (Fin.natAdd e₁ a) 0))).map (fun r => ix2 r b) = some i then upd (ix2 (Fin.natAdd e₁ a) b) else 0)
      = if (target n (idx₂ (ix2 a 0))).map (fun r => ix2 r b) = some i then upd₂ (ix2 a b) else 0
    rw [show idx (ix2 (Fin.natAdd e₁ a) 0) = idx₂ (ix2 a 0) from h₂ a,
      show upd (ix2 (Fin.natAdd e₁ a) b) = upd₂ (ix2 a b) from hu₂ a b]

/-- ELEMENTS. The same for an element scatter-add: `e = e₁ + e₂` index rows and update elements, the first `e₁` those of one
    pair of arrays and the last `e₂` those of another. -/
theorem scatterAdd_elts_split {n e₁ e₂ e w : Nat} (he : e = e₁ + e₂)
    (wf : ScatterDims.WF ⟨1, ![n]⟩ ⟨2, ![e, 1]⟩ ⟨1, ![e]⟩ [] [0] [0] 1)
    (wf₁ : ScatterDims.WF ⟨1, ![n]⟩ ⟨2, ![e₁, 1]⟩ ⟨1, ![e₁]⟩ [] [0] [0] 1)
    (wf₂ : ScatterDims.WF ⟨1, ![n]⟩ ⟨2, ![e₂, 1]⟩ ⟨1, ![e₂]⟩ [] [0] [0] 1)
    (x x₁ x₂ : FVec Ideal ⟨1, ![n]⟩ φ) (hx : ∀ i, x i = x₁ i + x₂ i)
    (idx : IVec ⟨2, ![e, 1]⟩ w) (idx₁ : IVec ⟨2, ![e₁, 1]⟩ w) (idx₂ : IVec ⟨2, ![e₂, 1]⟩ w)
    (h₁ : ∀ a : Fin e₁, idx (ix2 ⟨a.val, by omega⟩ 0) = idx₁ (ix2 a 0))
    (h₂ : ∀ a : Fin e₂, idx (ix2 ⟨e₁ + a.val, by omega⟩ 0) = idx₂ (ix2 a 0))
    (upd : FVec Ideal ⟨1, ![e]⟩ φ) (upd₁ : FVec Ideal ⟨1, ![e₁]⟩ φ) (upd₂ : FVec Ideal ⟨1, ![e₂]⟩ φ)
    (hu₁ : ∀ a : Fin e₁, upd (ix1 ⟨a.val, by omega⟩) = upd₁ (ix1 a))
    (hu₂ : ∀ a : Fin e₂, upd (ix1 ⟨e₁ + a.val, by omega⟩) = upd₂ (ix1 a)) :
    Host.scatterAdd (eltDims n e wf) x idx upd
      = addf (Host.scatterAdd (eltDims n e₁ wf₁) x₁ idx₁ upd₁) (Host.scatterAdd (eltDims n e₂ wf₂) x₂ idx₂ upd₂) := by
  subst he
  funext i
  rw [addf_apply, scatterAdd_apply, scatterAdd_apply, scatterAdd_apply, hx i, sum_elts_add, sum_idx1, sum_idx1,
    add_add_add_comm]
  refine congrArg₂ (· + ·) (congrArg (x₁ i + ·) ?_) (congrArg (x₂ i + ·) ?_)
  · refine Finset.sum_congr rfl fun a _ => ?_
    rw [eltDims_resultIdx?, eltDims_resultIdx?]
    show (if (target n (idx (ix2 (Fin.castAdd e₂ a) 0))).map (fun r => ix1 r) = some i then upd (ix1 (Fin.castAdd e₂ a)) else 0)
      = if (target n (idx₁ (ix2 a 0))).map (fun r => ix1 r) = some i then upd₁ (ix1 a) else 0
    rw [show idx (ix2 (Fin.castAdd e₂ a) 0) = idx₁ (ix2 a 0) from h₁ a,
      show upd (ix1 (Fin.castAdd e₂ a)) = upd₁ (ix1 a) from hu₁ a]
  · refine Finset.sum_congr rfl fun a _ => ?_
    rw [eltDims_resultIdx?, eltDims_resultIdx?]
    show (if (target n (idx (ix2 (Fin.natAdd e₁ a) 0))).map (fun r => ix1 r) = some i then upd (ix1 (Fin.natAdd e₁ a)) else 0)
      = if (target n (idx₂ (ix2 a 0))).map (fun r => ix1 r) = some i then upd₂ (ix1 a) else 0
    rw [show idx (ix2 (Fin.natAdd e₁ a) 0) = idx₂ (ix2 a 0) from h₂ a,
      show upd (ix1 (Fin.natAdd e₁ a)) = upd₂ (ix1 a) from hu₂ a]

end Add

/-! ## A scatter by an associative operation over two pieces laid end to end -/

section Fold
variable {α κ : Type} [DecidableEq κ]

/-- One step of a scatter by `f`: the update `v` bound for element `i` replaces that element by `f old v`; an update bound
    for no element changes nothing. -/
def step (f : α → α → α) (r : κ → α) (t : Option κ × α) : κ → α :=
  match t.1 with
  | some i => fun i' => if i' = i then f (r i) t.2 else r i'
  | none => r

/-- For an associative `f`: if `y` is `f y₀ x` element by element, then folding a list of updates from `y` is `f y₀` of folding
    it from `x`, element by element. -/
theorem foldl_step_assoc (f : α → α → α) (hf : ∀ a b c, f (f a b) c = f a (f b c)) (L : List (Option κ × α)) :
    ∀ x y y₀ : κ → α, (∀ p, y p = f (y₀ p) (x p)) → ∀ p, L.foldl (step f) y p = f (y₀ p) (L.foldl (step f) x p) := by
  induction L with
  | nil => intro x y y₀ h p; exact h p
  | cons t L ih =>
    intro x y y₀ h p
    rw [List.foldl_cons, List.foldl_cons]
    refine ih (step f x t) (step f y t) y₀ (fun q => ?_) p
    obtain ⟨o, v⟩ := t
    cases o with
    | none => exact h q
    | some i =>
      show (if q = i then f (y i) v else y q) = f (y₀ q) (if q = i then f (x i) v else x q)
      by_cases hq : q = i
      · subst hq
        rw [if_pos rfl, if_pos rfl, h q, hf]
      · rw [if_neg hq, if_neg hq, h q]

/-- The scatter as the fold of `step` over its updates in row-major order, each with the element it is bound for. -/
theorem scatter_eq_foldl {s si u : Shape} {w : Nat} (d : ScatterDims s si u) (f : α → α → α) (x : s.Idx → α)
    (idx : IVec si w) (upd : u.Idx → α) :
    Host.scatter d f x idx upd
      = ((List.finRange u.numel).map fun n => (d.resultIdx? (u.rowMajor.symm n) idx, upd (u.rowMajor.symm n))).foldl
          (step f) x := by
  rw [List.foldl_map]
  unfold Host.scatter
  refine congrArg (fun g => List.foldl g x (List.finRange u.numel)) (funext fun r => funext fun m => ?_)
  show _ = step f r (d.resultIdx? (u.rowMajor.symm m) idx, upd (u.rowMajor.symm m))
  unfold step
  generalize d.resultIdx? (u.rowMajor.symm m) idx = o
  cases o with
  | none => rfl
  | some i =>
    funext i'
    show (if i' = i then _ else _) = (if i' = i then _ else _)
    by_cases h : i' = i
    · simp only [if_pos h]
    · simp only [if_neg h]

/-- The row-major enumeration of an `[e]` array's indices is the enumeration of its coordinate. -/
theorem map_finRange_numel_rank1 {β : Type} {e : Nat} (g : (⟨1, ![e]⟩ : Shape).Idx → β) :
    ((List.finRange (⟨1, ![e]⟩ : Shape).numel).map fun n => g ((⟨1, ![e]⟩ : Shape).rowMajor.symm n))
      = List.ofFn fun a : Fin e => g (ix1 a) := by
  have hn : (⟨1, ![e]⟩ : Shape).numel = e := Shape.numel_rank1 _
  apply List.ext_getElem
  · simp [hn]
  · intro k h1 h2
    simp only [List.getElem_map, List.getElem_finRange, List.getElem_ofFn]
    refine congrArg g ?_
    rw [Equiv.symm_apply_eq]
    refine Fin.ext ?_
    rw [Shape.rowMajor_val_one]
    rfl

/-- ELEMENTS. An element scatter by an associative `f` from the constant array of a right identity `z` of `f`, whose
    `e = e₁ + e₂` index rows and update elements are those of one pair of arrays followed by those of another, is `f` of
    the two pairs' scatters, element by element. -/
theorem scatter_elts_split {n e₁ e₂ e w : Nat} (he : e = e₁ + e₂)
    (wf : ScatterDims.WF ⟨1, ![n]⟩ ⟨2, ![e, 1]⟩ ⟨1, ![e]⟩ [] [0] [0] 1)
    (wf₁ : ScatterDims.WF ⟨1, ![n]⟩ ⟨2, ![e₁, 1]⟩ ⟨1, ![e₁]⟩ [] [0] [0] 1)
    (wf₂ : ScatterDims.WF ⟨1, ![n]⟩ ⟨2, ![e₂, 1]⟩ ⟨1, ![e₂]⟩ [] [0] [0] 1)
    (f : α → α → α) (hf : ∀ a b c, f (f a b) c = f a (f b c)) (z : α) (hz : ∀ a, f a z = a)
    (x x₁ x₂ : (⟨1, ![n]⟩ : Shape).Idx → α) (hx : ∀ p, x p = z) (hx₁ : ∀ p, x₁ p = z) (hx₂ : ∀ p, x₂ p = z)
    (idx : IVec ⟨2, ![e, 1]⟩ w) (idx₁ : IVec ⟨2, ![e₁, 1]⟩ w) (idx₂ : IVec ⟨2, ![e₂, 1]⟩ w)
    (h₁ : ∀ a : Fin e₁, idx (ix2 ⟨a.val, by omega⟩ 0) = idx₁ (ix2 a 0))
    (h₂ : ∀ a : Fin e₂, idx (ix2 ⟨e₁ + a.val, by omega⟩ 0) = idx₂ (ix2 a 0))
    (upd : (⟨1, ![e]⟩ : Shape).Idx → α) (upd₁ : (⟨1, ![e₁]⟩ : Shape).Idx → α) (upd₂ : (⟨1, ![e₂]⟩ : Shape).Idx → α)
    (hu₁ : ∀ a : Fin e₁, upd (ix1 ⟨a.val, by omega⟩) = upd₁ (ix1 a))
    (hu₂ : ∀ a : Fin e₂, upd (ix1 ⟨e₁ + a.val, by omega⟩) = upd₂ (ix1 a)) (p : (⟨1, ![n]⟩ : Shape).Idx) :
    Host.scatter (eltDims n e wf) f x idx upd p
      = f (Host.scatter (eltDims n e₁ wf₁) f x₁ idx₁ upd₁ p) (Host.scatter (eltDims n e₂ wf₂) f x₂ idx₂ upd₂ p) := by
  subst he
  obtain rfl : x = fun _ => z := funext hx
  obtain rfl : x₁ = fun _ => z := funext hx₁
  obtain rfl : x₂ = fun _ => z := funext hx₂
  rw [scatter_eq_foldl, scatter_eq_foldl, scatter_eq_foldl,
    map_finRange_numel_rank1 (fun j => ((eltDims n (e₁ + e₂) wf).resultIdx? j idx, upd j)),
    map_finRange_numel_rank1 (fun j => ((eltDims n e₁ wf₁).resultIdx? j idx₁, upd₁ j)),
    map_finRange_numel_rank1 (fun j => ((eltDims n e₂ wf₂).resultIdx? j idx₂, upd₂ j)),
    List.ofFn_add, List.foldl_append]
  have e1 : (List.ofFn fun i : Fin e₁ => ((eltDims n (e₁ + e₂) wf).resultIdx? (ix1 (i.castLE (Nat.le_add_right e₁ e₂))) idx,
        upd (ix1 (i.castLE (Nat.le_add_right e₁ e₂)))))
      = List.ofFn fun a : Fin e₁ => ((eltDims n e₁ wf₁).resultIdx? (ix1 a) idx₁, upd₁ (ix1 a)) := by
    refine congrArg List.ofFn (funext fun a => ?_)
    rw [eltDims_resultIdx?, eltDims_resultIdx?]
    exact congrArg₂ Prod.mk (congrArg (fun v => (target n v).map fun r => ix1 r) (h₁ a)) (hu₁ a)
  have e2 : (List.ofFn fun i : Fin e₂ => ((eltDims n (e₁ + e₂) wf).resultIdx? (ix1 (i.natAdd e₁)) idx, upd (ix1 (i.natAdd e₁))))
      = List.ofFn fun a : Fin e₂ => ((eltDims n e₂ wf₂).resultIdx? (ix1 a) idx₂, upd₂ (ix1 a)) := by
    refine congrArg List.ofFn (funext fun a => ?_)
    rw [eltDims_resultIdx?, eltDims_resultIdx?]
    exact congrArg₂ Prod.mk (congrArg (fun v => (target n v).map fun r => ix1 r) (h₂ a)) (hu₂ a)
  rw [e1, e2]
  exact foldl_step_assoc f hf _ (fun _ => z) _ _ (fun q => (hz _).symm) p

end Fold

/-! ## The signed maximum -/

section MaxSI
variable {w : Nat}

theorem maxsi_assoc (a b c : BitVec w) : IntOp.maxsi (IntOp.maxsi a b) c = IntOp.maxsi a (IntOp.maxsi b c) := by
  unfold IntOp.maxsi
  simp only [BitVec.slt_eq_decide]
  by_cases h1 : b.toInt < a.toInt <;> by_cases h2 : c.toInt < b.toInt <;> by_cases h3 : c.toInt < a.toInt <;>
    simp [h1, h2, h3] <;> omega

/-- The least signed integer is a right identity of the signed maximum. -/
theorem maxsi_intMin (a : BitVec w) : IntOp.maxsi a (BitVec.intMin w) = a := by
  unfold IntOp.maxsi
  rw [BitVec.slt_eq_decide]
  by_cases h : (BitVec.intMin w).toInt < a.toInt
  · simp [h]
  · have hle := BitVec.toInt_intMin_le a
    have : a.toInt = (BitVec.intMin w).toInt := by omega
    simp only [h, decide_false, Bool.false_eq_true, if_false]
    exact (BitVec.toInt_inj.1 this).symm

end MaxSI

/-! ## The identities with the index column written as the broadcast of two index arrays laid end to end -/

section Concat
variable {φ : FTy} {α : Type}

/-- The index column of two index arrays laid end to end reads, in its first `e₁` rows, the first array's column. -/
theorem bcast_concat_left {e₁ e₂ e w : Nat} (he : e = e₁ + e₂)
    (hb : (⟨1, ![e]⟩ : Shape).BroadcastsInDim ⟨2, ![e, 1]⟩ ![0]) (hb₁ : (⟨1, ![e₁]⟩ : Shape).BroadcastsInDim ⟨2, ![e₁, 1]⟩ ![0])
    (hc : Shape.Concatenates [⟨1, ![e₁]⟩, ⟨1, ![e₂]⟩] ⟨1, ![e]⟩ 0) (src : IVec ⟨1, ![e₁]⟩ w) (dst : IVec ⟨1, ![e₂]⟩ w) (a : Fin e₁) :
    broadcastInDim ⟨2, ![e, 1]⟩ ![0] hb (concatenate ⟨1, ![e]⟩ 0 [⟨⟨1, ![e₁]⟩, src⟩, ⟨⟨1, ![e₂]⟩, dst⟩] hc) (ix2 ⟨a.val, by omega⟩ 0)
      = broadcastInDim ⟨2, ![e₁, 1]⟩ ![0] hb₁ src (ix2 a 0) := by
  rw [bcast_col_apply, bcast_col_apply, concat_elts_left]

/-- … and in its last `e₂` rows the second array's column. -/
theorem bcast_concat_right {e₁ e₂ e w : Nat} (he : e = e₁ + e₂)
    (hb : (⟨1, ![e]⟩ : Shape).BroadcastsInDim ⟨2, ![e, 1]⟩ ![0]) (hb₂ : (⟨1, ![e₂]⟩ : Shape).BroadcastsInDim ⟨2, ![e₂, 1]⟩ ![0])
    (hc : Shape.Concatenates [⟨1, ![e₁]⟩, ⟨1, ![e₂]⟩] ⟨1, ![e]⟩ 0) (src : IVec ⟨1, ![e₁]⟩ w) (dst : IVec ⟨1, ![e₂]⟩ w) (a : Fin e₂) :
    broadcastInDim ⟨2, ![e, 1]⟩ ![0] hb (concatenate ⟨1, ![e]⟩ 0 [⟨⟨1, ![e₁]⟩, src⟩, ⟨⟨1, ![e₂]⟩, dst⟩] hc) (ix2 ⟨e₁ + a.val, by omega⟩ 0)
      = broadcastInDim ⟨2, ![e₂, 1]⟩ ![0] hb₂ dst (ix2 a 0) := by
  rw [bcast_col_apply, bcast_col_apply, concat_elts_right]

/-- ROWS, the messages: scattering the stacked update rows at the concatenated indices is the sum of scattering each
    piece at its own indices. -/
theorem scatterAdd_rows_concat {n c e₁ e₂ e w : Nat} (he : e = e₁ + e₂)
    (wf : ScatterDims.WF ⟨2, ![n, c]⟩ ⟨2, ![e, 1]⟩ ⟨2, ![e, c]⟩ [1] [0] [0] 1)
    (wf₁ : ScatterDims.WF ⟨2, ![n, c]⟩ ⟨2, ![e₁, 1]⟩ ⟨2, ![e₁, c]⟩ [1] [0] [0] 1)
    (wf₂ : ScatterDims.WF ⟨2, ![n, c]⟩ ⟨2, ![e₂, 1]⟩ ⟨2, ![e₂, c]⟩ [1] [0] [0] 1)
    (hb : (⟨1, ![e]⟩ : Shape).BroadcastsInDim ⟨2, ![e, 1]⟩ ![0]) (hb₁ : (⟨1, ![e₁]⟩ : Shape).BroadcastsInDim ⟨2, ![e₁, 1]⟩ ![0])
    (hb₂ : (⟨1, ![e₂]⟩ : Shape).BroadcastsInDim ⟨2, ![e₂, 1]⟩ ![0])
    (hc : Shape.Concatenates [⟨1, ![e₁]⟩, ⟨1, ![e₂]⟩] ⟨1, ![e]⟩ 0)
    (hcu : Shape.Concatenates [⟨2, ![e₁, c]⟩, ⟨2, ![e₂, c]⟩] ⟨2, ![e, c]⟩ 0)
    (x x₁ x₂ : FVec Ideal ⟨2, ![n, c]⟩ φ) (hx : ∀ i, x i = x₁ i + x₂ i)
    (src : IVec ⟨1, ![e₁]⟩ w) (dst : IVec ⟨1, ![e₂]⟩ w) (ms : FVec Ideal ⟨2, ![e₁, c]⟩ φ) (md : FVec Ideal ⟨2, ![e₂, c]⟩ φ) :
    Host.scatterAdd (rowDims n c e wf) x
        (broadcastInDim ⟨2, ![e, 1]⟩ ![0] hb (concatenate ⟨1, ![e]⟩ 0 [⟨⟨1, ![e₁]⟩, src⟩, ⟨⟨1, ![e₂]⟩, dst⟩] hc))
        (concatenate ⟨2, ![e, c]⟩ 0 [⟨⟨2, ![e₁, c]⟩, ms⟩, ⟨⟨2, ![e₂, c]⟩, md⟩] hcu)
      = addf (Host.scatterAdd (rowDims n c e₁ wf₁) x₁ (broadcastInDim ⟨2, ![e₁, 1]⟩ ![0] hb₁ src) ms)
          (Host.scatterAdd (rowDims n c e₂ wf₂) x₂ (broadcastInDim ⟨2, ![e₂, 1]⟩ ![0] hb₂ dst) md) :=
  scatterAdd_rows_split he wf wf₁ wf₂ x x₁ x₂ hx _ _ _
    (fun a => bcast_concat_left he hb hb₁ hc src dst a) (fun a => bcast_concat_right he hb hb₂ hc src dst a) _ _ _
    (fun a b => concat_rows_left ms md hcu a _ b) (fun a b => concat_rows_right ms md hcu a _ b)

/-- ELEMENTS, the counts: scattering update elements at the concatenated indices is the sum of scattering each half of
    them at its own indices (`hu₁`, `hu₂`: the first `e₁` update elements are the first piece's, the last `e₂` the second's —
    so for three constant arrays of one value). -/
theorem scatterAdd_elts_concat {n e₁ e₂ e w : Nat} (he : e = e₁ + e₂)
    (wf : ScatterDims.WF ⟨1, ![n]⟩ ⟨2, ![e, 1]⟩ ⟨1, ![e]⟩ [] [0] [0] 1)
    (wf₁ : ScatterDims.WF ⟨1, ![n]⟩ ⟨2, ![e₁, 1]⟩ ⟨1, ![e₁]⟩ [] [0] [0] 1)
    (wf₂ : ScatterDims.WF ⟨1, ![n]⟩ ⟨2, ![e₂, 1]⟩ ⟨1, ![e₂]⟩ [] [0] [0] 1)
    (hb : (⟨1, ![e]⟩ : Shape).BroadcastsInDim ⟨2, ![e, 1]⟩ ![0]) (hb₁ : (⟨1, ![e₁]⟩ : Shape).BroadcastsInDim ⟨2, ![e₁, 1]⟩ ![0])
    (hb₂ : (⟨1, ![e₂]⟩ : Shape).BroadcastsInDim ⟨2, ![e₂, 1]⟩ ![0])
    (hc : Shape.Concatenates [⟨1, ![e₁]⟩, ⟨1, ![e₂]⟩] ⟨1, ![e]⟩ 0)
    (x x₁ x₂ : FVec Ideal ⟨1, ![n]⟩ φ) (hx : ∀ i, x i = x₁ i + x₂ i)
    (src : IVec ⟨1, ![e₁]⟩ w) (dst : IVec ⟨1, ![e₂]⟩ w)
    (upd : FVec Ideal ⟨1, ![e]⟩ φ) (upd₁ : FVec Ideal ⟨1, ![e₁]⟩ φ) (upd₂ : FVec Ideal ⟨1, ![e₂]⟩ φ)
    (hu₁ : ∀ a : Fin e₁, upd (ix1 ⟨a.val, by omega⟩) = upd₁ (ix1 a))
    (hu₂ : ∀ a : Fin e₂, upd (ix1 ⟨e₁ + a.val, by omega⟩) = upd₂ (ix1 a)) :
    Host.scatterAdd (eltDims n e wf) x
        (broadcastInDim ⟨2, ![e, 1]⟩ ![0] hb (concatenate ⟨1, ![e]⟩ 0 [⟨⟨1, ![e₁]⟩, src⟩, ⟨⟨1, ![e₂]⟩, dst⟩] hc)) upd
      = addf (Host.scatterAdd (eltDims n e₁ wf₁) x₁ (broadcastInDim ⟨2, ![e₁, 1]⟩ ![0] hb₁ src) upd₁)
          (Host.scatterAdd (eltDims n e₂ wf₂) x₂ (broadcastInDim ⟨2, ![e₂, 1]⟩ ![0] hb₂ dst) upd₂) :=
  scatterAdd_elts_split he wf wf₁ wf₂ x x₁ x₂ hx _ _ _
    (fun a => bcast_concat_left he hb hb₁ hc src dst a) (fun a => bcast_concat_right he hb hb₂ hc src dst a) _ _ _ hu₁ hu₂

/-- ELEMENTS, an associative operation: scattering the concatenated updates at the concatenated indices from the
    constant array of a right identity is `f` of the two pieces' scatters, element by element. -/
theorem scatter_elts_concat {n e₁ e₂ e w : Nat} (he : e = e₁ + e₂)
    (wf : ScatterDims.WF ⟨1, ![n]⟩ ⟨2, ![e, 1]⟩ ⟨1, ![e]⟩ [] [0] [0] 1)
    (wf₁ : ScatterDims.WF ⟨1, ![n]⟩ ⟨2, ![e₁, 1]⟩ ⟨1, ![e₁]⟩ [] [0] [0] 1)
    (wf₂ : ScatterDims.WF ⟨1, ![n]⟩ ⟨2, ![e₂, 1]⟩ ⟨1, ![e₂]⟩ [] [0] [0] 1)
    (hb : (⟨1, ![e]⟩ : Shape).BroadcastsInDim ⟨2, ![e, 1]⟩ ![0]) (hb₁ : (⟨1, ![e₁]⟩ : Shape).BroadcastsInDim ⟨2, ![e₁, 1]⟩ ![0])
    (hb₂ : (⟨1, ![e₂]⟩ : Shape).BroadcastsInDim ⟨2, ![e₂, 1]⟩ ![0])
    (hc : Shape.Concatenates [⟨1, ![e₁]⟩, ⟨1, ![e₂]⟩] ⟨1, ![e]⟩ 0)
    (f : α → α → α) (hf : ∀ a b c, f (f a b) c = f a (f b c)) (z : α) (hz : ∀ a, f a z = a)
    (x x₁ x₂ : (⟨1, ![n]⟩ : Shape).Idx → α) (hx : ∀ p, x p = z) (hx₁ : ∀ p, x₁ p = z) (hx₂ : ∀ p, x₂ p = z)
    (src : IVec ⟨1, ![e₁]⟩ w) (dst : IVec ⟨1, ![e₂]⟩ w)
    (u₁ : (⟨1, ![e₁]⟩ : Shape).Idx → α) (u₂ : (⟨1, ![e₂]⟩ : Shape).Idx → α) (p : (⟨1, ![n]⟩ : Shape).Idx) :
    Host.scatter (eltDims n e wf) f x
        (broadcastInDim ⟨2, ![e, 1]⟩ ![0] hb (concatenate ⟨1, ![e]⟩ 0 [⟨⟨1, ![e₁]⟩, src⟩, ⟨⟨1, ![e₂]⟩, dst⟩] hc))
        (concatenate ⟨1, ![e]⟩ 0 [⟨⟨1, ![e₁]⟩, u₁⟩, ⟨⟨1, ![e₂]⟩, u₂⟩] hc) p
      = f (Host.scatter (eltDims n e₁ wf₁) f x₁ (broadcastInDim ⟨2, ![e₁, 1]⟩ ![0] hb₁ src) u₁ p)
          (Host.scatter (eltDims n e₂ wf₂) f x₂ (broadcastInDim ⟨2, ![e₂, 1]⟩ ![0] hb₂ dst) u₂ p) :=
  scatter_elts_split he wf wf₁ wf₂ f hf z hz x x₁ x₂ hx hx₁ hx₂ _ _ _
    (fun a => bcast_concat_left he hb hb₁ hc src dst a) (fun a => bcast_concat_right he hb hb₂ hc src dst a) _ _ _
    (fun a => concat_elts_left u₁ u₂ hc a _) (fun a => concat_elts_right u₁ u₂ hc a _) p

end Concat

/-! ## A scatter-add of ones counts -/

section Count
variable {φ : FTy}

/-- A sum of ones over a finite set is the set's size, a natural number read as an extended real. -/
theorem sum_ones_eq_card {ι : Type*} (S : Finset ι) : ∑ _j ∈ S, (1 : EReal) = ((S.card : ℝ) : EReal) := by
  classical
  induction S using Finset.induction_on with
  | empty => simp
  | insert a S ha ih =>
    rw [Finset.sum_insert ha, ih, Finset.card_insert_of_notMem ha, Nat.cast_add, Nat.cast_one, EReal.coe_add, EReal.coe_one,
      add_comm]

/-- A scatter-add of the constant 1 into zeros is, at every element, the number of updates landing there. -/
theorem scatterAdd_ones_nat {s si u : Shape} {w : Nat} (d : ScatterDims s si u) (x : FVec Ideal s φ) (hx : ∀ i, x i = 0)
    (idx : IVec si w) (upd : FVec Ideal u φ) (hu : ∀ j, upd j = 1) (i : s.Idx) :
    ∃ k : ℕ, Host.scatterAdd d x idx upd i = ((k : ℝ) : EReal) := by
  refine ⟨(Finset.univ.filter fun j => d.resultIdx? j idx = some i).card, ?_⟩
  show x i + ∑ j ∈ Finset.univ.filter (fun j => d.resultIdx? j idx = some i), upd j = _
  rw [hx i, zero_add, Finset.sum_congr rfl (fun j _ => hu j), sum_ones_eq_card]

end Count

end Cert.ScatterSplit

end
-- ==== Proof.LibGatherRows.lean ====
/-
  Taking whole rows of a matrix by a column of row indices (what `x[idx]` of an `[N, C]` array at an integer vector of
  length `E` lowers to: a gather with the indices laid out as `[E, 1]`), read at an entry: result entry `(r, k)` is the
  matrix's entry `(row, k)`, the row being the index word `idx[r, 0]` read as a signed integer and clamped into
  `[0, N − 1]`; when the word already names a row, that row. Any extents.
-/
import Idealize.ShloMosaic.PureOps.Ideal
import Idealize.ShloMosaic.Lib.ValueIdx
import Idealize.ShloMosaic.Lib.Pipeline.Value

noncomputable section

namespace Cert.GatherRows

open Idealize.ShloMosaic Idealize.ShloMosaic.ValueIdx

variable {α : Type}

/-- The dimension numbers of a row gather: operand `[N, C]`, start indices `[E, 1]`, result `[E, C]`; the result's axis 1
    is the offset into the row, operand axis 0 is collapsed and named by the one index component, whole rows are taken. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, k)`: the operand's entry `(row, k)`, the row the start index `idx[r, 0]` read signed and
    clamped into `[0, N − 1]`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (r : Fin E) (k : Fin C) :
    Host.gather (rowDims N C E wf) x idx (ix2 r k)
      = x (ix2 ⟨min (idx (ix2 r (0 : Fin 1))).toInt.toNat (N - 1), by omega⟩ k) := by
  unfold Host.gather
  congr 1
  funext a
  refine Fin.ext ?_
  match a with
  | ⟨0, _⟩ =>
    show (rowDims N C E wf).start (ix2 r k) idx 0 + (rowDims N C E wf).batchCoord (ix2 r k) 0
      + (rowDims N C E wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 r k) ⟨List.idxOf (0 : Fin 2) (rowDims N C E wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C E wf).start (ix2 r k) idx 1 + (rowDims N C E wf).batchCoord (ix2 r k) 1
      + (rowDims N C E wf).offCoord (ix2 r k) 1 = k.val
    rw [GatherDims.batchCoord_eq_zero _ _ _ List.not_mem_nil]
    unfold GatherDims.start
    rw [dif_neg (show (1 : Fin 2) ∉ ([0] : List (Fin 2)) by decide)]
    have hk : (1 : Fin 2) ∈ (rowDims N C E wf).sKept :=
      (GatherDims.mem_sKept _ _).mpr ⟨(by decide : (1 : Fin 2) ∉ ([0] : List (Fin 2))), List.not_mem_nil⟩
    unfold GatherDims.offCoord
    rw [dif_pos hk]
    simp only [Nat.zero_add, Nat.add_zero]
    rfl

/-- When the start index already names a row `p`, the clamp does nothing. -/
theorem gather_rows_apply_of_inRange {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (r : Fin E) (k : Fin C) (p : Fin N)
    (hp : (idx (ix2 r (0 : Fin 1))).toInt = (p.val : Int)) :
    Host.gather (rowDims N C E wf) x idx (ix2 r k) = x (ix2 p k) := by
  rw [gather_rows_apply hN wf x idx r k]
  refine congrArg x (congrArg (fun q => ix2 q k) (Fin.ext ?_))
  show min (idx (ix2 r (0 : Fin 1))).toInt.toNat (N - 1) = p.val
  rw [hp, Int.toNat_natCast]
  have := p.isLt
  omega

end Cert.GatherRows

end
-- ==== Proof.AggRead.lean ====
/-
  The aggregation and the degree weights read at an index, when every word of the two index rows names a node.

  With s(e), d(e) the nodes the words name:  S(H; a → b)(p, k) = Σ_e [b(e) = p] · H(a(e), k)  (no word is negative, so
  none is wrapped; no row is out of range, so none is clamped on the way in and none is dropped on the way out), hence
    agg H (p, k) = H(p, k) + Σ_e [d(e) = p] H(s(e), k) + Σ_e [s(e) = p] H(d(e), k),
    w(p)         = 1 + Σ_e [d(e) = p] + Σ_e [s(e) = p].
-/
import proofs.«154293_j5291399708984_2_alg».proof.Proof.Spec
import proofs.«154293_j5291399708984_2_alg».proof.Proof.LibScatterSplit
import proofs.«154293_j5291399708984_2_alg».proof.Proof.LibGatherRows
import Idealize.ShloMosaic.Lib.DynamicIndex
import Idealize.ShloMosaic.Lib.IdealHost

noncomputable section

open scoped BigOperators

namespace Cert.Gcn

open Idealize.ShloMosaic Idealize.ShloMosaic.ValueIdx

/-- Every word of an index row names a node. -/
def InRange (s : IVec SE 32) : Prop := ∀ r : Fin 800000, 0 ≤ (s (ix1 r)).toInt ∧ (s (ix1 r)).toInt < 100000

/-- The node a word names. -/
def node (s : IVec SE 32) (hs : InRange s) (r : Fin 800000) : Fin 100000 :=
  ⟨(s (ix1 r)).toInt.toNat, by have := hs r; omega⟩

theorem node_toInt (s : IVec SE 32) (hs : InRange s) (r : Fin 800000) : (s (ix1 r)).toInt = ((node s hs r).val : Int) := by
  have := (hs r).1
  show _ = (((s (ix1 r)).toInt.toNat : Nat) : Int)
  omega

variable (h : Side) (hw : SideW)

theorem bcast_const_E (v : BitVec 32) : broadcastInDim SE ![] h.bE (constantI S0 32 v) = constantI SE 32 v :=
  funext fun j => broadcastInDim_apply _ h.bE _ j ix0 (fun a => a.elim0)

theorem col_apply (s : IVec SE 32) (r : Fin 800000) : col h s (ix2 r (0 : Fin 1)) = s (ix1 r) :=
  ScatterSplit.bcast_col_apply h.bE1 s r 0

theorem wrapCol_apply (s : IVec SE 32) (hs : InRange s) (r : Fin 800000) : wrapCol h s (ix2 r (0 : Fin 1)) = s (ix1 r) := by
  unfold wrapCol
  rw [ScatterSplit.bcast_col_apply, bcast_const_E h, bcast_const_E h]
  exact select_slt_zero_of_nonneg s _ _ (ix1 r) (hs r).1

theorem zeroNF_apply (i : SNF.Idx) : zeroNF h i = 0 := by
  unfold zeroNF
  rewrite [broadcastInDim_apply _ h.bNF _ i ix0 (fun a => a.elim0)]
  exact Ideal.ofBits_zero_f32

/-- A word that names a node is not dropped: it lands on that node. -/
theorem target_node (b : IVec SE 32) (hb : InRange b) (r : Fin 800000) :
    ScatterSplit.target 100000 (b (ix1 r)) = some (node b hb r) := by
  unfold ScatterSplit.target
  have hc : 0 ≤ (b (ix1 r)).toInt ∧ (b (ix1 r)).toInt < ((100000 : Nat) : Int) := by
    have := hb r
    exact ⟨this.1, by exact_mod_cast this.2⟩
  rw [dif_pos hc]
  rfl

/-- Where an update row lands, when its word names a node. -/
theorem lands (b : IVec SE 32) (hb : InRange b) (r : Fin 800000) (k' : Fin 64) :
    (sRows h).resultIdx? (ix2 r k') (col h b) = some (ix2 (node b hb r) k') := by
  rw [show sRows h = ScatterSplit.rowDims 100000 64 800000 h.swf from rfl, ScatterSplit.rowDims_resultIdx?]
  show (ScatterSplit.target 100000 (col h b (ix2 r (0 : Fin 1)))).map _ = _
  rw [col_apply, target_node b hb r]
  rfl

theorem ix2_inj {n0 n1 : Nat} {a a' : Fin n0} {b b' : Fin n1} (e : ix2 a b = ix2 a' b') : a = a' ∧ b = b' :=
  ⟨congrFun e 0, congrFun e 1⟩

/-- S(H; a → b) at `(p, k)`: the rows H(a(e), ·) of the edges with b(e) = p, at column k. -/
theorem pushRows_apply (H : FVec Ideal SNF .f32) (a b : IVec SE 32) (ha : InRange a) (hb : InRange b) (p : Fin 100000) (k : Fin 64) :
    pushRows h H a b (ix2 p k) = ∑ r : Fin 800000, if node b hb r = p then H (ix2 (node a ha r) k) else 0 := by
  unfold pushRows
  rw [ScatterSplit.scatterAdd_apply, zeroNF_apply, zero_add, sum_idx2]
  refine Finset.sum_congr rfl fun r _ => ?_
  have hg : Host.gather (gRows h) H (wrapCol h a) (ix2 r k) = H (ix2 (node a ha r) k) := by
    rw [show gRows h = GatherRows.rowDims 100000 64 800000 h.gwf from rfl]
    exact GatherRows.gather_rows_apply_of_inRange (by decide) h.gwf H (wrapCol h a) r k (node a ha r)
      (by rw [wrapCol_apply h a ha r]; exact node_toInt a ha r)
  by_cases hq : node b hb r = p
  · rw [if_pos hq, ← hg]
    refine (Finset.sum_eq_single k (fun k' _ hk' => ?_) (fun hk => absurd (Finset.mem_univ k) hk)).trans ?_
    · rw [lands h b hb r k', if_neg]
      intro e
      exact hk' (ix2_inj (Option.some.inj e)).2
    · rw [lands h b hb r k, if_pos (by rw [hq])]
  · rw [if_neg hq]
    refine Finset.sum_eq_zero fun k' _ => ?_
    rw [lands h b hb r k', if_neg]
    intro e
    exact hq (ix2_inj (Option.some.inj e)).1

/-- The aggregation at `(p, k)`. -/
theorem agg_apply (H : FVec Ideal SNF .f32) (s d : IVec SE 32) (hs : InRange s) (hd : InRange d) (p : Fin 100000) (k : Fin 64) :
    agg h H s d (ix2 p k) = (H (ix2 p k) + ∑ r : Fin 800000, if node d hd r = p then H (ix2 (node s hs r) k) else 0)
      + ∑ r : Fin 800000, if node s hs r = p then H (ix2 (node d hd r) k) else 0 := by
  show (H (ix2 p k) + pushRows h H s d (ix2 p k)) + pushRows h H d s (ix2 p k) = _
  rw [pushRows_apply h H s d hs hd p k, pushRows_apply h H d s hd hs p k]

/-- Where an update element lands, when its word names a node. -/
theorem landsElt (b : IVec SE 32) (hb : InRange b) (r : Fin 800000) :
    (sElts hw).resultIdx? (ix1 r) (col h b) = some (ix1 (node b hb r)) := by
  rw [show sElts hw = ScatterSplit.eltDims 100000 800000 hw.ewf from rfl, ScatterSplit.eltDims_resultIdx?]
  show (ScatterSplit.target 100000 (col h b (ix2 r (0 : Fin 1)))).map _ = _
  rw [col_apply, target_node b hb r]
  rfl

/-- The number of edges whose word names each node, as a float sum of ones into zeros. -/
def countOnes (b : IVec SE 32) : FVec Ideal SN .f32 :=
  Host.scatterAdd (sElts hw) (broadcastInDim SN ![] hw.bN (constant (F := Ideal) S0 .f32 0x00000000#32)) (col h b)
    (broadcastInDim SE ![] h.bE (constant (F := Ideal) S0 .f32 0x3F800000#32))

/-- The all-ones node vector. -/
def onesN : FVec Ideal SN .f32 := broadcastInDim SN ![] hw.bN (constant (F := Ideal) S0 .f32 0x3F800000#32)

theorem onesN_apply (i : SN.Idx) : onesN hw i = 1 := by
  unfold onesN
  rewrite [broadcastInDim_apply _ hw.bN _ i ix0 (fun a => a.elim0)]
  exact Ideal.ofBits_one_f32

/-- The count at node `p`. -/
theorem countOnes_apply (b : IVec SE 32) (hb : InRange b) (p : Fin 100000) :
    countOnes h hw b (ix1 p) = ∑ r : Fin 800000, if node b hb r = p then (1 : EReal) else 0 := by
  unfold countOnes
  rewrite [ScatterSplit.scatterAdd_apply, ScatterSplit.sum_idx1]
  rewrite [broadcastInDim_apply _ hw.bN _ (ix1 p) ix0 (fun a => a.elim0)]
  rewrite [show constant (F := Ideal) S0 .f32 0x00000000#32 ix0 = 0 from Ideal.ofBits_zero_f32, zero_add]
  refine Finset.sum_congr rfl fun r _ => ?_
  rewrite [landsElt h hw b hb r, broadcastInDim_apply _ h.bE _ (ix1 r) ix0 (fun a => a.elim0)]
  rewrite [show constant (F := Ideal) S0 .f32 0x3F800000#32 ix0 = 1 from Ideal.ofBits_one_f32]
  by_cases hq : node b hb r = p
  · rw [if_pos hq, if_pos (by rw [hq])]
  · rw [if_neg hq, if_neg]
    intro e
    exact hq (congrArg (fun j : SN.Idx => j 0) (Option.some.inj e))

/-- The degree weight of node `p`. -/
theorem wt_apply (s d : IVec SE 32) (hs : InRange s) (hd : InRange d) (p : Fin 100000) :
    wt h hw s d (ix1 p) = (1 + ∑ r : Fin 800000, if node d hd r = p then (1 : EReal) else 0)
      + ∑ r : Fin 800000, if node s hs r = p then (1 : EReal) else 0 := by
  unfold wt
  rewrite [addf_apply, addf_apply]
  show (onesN hw (ix1 p) + countOnes h hw d (ix1 p)) + countOnes h hw s (ix1 p) = _
  rewrite [onesN_apply, countOnes_apply h hw d hd p, countOnes_apply h hw s hs p]
  rfl

/-- A node column spread over the feature axis reads, at `(p, k)`, the column's entry `p`. -/
theorem bcast_N1_NF_apply {α : Type} (x : SN1.Idx → α) (p : Fin 100000) (k : Fin 64) :
    broadcastInDim SNF ![0, 1] hw.bN1F x (ix2 p k) = x (ix2 p (0 : Fin 1)) :=
  broadcastInDim_apply _ hw.bN1F x (ix2 p k) (ix2 p (0 : Fin 1)) (fun a => by
    match a with
    | ⟨0, _⟩ => show p.val = if (100000 : Nat) = 1 then 0 else p.val; rw [if_neg (by decide)]
    | ⟨1, _⟩ => show (0 : Nat) = if (1 : Nat) = 1 then 0 else k.val; rw [if_pos rfl])

/-- A node vector laid out as a column reads, at `(p, 0)`, the vector's entry `p`. -/
theorem bcast_N_N1_apply {α : Type} (x : SN.Idx → α) (p : Fin 100000) :
    broadcastInDim SN1 ![0] hw.bN1 x (ix2 p (0 : Fin 1)) = x (ix1 p) :=
  broadcastInDim_apply _ hw.bN1 x (ix2 p (0 : Fin 1)) (ix1 p) (fun a => by
    match a with
    | ⟨0, _⟩ => show p.val = if (100000 : Nat) = 1 then 0 else p.val; rw [if_neg (by decide)])

/-- A weighted row at `(p, k)`. -/
theorem weighted_apply (H : FVec Ideal SNF .f32) (s d : IVec SE 32) (p : Fin 100000) (k : Fin 64) :
    weighted h hw H s d (ix2 p k) = H (ix2 p k) * wt h hw s d (ix1 p) := by
  unfold weighted
  rewrite [mulf_apply, bcast_N1_NF_apply hw, bcast_N_N1_apply hw]
  rfl

end Cert.Gcn

end
-- ==== Proof.LibDegreeSum.lean ====
/-
  Summing an edge aggregation over all nodes counts every node's row once per incidence.

  For finite sets V (nodes) and E (edges) with endpoint maps S, D : E → V and any x : V → ℝ,
    Σ_v ( x v + Σ_e [D e = v] x (S e) + Σ_e [S e = v] x (D e) )  =  Σ_v x v · (1 + #{e | D e = v} + #{e | S e = v}):
  both sides are Σ_v x v + Σ_e x (S e) + Σ_e x (D e). Consequently the average over V of an affine image of the
  aggregated rows is the affine image of the degree-weighted average of the rows. Also: a real sum read in the
  extended reals is the sum of the terms read there.
-/
import Mathlib.Data.EReal.Basic
import Mathlib.Algebra.BigOperators.Ring.Finset
import Mathlib.Algebra.BigOperators.Group.Finset.Basic
import Mathlib.Algebra.BigOperators.Group.Finset.Sigma
import Mathlib.Tactic.Ring
import Mathlib.Tactic.FieldSimp

open scoped BigOperators

namespace Cert.DegreeSum

/-- A finite real sum read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (c : Prop) [Decidable c] (x : ℝ) : ((if c then x else 0 : ℝ) : EReal) = if c then (x : EReal) else 0 := by
  split <;> simp

variable {V E K : Type} [Fintype V] [Fintype E] [Fintype K] [DecidableEq V]

/-- Summing over the nodes what lands on each node sums over the edges. -/
theorem sum_landing (f : E → V) (y : E → ℝ) : ∑ v, ∑ r, (if f r = v then y r else 0) = ∑ r, y r := by
  rw [Finset.sum_comm]
  refine Finset.sum_congr rfl fun r _ => ?_
  rw [Finset.sum_ite_eq]
  simp

/-- A node's value times the number of edges naming it, summed over the nodes, sums the named values over the edges. -/
theorem sum_counted (f : E → V) (x : V → ℝ) : ∑ v, x v * ∑ r, (if f r = v then (1 : ℝ) else 0) = ∑ r, x (f r) := by
  simp_rw [Finset.mul_sum, mul_ite, mul_one, mul_zero]
  rw [Finset.sum_comm]
  refine Finset.sum_congr rfl fun r _ => ?_
  rw [Finset.sum_ite_eq]
  simp

/-- The aggregation summed over the nodes is the degree-weighted sum. -/
theorem degree_sum (S D : E → V) (x : V → ℝ) :
    ∑ v, (x v + ∑ r, (if D r = v then x (S r) else 0) + ∑ r, (if S r = v then x (D r) else 0))
      = ∑ v, x v * (1 + ∑ r, (if D r = v then (1 : ℝ) else 0) + ∑ r, (if S r = v then (1 : ℝ) else 0)) := by
  simp only [Finset.sum_add_distrib, mul_add, mul_one, sum_landing, sum_counted]
  ring

/-- The average of an affine image of the aggregated rows is the affine image of the degree-weighted average. -/
theorem mean_affine (S D : E → V) (x : V → K → ℝ) (w : K → ℝ) (b N : ℝ) (hN : (Fintype.card V : ℝ) = N) (hN0 : N ≠ 0) :
    (∑ v, ((∑ k, (x v k + ∑ r, (if D r = v then x (S r) k else 0) + ∑ r, (if S r = v then x (D r) k else 0)) * w k) + b)) * (1 / N)
      = (∑ k, ((∑ v, x v k * (1 + ∑ r, (if D r = v then (1 : ℝ) else 0) + ∑ r, (if S r = v then (1 : ℝ) else 0))) * (1 / N)) * w k) + b := by
  rw [Finset.sum_add_distrib, Finset.sum_const, Finset.card_univ, nsmul_eq_mul, hN, add_mul]
  have hb : N * b * (1 / N) = b := by field_simp
  rw [hb]
  refine congrArg (· + b) ?_
  rw [Finset.sum_comm, Finset.sum_mul]
  refine Finset.sum_congr rfl fun k _ => ?_
  rw [← Finset.sum_mul, degree_sum S D (fun v => x v k)]
  ring

end Cert.DegreeSum
-- ==== Proof.Algebra.lean ====
/-
  Real-valued arrays stay real-valued through the network, and on real-valued rows the two closings agree:
    mean_v ( agg(H)(v, ·) · W + b ) = ( (1/N) Σ_v w(v) · H(v, ·) ) · W + b,
  by the degree-counting identity (every node's row is counted once for itself and once per edge end), moved between
  the reals and the extended reals entry by entry. Finiteness is what makes the distributive steps valid.
-/
import proofs.«154293_j5291399708984_2_alg».proof.Proof.Spec
import proofs.«154293_j5291399708984_2_alg».proof.Proof.AggRead
import proofs.«154293_j5291399708984_2_alg».proof.Proof.LibDegreeSum

noncomputable section

open scoped BigOperators

namespace Cert.Gcn

open Idealize.ShloMosaic Idealize.ShloMosaic.ValueIdx Cert.DegreeSum

/-- Every entry is a real number. -/
def IsReal {s : Shape} (x : s.Idx → EReal) : Prop := ∀ i, ∃ r : ℝ, x i = (r : EReal)

variable (h : Side) (hw : SideW)

theorem agg_real (H : FVec Ideal SNF .f32) (hH : IsReal H) (s d : IVec SE 32) (hs : InRange s) (hd : InRange d) :
    IsReal (agg h H s d) := by
  intro i
  obtain ⟨p, k, rfl⟩ : ∃ (p : Fin 100000) (k : Fin 64), i = ix2 p k := ⟨i 0, i 1, eq_ix2 i⟩
  choose Hr hHr using hH
  rw [agg_apply h H s d hs hd p k]
  refine ⟨Hr (ix2 p k) + (∑ r, if node d hd r = p then Hr (ix2 (node s hs r) k) else 0)
    + ∑ r, if node s hs r = p then Hr (ix2 (node d hd r) k) else 0, ?_⟩
  rw [EReal.coe_add, EReal.coe_add, coe_sum, coe_sum]
  simp only [coe_ite, hHr]

theorem coe_max (a b : ℝ) : ((max a b : ℝ) : EReal) = max (a : EReal) (b : EReal) :=
  EReal.coe_strictMono.monotone.map_max

theorem linRelu_real (W : FVec Ideal SFF .f32) (b : FVec Ideal SF .f32) (A : FVec Ideal SNF .f32)
    (hW : IsReal W) (hb : IsReal b) (hA : IsReal A) : IsReal (linRelu W b A) := by
  intro i
  choose Wr hWr using hW
  choose br hbr using hb
  choose Ar hAr using hA
  refine ⟨max ((∑ k : Fin 64, Ar (ix2 ⟨(i 0).val, (i 0).isLt⟩ k) * Wr (ix2 k ⟨(i 1).val, (i 1).isLt⟩))
    + br (ix1 ⟨(i 1).val, (i 1).isLt⟩)) 0, ?_⟩
  show linReluAt W b A _ _ = _
  unfold linReluAt
  rw [coe_max, EReal.coe_zero, EReal.coe_add, coe_sum]
  simp only [hWr, hbr, hAr, EReal.coe_mul]

theorem hidden_real (X : FVec Ideal SNF .f32) (s d : IVec SE 32) (hs : InRange s) (hd : InRange d)
    (W0 : FVec Ideal SFF .f32) (b0 : FVec Ideal SF .f32) (W1 : FVec Ideal SFF .f32) (b1 : FVec Ideal SF .f32)
    (W2 : FVec Ideal SFF .f32) (b2 : FVec Ideal SF .f32)
    (hX : IsReal X) (hW0 : IsReal W0) (hb0 : IsReal b0) (hW1 : IsReal W1) (hb1 : IsReal b1) (hW2 : IsReal W2) (hb2 : IsReal b2) :
    IsReal (hidden h X s d W0 b0 W1 b1 W2 b2) := by
  unfold hidden
  exact linRelu_real _ _ _ hW2 hb2 (agg_real h _ (linRelu_real _ _ _ hW1 hb1 (agg_real h _
    (linRelu_real _ _ _ hW0 hb0 (agg_real h _ hX s d hs hd)) s d hs hd)) s d hs hd)

/-- THE IDENTITY: on real-valued rows, weights and bias, the reference's closing of the aggregated rows is the kernel's
    closing of the degree-weighted rows. -/
theorem mean_identity (H : FVec Ideal SNF .f32) (hH : IsReal H) (W3 : FVec Ideal SFC .f32) (hW : IsReal W3)
    (b3 : FVec Ideal SC .f32) (hb : IsReal b3) (s d : IVec SE 32) (hs : InRange s) (hd : InRange d) (q : Fin 16) :
    meanOfAffineAt W3 b3 (agg h H s d) q = affineOfMeanAt W3 b3 (weighted h hw H s d) q := by
  choose Hr hHr using hH
  choose Wr hWr using hW
  choose br hbr using hb
  have hagg : ∀ (v : Fin 100000) (k : Fin 64), agg h H s d (ix2 v k)
      = ((Hr (ix2 v k) + (∑ r, if node d hd r = v then Hr (ix2 (node s hs r) k) else 0)
        + ∑ r, if node s hs r = v then Hr (ix2 (node d hd r) k) else 0 : ℝ) : EReal) := by
    intro v k
    rw [agg_apply h H s d hs hd v k, EReal.coe_add, EReal.coe_add, coe_sum, coe_sum]
    simp only [coe_ite, hHr]
  have hwt : ∀ v : Fin 100000, wt h hw s d (ix1 v)
      = ((1 + (∑ r, if node d hd r = v then (1 : ℝ) else 0) + ∑ r, if node s hs r = v then (1 : ℝ) else 0 : ℝ) : EReal) := by
    intro v
    rw [wt_apply h hw s d hs hd v, EReal.coe_add, EReal.coe_add, coe_sum, coe_sum, EReal.coe_one]
    simp only [coe_ite, EReal.coe_one]
  have hwd : ∀ (v : Fin 100000) (k : Fin 64), weighted h hw H s d (ix2 v k)
      = ((Hr (ix2 v k) * (1 + (∑ r, if node d hd r = v then (1 : ℝ) else 0) + ∑ r, if node s hs r = v then (1 : ℝ) else 0) : ℝ) : EReal) := by
    intro v k
    rw [weighted_apply h hw H s d v k, hwt v, hHr, EReal.coe_mul]
  unfold meanOfAffineAt affineOfMeanAt
  simp only [hagg, hwd, hWr, hbr, zero_add, ← EReal.coe_mul, ← coe_sum, ← EReal.coe_add]
  rw [Ideal.div_coe (by norm_num : (100000 : ℝ) ≠ 0), ← EReal.coe_mul]
  refine congrArg (fun x : ℝ => (x : EReal)) ?_
  exact mean_affine (fun r => node s hs r) (fun r => node d hd r) (fun v k => Hr (ix2 v k)) (fun k => Wr (ix2 k q))
    (br (ix1 q)) 100000 (by simp) (by norm_num)

end Cert.Gcn

end
-- ==== Proof.Algebraic.lean ====
/-
  The two idealized programs end with equal results.

  The kernel program's result buffer holds  ((1/N) Σ_v w(v) · H(v, ·)) · W₃ + b₃  and the reference's holds
  mean_v ( agg(H)(v, ·) · W₃ + b₃ ), for the same hidden rows H (three layers of aggregation, affine map and max(·, 0)
  of the same arguments in both programs) and w(v) = 1 + the number of edge ends at v. Under the precondition every
  float argument is finite, so H is real-valued, and every word of the edge list names a node: the two are equal by
  the degree-counting identity.
-/
import proofs.«154293_j5291399708984_2_alg».proof.Defs
import proofs.«154293_j5291399708984_2_alg».proof.Proof.KI.Run
import proofs.«154293_j5291399708984_2_alg».proof.Proof.KernelValue
import proofs.«154293_j5291399708984_2_alg».proof.Proof.RefValue
import proofs.«154293_j5291399708984_2_alg».proof.Proof.RangeFacts
import proofs.«154293_j5291399708984_2_alg».proof.Proof.PreFacts
import proofs.«154293_j5291399708984_2_alg».proof.Proof.Algebra

noncomputable section

namespace Cert.Proof

open Idealize.ShloMosaic Idealize.ShloMosaic.TcCoe Idealize.SL.Sem

/-- From memories agreeing on the arguments, the reference's result is what the kernel program's result buffer ends
    holding. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v114 m' c
      = Cert.KernelIdeal.Hand.W8 m c (Proc.devRef .tc Cert.KernelIdeal.main_v93) := by
  rewrite [Cert.ReferenceIdeal.Read.val_main_v114_eq, a0, a1, a2, a3, a4, a5, a6, a7, a8, a9,
    Cert.ReferenceIdeal.RefValue.result_eq, Cert.KernelIdeal.Val.kernel_result]
  funext i
  obtain ⟨r0, r2, r3, r4, r5, r6, r7, r8, r9, hE⟩ := Cert.PreFacts.of_pre _ _ _ _ _ _ _ _ _ _ (hpre c)
  have hs := Cert.ReferenceIdeal.RangeFacts.src_inRange _ hE
  have hd := Cert.ReferenceIdeal.RangeFacts.dst_inRange _ hE
  exact Cert.Gcn.mean_identity Cert.KernelIdeal.HostVal.side Cert.KernelIdeal.HostVal.sideW _
    (Cert.Gcn.hidden_real Cert.KernelIdeal.HostVal.side _ _ _ hs hd _ _ _ _ _ _ r0 r2 r3 r4 r5 r6 r7)
    _ r8 _ r9 _ _ hs hd ⟨(i 1).val, (i 1).isLt⟩

/-- At the ideal values the kernel program and the reference, from memories agreeing on the arguments, both run, end
    with equal results and leave the arguments unchanged. -/
theorem algebraic : Cert.algebraic_KernelIdeal_ReferenceIdeal := by
  intro m ρ m' ρ' hpre hagree
  refine ⟨fun c => Cert.KernelIdeal.Hand.W8 m c (Proc.devRef .tc Cert.KernelIdeal.main_v93),
    Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  exact results_agree m m' hpre c a0 a1 a2 a3 a4 a5 a6 a7 a8 a9

end Cert.Proof

end
-- ==== Proof.lean ====
/- The proof of `Cert.Claim`: the five claims of this certificate about a 4-layer graph convolution over 100000 nodes
   and 800000 edges, as the kernel program computes it and as the reference program does.
   A layer aggregates along the edges — node v's aggregated row is its own row plus the rows of the other end of
   every edge it is an end of, A_v = H_v + Σ_{e : dst e = v} H_{src e} + Σ_{e : src e = v} H_{dst e}, by gathers and
   scatter-adds on the host — and takes an affine image of the aggregated rows. Layers 0–2 are the same operations in
   both programs: max(A·W + b, 0), in the kernel program by a kernel tiled over 10 blocks of 10000 rows, the weights
   and the bias fetched once.
   The last layer differs. The reference averages over the 100000 nodes the affine image A_v·W₃ + b₃ of the aggregated
   rows. The kernel program never aggregates: on the host it weights each row by 1 + deg v (deg v the number of edge
   words naming v), a kernel over the same 10 blocks accumulates the column sums of the weighted blocks in a scratch
   row carried from block to block, and at the last block scales that row by 1/100000 and applies W₃ and b₃ once: the
   affine image of the degree-weighted mean of the rows. The two agree when every edge word names a node (the
   precondition added to the claim: then Σ_v A_v = Σ_v (1 + deg v)·H_v, each edge giving each of its ends' rows once)
   and every float is finite (then sums and products distribute as in the reals, so the mean of the affine images is
   the affine image of the mean). 1/100000 is the one named constant of the idealized kernel program; the f32 constant
   it replaces is that value at the ideal instance.
   The three frame claims — each program runs to its end, nothing faulting, its argument arrays unchanged — are the
   run of each program's segments: host stretches and, for the kernel programs, the four tiled kernels between them. -/
import proofs.«154293_j5291399708984_2_alg».proof.Defs
import proofs.«154293_j5291399708984_2_alg».proof.Proof.Gen.Kernel
import proofs.«154293_j5291399708984_2_alg».proof.Proof.Gen.Kernel.Skeleton
import proofs.«154293_j5291399708984_2_alg».proof.Proof.Gen.Kernel.Launch
import proofs.«154293_j5291399708984_2_alg».proof.Proof.Gen.Kernel.Regions
import proofs.«154293_j5291399708984_2_alg».proof.Proof.Gen.Kernel.Points
import proofs.«154293_j5291399708984_2_alg».proof.Proof.Gen.KernelIdeal
import proofs.«154293_j5291399708984_2_alg».proof.Proof.Gen.KernelIdeal.Skeleton
import proofs.«154293_j5291399708984_2_alg».proof.Proof.Gen.KernelIdeal.Launch
import proofs.«154293_j5291399708984_2_alg».proof.Proof.Gen.KernelIdeal.Regions
import proofs.«154293_j5291399708984_2_alg».proof.Proof.Gen.KernelIdeal.Points
import proofs.«154293_j5291399708984_2_alg».proof.Proof.Gen.ReferenceIdeal
import proofs.«154293_j5291399708984_2_alg».proof.Proof.Gen.Pre_finite_inputs
import proofs.«154293_j5291399708984_2_alg».proof.Proof.K.Run
import proofs.«154293_j5291399708984_2_alg».proof.Proof.KI.Run
import proofs.«154293_j5291399708984_2_alg».proof.Proof.RefImports
import proofs.«154293_j5291399708984_2_alg».proof.Proof.Algebraic
import Idealize.ShloMosaic.Adequacy
import Idealize.ShloMosaic.Init

noncomputable section

namespace Cert.Proof

open Idealize.ShloMosaic Idealize.SL.Sem

/-- The kernel program as printed runs to its end and leaves its arguments as launched: the run of its eight
    segments, at the bit-exact instance. -/
theorem frame_Kernel : Cert.frame_Kernel := fun m ρ _ => Cert.Kernel.Hand.frame m ρ

/-- The idealized kernel program runs to its end and leaves its arguments as launched: the same run, at the ideal
    instance. -/
theorem frame_KernelIdeal : Cert.frame_KernelIdeal := fun m ρ _ => Cert.KernelIdeal.Hand.frame m ρ

/-- The idealized reference runs to its end and leaves its arguments as launched: its run as one stretch of host
    operations, the result's reading dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the table gives `"inv_100000"` the value `1/100000`, and the printed f32
    constant is that value at the ideal instance. -/
theorem preserves : Cert.preserves_Kernel_KernelIdeal :=
  IdealRules.named_const.statement Cert.KernelIdeal.κ "inv_100000" .f32 0x3727C5AC#32 ((1 / 100000 : ℝ) : EReal) rfl

/-- Everything this certificate claims, under the witnesses of the programs' stated facts. -/
theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
